-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S20000x1280 : Shape := ⟨2, ![20000, 1280]⟩
abbrev S1000000 : Shape := ⟨1, ![1000000]⟩
abbrev S4x128 : Shape := ⟨2, ![4, 128]⟩
abbrev S128 : Shape := ⟨1, ![128]⟩
abbrev S1280x128 : Shape := ⟨2, ![1280, 128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S20000x1280 : S_.BroadcastsInDim S20000x1280 (![] : Fin 0 → Fin S20000x1280.rank)
  reducesTo_S20000x1280_S_d0_1 : S20000x1280.ReducesTo [0, 1] S_
  bcast_S_S4x128 : S_.BroadcastsInDim S4x128 (![] : Fin 0 → Fin S4x128.rank)
  reducesTo_S4x128_S_d0_1 : S4x128.ReducesTo [0, 1] S_
  bcast_S_S128 : S_.BroadcastsInDim S128 (![] : Fin 0 → Fin S128.rank)
  reducesTo_S128_S_d0 : S128.ReducesTo [0] S_
  bcast_S_S1280x128 : S_.BroadcastsInDim S1280x128 (![] : Fin 0 → Fin S1280x128.rank)
  reducesTo_S1280x128_S_d0_1 : S1280x128.ReducesTo [0, 1] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg16 : FVec F S256x128 .f32) (main_arg17 : FVec F S128 .f32) (main_arg18 : FVec F S128x1 .f32) (main_arg19 : FVec F S1 .f32) (main_v63 : IVec S_ 1) (main_v67 : IVec S_ 1) : IVec S_ 1 :=
  let main_v68 : IVec S_ 1 := andi main_v63 main_v67
  let main_v69 : FVec F S256x128 .f32 := Host.absf main_arg16
  let main_cst_26 : FVec F S_ .f32 := constant S_ .f32 0x7F800000#32
  let main_v70 : FVec F S256x128 .f32 := broadcastInDim S256x128 ![] bcast_S_S256x128 main_cst_26
  let main_v71 : IVec S256x128 1 := cmpf .olt main_v69 main_v70
  let main_c_27 : IVec S_ 1 := constantI S_ 1 1#1
  let main_v72 : IVec S_ 1 := (fun x v => Host.reduce IntOp.andi x v reducesTo_S256x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x1 .f32 := Host.absf main_arg18
  let main_cst_30 : FVec F S_ .f32 := constant S_ .f32 0x7F800000#32
  let main_v80 : FVec F S128x1 .f32 := broadcastInDim S128x1 ![] bcast_S_S128x1 main_cst_30
  let main_v81 : IVec S128x1 1 := cmpf .olt main_v79 main_v80
  let main_c_31 : IVec S_ 1 := constantI S_ 1 1#1
  let main_v82 : IVec S_ 1 := (fun x v => Host.reduce IntOp.andi x v reducesTo_S128x1_S_d0_1 h_S_) main_v81 main_c_31
  let main_v83 : IVec S_ 1 := andi main_v78 main_v82
  let main_v84 : FVec F S1 .f32 := Host.absf main_arg19
  let main_cst_32 : FVec F S_ .f32 := constant S_ .f32 0x7F800000#32
  fn_part5 (F := F) main_v83 main_v84 main_cst_32

def fn_part3 {F : FTy → Type} [FloatOps F] (main_arg13 : FVec F S128 .f32) (main_arg14 : FVec F S128x128 .f32) (main_arg15 : FVec F S128 .f32) (main_arg16 : FVec F S256x128 .f32) (main_arg17 : FVec F S128 .f32) (main_arg18 : FVec F S128x1 .f32) (main_arg19 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_v63 main_v67

def fn_part2 {F : FTy → Type} [FloatOps F] (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S256x128 .f32) (main_arg17 : FVec F S128 .f32) (main_arg18 : FVec F S128x1 .f32) (main_arg19 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_arg17 main_arg18 main_arg19 main_v48 main_v49 main_v50

def fn_part1 {F : FTy → Type} [FloatOps F] (main_arg6 : FVec F S1280x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S256x128 .f32) (main_arg17 : FVec F S128 .f32) (main_arg18 : FVec F S128x1 .f32) (main_arg19 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S1280x128 .f32 := Host.absf main_arg6
  let main_cst_6 : FVec F S_ .f32 := constant S_ .f32 0x7F800000#32
  let main_v20 : FVec F S1280x128 .f32 := broadcastInDim S1280x128 ![] bcast_S_S1280x128 main_cst_6
  let main_v21 : IVec S1280x128 1 := cmpf .olt main_v19 main_v20
  let main_c_7 : IVec S_ 1 := constantI S_ 1 1#1
  let main_v22 : IVec S_ 1 := (fun x v => Host.reduce IntOp.andi x v reducesTo_S1280x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_v33

def fn {F : FTy → Type} [FloatOps F] (main_arg0 : FVec F S100000x4 .f32) (main_arg1 : FVec F S20000x1280 .f32) (main_arg2 : IVec S1000000 32) (main_arg3 : IVec S1000000 32) (main_arg4 : FVec F S4x128 .f32) (main_arg5 : FVec F S128 .f32) (main_arg6 : FVec F S1280x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S256x128 .f32) (main_arg17 : FVec F S128 .f32) (main_arg18 : FVec F S128x1 .f32) (main_arg19 : FVec F S1 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S20000x1280 .f32 := Host.absf main_arg1
  let main_cst_0 : FVec F S_ .f32 := constant S_ .f32 0x7F800000#32
  let main_v5 : FVec F S20000x1280 .f32 := broadcastInDim S20000x1280 ![] bcast_S_S20000x1280 main_cst_0
  let main_v6 : IVec S20000x1280 1 := cmpf .olt main_v4 main_v5
  let main_c_1 : IVec S_ 1 := constantI S_ 1 1#1
  let main_v7 : IVec S_ 1 := (fun x v => Host.reduce IntOp.andi x v reducesTo_S20000x1280_S_d0_1 h_S_) main_v6 main_c_1
  let main_v8 : IVec S_ 1 := andi main_v3 main_v7
  let main_v9 : FVec F S4x128 .f32 := Host.absf main_arg4
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_v13 main_v16
-- ==== Kernel.lean ====
abbrev S100000x4 : Shape := ⟨2, ![100000, 4]⟩
abbrev S20000x1280 : Shape := ⟨2, ![20000, 1280]⟩
abbrev S1000000 : Shape := ⟨1, ![1000000]⟩
abbrev S4x128 : Shape := ⟨2, ![4, 128]⟩
abbrev S128 : Shape := ⟨1, ![128]⟩
abbrev S1280x128 : Shape := ⟨2, ![1280, 128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S1x128 : Shape := ⟨2, ![1, 128]⟩
abbrev S100000x128 : Shape := ⟨2, ![100000, 128]⟩
abbrev S5000x4 : Shape := ⟨2, ![5000, 4]⟩
abbrev S5000x128 : Shape := ⟨2, ![5000, 128]⟩
abbrev S20000x128 : Shape := ⟨2, ![20000, 128]⟩
abbrev S1000x1280 : Shape := ⟨2, ![1000, 1280]⟩
abbrev S1000x128 : Shape := ⟨2, ![1000, 128]⟩
abbrev S_ : Shape := ⟨0, ![]⟩
abbrev S20000 : Shape := ⟨1, ![20000]⟩
abbrev S1000000x1 : Shape := ⟨2, ![1000000, 1]⟩
abbrev S100000 : Shape := ⟨1, ![100000]⟩
abbrev S20000x1 : Shape := ⟨2, ![20000, 1]⟩
abbrev S100000x1 : Shape := ⟨2, ![100000, 1]⟩
abbrev S1000000x128 : Shape := ⟨2, ![1000000, 128]⟩
abbrev S2000x128 : Shape := ⟨2, ![2000, 128]⟩
abbrev S10000x128 : Shape := ⟨2, ![10000, 128]⟩
abbrev S4000x128 : Shape := ⟨2, ![4000, 128]⟩
abbrev S1x1 : Shape := ⟨2, ![1, 1]⟩
abbrev S5000x1 : Shape := ⟨2, ![5000, 1]⟩
abbrev S5000 : Shape := ⟨1, ![5000]⟩

abbrev nBuf : Space → Nat
  | .hbm => 150
  | .vmem => 57
  | .smem => 0
  | _ => 0

abbrev hbmTy0_0 (i : Nat) : BufTy := match i % 128 with
  | 0 => ⟨S100000x4, .f32⟩
  | 1 => ⟨S20000x1280, .f32⟩
  | 2 => ⟨S1000000, .i32⟩
  | 3 => ⟨S1000000, .i32⟩
  | 4 => ⟨S4x128, .f32⟩
  | 5 => ⟨S128, .f32⟩
  | 6 => ⟨S1280x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S256x128, .f32⟩
  | 17 => ⟨S128, .f32⟩
  | 18 => ⟨S128x1, .f32⟩
  | 19 => ⟨S1, .f32⟩
  | 20 => ⟨S1x128, .f32⟩
  | 21 => ⟨S100000x128, .bf16⟩
  | 22 => ⟨S1x128, .f32⟩
  | 23 => ⟨S20000x128, .bf16⟩
  | 24 => ⟨S_, .f32⟩
  | 25 => ⟨S1000000, .f32⟩
  | 26 => ⟨S_, .f32⟩
  | 27 => ⟨S20000, .f32⟩
  | 28 => ⟨S1000000x1, .i32⟩
  | 29 => ⟨S20000, .f32⟩
  | 30 => ⟨S_, .f32⟩
  | 31 => ⟨S100000, .f32⟩
  | 32 => ⟨S1000000x1, .i32⟩
  | 33 => ⟨S100000, .f32⟩
  | 34 => ⟨S_, .f32⟩
  | 35 => ⟨S20000, .f32⟩
  | 36 => ⟨S20000, .f32⟩
  | 37 => ⟨S_, .f32⟩
  | 38 => ⟨S20000, .f32⟩
  | 39 => ⟨S20000, .f32⟩
  | 40 => ⟨S20000x1, .f32⟩
  | 41 => ⟨S_, .f32⟩
  | 42 => ⟨S100000, .f32⟩
  | 43 => ⟨S100000, .f32⟩
  | 44 => ⟨S_, .f32⟩
  | 45 => ⟨S100000, .f32⟩
  | 46 => ⟨S100000, .f32⟩
  | 47 => ⟨S100000x1, .f32⟩
  | 48 => ⟨S_, .i32⟩
  | 49 => ⟨S1000000, .i32⟩
  | 50 => ⟨S1000000, .i1⟩
  | 51 => ⟨S_, .i32⟩
  | 52 => ⟨S1000000, .i32⟩
  | 53 => ⟨S1000000, .i32⟩
  | 54 => ⟨S1000000, .i32⟩
  | 55 => ⟨S1000000x1, .i32⟩
  | 56 => ⟨S1000000x128, .bf16⟩
  | 57 => ⟨S1000000x128, .f32⟩
  | 58 => ⟨S_, .f32⟩
  | 59 => ⟨S20000x128, .f32⟩
  | 60 => ⟨S1000000x1, .i32⟩
  | 61 => ⟨S20000x128, .f32⟩
  | 62 => ⟨S20000x128, .f32⟩
  | 63 => ⟨S20000x128, .f32⟩
  | 64 => ⟨S_, .i32⟩
  | 65 => ⟨S1000000, .i32⟩
  | 66 => ⟨S1000000, .i1⟩
  | 67 => ⟨S_, .i32⟩
  | 68 => ⟨S1000000, .i32⟩
  | 69 => ⟨S1000000, .i32⟩
  | 70 => ⟨S1000000, .i32⟩
  | 71 => ⟨S1000000x1, .i32⟩
  | 72 => ⟨S1000000x128, .bf16⟩
  | 73 => ⟨S1000000x128, .f32⟩
  | 74 => ⟨S_, .f32⟩
  | 75 => ⟨S100000x128, .f32⟩
  | 76 => ⟨S1000000x1, .i32⟩
  | 77 => ⟨S100000x128, .f32⟩
  | 78 => ⟨S100000x128, .f32⟩
  | 79 => ⟨S100000x128, .f32⟩
  | 80 => ⟨S1x128, .f32⟩
  | 81 => ⟨S20000x128, .bf16⟩
  | 82 => ⟨S1x128, .f32⟩
  | 83 => ⟨S100000x128, .bf16⟩
  | 84 => ⟨S_, .i32⟩
  | 85 => ⟨S1000000, .i32⟩
  | 86 => ⟨S1000000, .i1⟩
  | 87 => ⟨S_, .i32⟩
  | 88 => ⟨S1000000, .i32⟩
  | 89 => ⟨S1000000, .i32⟩
  | 90 => ⟨S1000000, .i32⟩
  | 91 => ⟨S1000000x1, .i32⟩
  | 92 => ⟨S1000000x128, .bf16⟩
  | 93 => ⟨S1000000x128, .f32⟩
  | 94 => ⟨S_, .f32⟩
  | 95 => ⟨S20000x128, .f32⟩
  | 96 => ⟨S1000000x1, .i32⟩
  | 97 => ⟨S20000x128, .f32⟩
  | 98 => ⟨S20000x128, .f32⟩
  | 99 => ⟨S20000x128, .f32⟩
  | 100 => ⟨S_, .i32⟩
  | 101 => ⟨S1000000, .i32⟩
  | 102 => ⟨S1000000, .i1⟩
  | 103 => ⟨S_, .i32⟩
  | 104 => ⟨S1000000, .i32⟩
  | 105 => ⟨S1000000, .i32⟩
  | 106 => ⟨S1000000, .i32⟩
  | 107 => ⟨S1000000x1, .i32⟩
  | 108 => ⟨S1000000x128, .bf16⟩
  | 109 => ⟨S1000000x128, .f32⟩
  | 110 => ⟨S_, .f32⟩
  | 111 => ⟨S100000x128, .f32⟩
  | 112 => ⟨S1000000x1, .i32⟩
  | 113 => ⟨S100000x128, .f32⟩
  | 114 => ⟨S100000x128, .f32⟩
  | 115 => ⟨S100000x128, .f32⟩
  | 116 => ⟨S1x128, .f32⟩
  | 117 => ⟨S20000x128, .bf16⟩
  | 118 => ⟨S1x128, .f32⟩
  | 119 => ⟨S100000x128, .bf16⟩
  | 120 => ⟨S128x128, .f32⟩
  | 121 => ⟨S128x128, .f32⟩
  | 122 => ⟨S_, .f32⟩
  | 123 => ⟨S128, .f32⟩
  | 124 => ⟨S1x128, .f32⟩
  | 125 => ⟨S100000x128, .bf16⟩
  | 126 => ⟨S1x128, .f32⟩
  | 127 => ⟨S20000x128, .bf16⟩
  | _ => ⟨S100000x4, .f32⟩

abbrev hbmTy0_1 (i : Nat) : BufTy := match i % 128 with
  | 0 => ⟨S_, .i32⟩
  | 1 => ⟨S1000000, .i32⟩
  | 2 => ⟨S1000000, .i1⟩
  | 3 => ⟨S_, .i32⟩
  | 4 => ⟨S1000000, .i32⟩
  | 5 => ⟨S1000000, .i32⟩
  | 6 => ⟨S1000000, .i32⟩
  | 7 => ⟨S1000000x1, .i32⟩
  | 8 => ⟨S1000000x128, .bf16⟩
  | 9 => ⟨S_, .i32⟩
  | 10 => ⟨S1000000, .i32⟩
  | 11 => ⟨S1000000, .i1⟩
  | 12 => ⟨S_, .i32⟩
  | 13 => ⟨S1000000, .i32⟩
  | 14 => ⟨S1000000, .i32⟩
  | 15 => ⟨S1000000, .i32⟩
  | 16 => ⟨S1000000x1, .i32⟩
  | 17 => ⟨S1000000x128, .bf16⟩
  | 18 => ⟨S1x128, .f32⟩
  | 19 => ⟨S1x128, .f32⟩
  | 20 => ⟨S1x1, .f32⟩
  | 21 => ⟨S1000000x1, .f32⟩
  | _ => ⟨S100000x4, .f32⟩

abbrev hbmTy (i : Nat) : BufTy := match i / 128 with
  | 0 => hbmTy0_0 i
  | 1 => hbmTy0_1 i
  | _ => ⟨S100000x4, .f32⟩

abbrev bufTy : (tb : Table) → Fin (tcTables nBuf tb) → BufTy
  | .hbm, ⟨i, _⟩ => hbmTy i
  | .local _ .vmem, ⟨0, _⟩ => ⟨S5000x4, .f32⟩
  | .local _ .vmem, ⟨1, _⟩ => ⟨S5000x4, .f32⟩
  | .local _ .vmem, ⟨2, _⟩ => ⟨S4x128, .f32⟩
  | .local _ .vmem, ⟨3, _⟩ => ⟨S1x128, .f32⟩
  | .local _ .vmem, ⟨4, _⟩ => ⟨S5000x128, .bf16⟩
  | .local _ .vmem, ⟨5, _⟩ => ⟨S5000x128, .bf16⟩
  | .local _ .vmem, ⟨6, _⟩ => ⟨S1000x1280, .f32⟩
  | .local _ .vmem, ⟨7, _⟩ => ⟨S1000x1280, .f32⟩
  | .local _ .vmem, ⟨8, _⟩ => ⟨S1280x128, .f32⟩
  | .local _ .vmem, ⟨9, _⟩ => ⟨S1x128, .f32⟩
  | .local _ .vmem, ⟨10, _⟩ => ⟨S1000x128, .bf16⟩
  | .local _ .vmem, ⟨11, _⟩ => ⟨S1000x128, .bf16⟩
  | .local _ .vmem, ⟨12, _⟩ => ⟨S2000x128, .f32⟩
  | .local _ .vmem, ⟨13, _⟩ => ⟨S2000x128, .f32⟩
  | .local _ .vmem, ⟨14, _⟩ => ⟨S128x128, .f32⟩
  | .local _ .vmem, ⟨15, _⟩ => ⟨S1x128, .f32⟩
  | .local _ .vmem, ⟨16, _⟩ => ⟨S2000x128, .bf16⟩
  | .local _ .vmem, ⟨17, _⟩ => ⟨S2000x128, .bf16⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S1x128, .f32⟩
  | .local _ .vmem, ⟨22, _⟩ => ⟨S5000x128, .bf16⟩
  | .local _ .vmem, ⟨23, _⟩ => ⟨S5000x128, .bf16⟩
  | .local _ .vmem, ⟨24, _⟩ => ⟨S2000x128, .f32⟩
  | .local _ .vmem, ⟨25, _⟩ => ⟨S2000x128, .f32⟩
  | .local _ .vmem, ⟨26, _⟩ => ⟨S128x128, .f32⟩
  | .local _ .vmem, ⟨27, _⟩ => ⟨S1x128, .f32⟩
  | .local _ .vmem, ⟨28, _⟩ => ⟨S2000x128, .bf16⟩
  | .local _ .vmem, ⟨29, _⟩ => ⟨S2000x128, .bf16⟩
  | .local _ .vmem, ⟨30, _⟩ => ⟨S5000x128, .f32⟩
  | .local _ .vmem, ⟨31, _⟩ => ⟨S5000x128, .f32⟩
  | .local _ .vmem, ⟨32, _⟩ => ⟨S128x128, .f32⟩
  | .local _ .vmem, ⟨33, _⟩ => ⟨S1x128, .f32⟩
  | .local _ .vmem, ⟨34, _⟩ => ⟨S5000x128, .bf16⟩
  | .local _ .vmem, ⟨35, _⟩ => ⟨S5000x128, .bf16⟩
  | .local _ .vmem, ⟨36, _⟩ => ⟨S10000x128, .bf16⟩
  | .local _ .vmem, ⟨37, _⟩ => ⟨S10000x128, .bf16⟩
  | .local _ .vmem, ⟨38, _⟩ => ⟨S128x128, .f32⟩
  | .local _ .vmem, ⟨39, _⟩ => ⟨S1x128, .f32⟩
  | .local _ .vmem, ⟨40, _⟩ => ⟨S10000x128, .bf16⟩
  | .local _ .vmem, ⟨41, _⟩ => ⟨S10000x128, .bf16⟩
  | .local _ .vmem, ⟨42, _⟩ => ⟨S4000x128, .bf16⟩
  | .local _ .vmem, ⟨43, _⟩ => ⟨S4000x128, .bf16⟩
  | .local _ .vmem, ⟨44, _⟩ => ⟨S128x128, .f32⟩
  | .local _ .vmem, ⟨45, _⟩ => ⟨S1x128, .f32⟩
  | .local _ .vmem, ⟨46, _⟩ => ⟨S4000x128, .bf16⟩
  | .local _ .vmem, ⟨47, _⟩ => ⟨S4000x128, .bf16⟩
  | .local _ .vmem, ⟨48, _⟩ => ⟨S5000x128, .bf16⟩
  | .local _ .vmem, ⟨49, _⟩ => ⟨S5000x128, .bf16⟩
  | .local _ .vmem, ⟨50, _⟩ => ⟨S5000x128, .bf16⟩
  | .local _ .vmem, ⟨51, _⟩ => ⟨S5000x128, .bf16⟩
  | .local _ .vmem, ⟨52, _⟩ => ⟨S1x128, .f32⟩
  | .local _ .vmem, ⟨53, _⟩ => ⟨S1x128, .f32⟩
  | .local _ .vmem, ⟨54, _⟩ => ⟨S1x1, .f32⟩
  | .local _ .vmem, ⟨55, _⟩ => ⟨S5000x1, .f32⟩
  | .local _ .vmem, ⟨56, _⟩ => ⟨S5000x1, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst : Ref sig .tc := ⟨.hbm, 24, rfl⟩
abbrev main_v4 : Ref sig .tc := ⟨.hbm, 25, rfl⟩
abbrev main_cst_0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_1 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst_2 : Ref sig .tc := ⟨.hbm, 34, rfl⟩
abbrev main_v11 : Ref sig .tc := ⟨.hbm, 35, rfl⟩
abbrev main_v12 : Ref sig .tc := ⟨.hbm, 36, rfl⟩
abbrev main_cst_3 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_cst_4 : Ref sig .tc := ⟨.hbm, 41, rfl⟩
abbrev main_v16 : Ref sig .tc := ⟨.hbm, 42, rfl⟩
abbrev main_v17 : Ref sig .tc := ⟨.hbm, 43, rfl⟩
abbrev main_cst_5 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_c : Ref sig .tc := ⟨.hbm, 48, rfl⟩
abbrev main_v21 : Ref sig .tc := ⟨.hbm, 49, rfl⟩
abbrev main_v22 : Ref sig .tc := ⟨.hbm, 50, rfl⟩
abbrev main_c_6 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_cst_7 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_c_8 : Ref sig .tc := ⟨.hbm, 64, rfl⟩
abbrev main_v34 : Ref sig .tc := ⟨.hbm, 65, rfl⟩
abbrev main_v35 : Ref sig .tc := ⟨.hbm, 66, rfl⟩
abbrev main_c_9 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_10 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_c_11 : Ref sig .tc := ⟨.hbm, 84, rfl⟩
abbrev main_v51 : Ref sig .tc := ⟨.hbm, 85, rfl⟩
abbrev main_v52 : Ref sig .tc := ⟨.hbm, 86, rfl⟩
abbrev main_c_12 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_13 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_c_14 : Ref sig .tc := ⟨.hbm, 100, rfl⟩
abbrev main_v64 : Ref sig .tc := ⟨.hbm, 101, rfl⟩
abbrev main_v65 : Ref sig .tc := ⟨.hbm, 102, rfl⟩
abbrev main_c_15 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_cst_16 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_cst_17 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_c_18 : Ref sig .tc := ⟨.hbm, 128, rfl⟩
abbrev main_v88 : Ref sig .tc := ⟨.hbm, 129, rfl⟩
abbrev main_v89 : Ref sig .tc := ⟨.hbm, 130, rfl⟩
abbrev main_c_19 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_c_20 : Ref sig .tc := ⟨.hbm, 137, rfl⟩
abbrev main_v95 : Ref sig .tc := ⟨.hbm, 138, rfl⟩
abbrev main_v96 : Ref sig .tc := ⟨.hbm, 139, rfl⟩
abbrev main_c_21 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg3_0 : Ref sig .tc := ⟨.vmem, 40, rfl⟩
abbrev cc6_stg3_1 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg2_0 : Ref sig .tc := ⟨.vmem, 45, rfl⟩
abbrev cc7_stg3_0 : Ref sig .tc := ⟨.vmem, 46, rfl⟩
abbrev cc7_stg3_1 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg1_1 : Ref sig .tc := ⟨.vmem, 51, rfl⟩
abbrev cc8_stg2_0 : Ref sig .tc := ⟨.vmem, 52, rfl⟩
abbrev cc8_stg3_0 : Ref sig .tc := ⟨.vmem, 53, rfl⟩
abbrev cc8_stg4_0 : Ref sig .tc := ⟨.vmem, 54, rfl⟩
abbrev cc8_stg5_0 : Ref sig .tc := ⟨.vmem, 55, rfl⟩
abbrev cc8_stg5_1 : Ref sig .tc := ⟨.vmem, 56, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem3_0 : DmaSem sig := 40
abbrev cc6_sem3_1 : DmaSem sig := 41
abbrev cc7_sem0_0 : DmaSem sig := 42
abbrev cc7_sem0_1 : DmaSem sig := 43
abbrev cc7_sem1_0 : DmaSem sig := 44
abbrev cc7_sem2_0 : DmaSem sig := 45
abbrev cc7_sem3_0 : DmaSem sig := 46
abbrev cc7_sem3_1 : DmaSem sig := 47
abbrev cc8_sem0_0 : DmaSem sig := 48
abbrev cc8_sem0_1 : DmaSem sig := 49
abbrev cc8_sem1_0 : DmaSem sig := 50
abbrev cc8_sem1_1 : DmaSem sig := 51
abbrev cc8_sem2_0 : DmaSem sig := 52
abbrev cc8_sem3_0 : DmaSem sig := 53
abbrev cc8_sem4_0 : DmaSem sig := 54
abbrev cc8_sem5_0 : DmaSem sig := 55
abbrev cc8_sem5_1 : DmaSem sig := 56

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x1280 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1280x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x128 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S10000x128 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4000x128 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S4000x128 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![200], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x128 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x1 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x1 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

class Facts₀ : Prop where
  shapeCasts_S128_S1x128 : S128.ShapeCasts S1x128
  inb_S5000x4_S5000x4_0_0 : ∀ a, (![0, 0] : Fin 2 → Nat) a + S5000x4.size a ≤ S5000x4.size a
  h_S5000x4 : 0 < S5000x4.numel
  bitsLt_bf16_f32 : FTy.bits .bf16 < FTy.bits .f32
  inb_S4x128_S4x128_0_0 : ∀ a, (![0, 0] : Fin 2 → Nat) a + S4x128.size a ≤ S4x128.size a
  h_S4x128 : 0 < S4x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  inb_S1000x1280_S1000x1280_0_0 : ∀ a, (![0, 0] : Fin 2 → Nat) a + S1000x1280.size a ≤ S1000x1280.size a
  h_S1000x1280 : 0 < S1000x1280.numel
  inb_S1280x128_S1280x128_0_0 : ∀ a, (![0, 0] : Fin 2 → Nat) a + S1280x128.size a ≤ S1280x128.size a
  h_S1280x128 : 0 < S1280x128.numel
  broadcasts_S1x128_S1000x128 : S1x128.Broadcasts S1000x128
  inb_S1000x128_S1000x128_0_0 : ∀ a, (![0, 0] : Fin 2 → Nat) a + S1000x128.size a ≤ S1000x128.size a
  h_S1000x128 : 0 < S1000x128.numel
  packedbf16_S1000x128_S1000x128_0_0 : (Rect.unit (s := S1000x128) ![0, 0] S1000x128.size inb_S1000x128_S1000x128_0_0).PackedRows (EltTy.packing .bf16)
  bcast_S_S1000000 : S_.BroadcastsInDim S1000000 (![] : Fin 0 → Fin S1000000.rank)
  bcast_S_S20000 : S_.BroadcastsInDim S20000 (![] : Fin 0 → Fin S20000.rank)
  bcast_S1000000_S1000000x1_0 : S1000000.BroadcastsInDim S1000000x1 (![0] : Fin 1 → Fin S1000000x1.rank)
  bcast_S_S100000 : S_.BroadcastsInDim S100000 (![] : Fin 0 → Fin S100000.rank)
  bcast_S20000_S20000x1_0 : S20000.BroadcastsInDim S20000x1 (![0] : Fin 1 → Fin S20000x1.rank)
  bcast_S100000_S100000x1_0 : S100000.BroadcastsInDim S100000x1 (![0] : Fin 1 → Fin S100000x1.rank)
  bcast_S_S20000x128 : S_.BroadcastsInDim S20000x128 (![] : Fin 0 → Fin S20000x128.rank)
  bcast_S20000x1_S20000x128_0_1 : S20000x1.BroadcastsInDim S20000x128 (![0, 1] : Fin 2 → Fin S20000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  broadcasts_S1x128_S2000x128 : S1x128.Broadcasts S2000x128
  packedbf16_S2000x128_S2000x128_0_0 : (Rect.unit (s := S2000x128) ![0, 0] S2000x128.size inb_S2000x128_S2000x128_0_0).PackedRows (EltTy.packing .bf16)
  shapeCasts_S5000x128_S5000x128 : S5000x128.ShapeCasts S5000x128
  slices_S256x128_S128x128_0_0 : S256x128.Slices ![0, 0] S128x128
  slices_S256x128_S128x128_128_0 : S256x128.Slices ![128, 0] S128x128
  bcast_S_S128 : S_.BroadcastsInDim S128 (![] : Fin 0 → Fin S128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  shapeCasts_S128x128_S128x128 : S128x128.ShapeCasts S128x128
  broadcasts_S1x128_S10000x128 : S1x128.Broadcasts S10000x128
  packedbf16_S10000x128_S10000x128_0_0 : (Rect.unit (s := S10000x128) ![0, 0] S10000x128.size inb_S10000x128_S10000x128_0_0).PackedRows (EltTy.packing .bf16)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  broadcasts_S1x128_S4000x128 : S1x128.Broadcasts S4000x128
  packedbf16_S4000x128_S4000x128_0_0 : (Rect.unit (s := S4000x128) ![0, 0] S4000x128.size inb_S4000x128_S4000x128_0_0).PackedRows (EltTy.packing .bf16)
  transposes_S128x1_S1x128_1_0 : S128x1.Transposes [1, 0] S1x128
  shapeCasts_S1_S1x1 : S1.ShapeCasts S1x1
  reduces_S5000x128_S5000 : S5000x128.Reduces [1] S5000
  shapeCasts_S5000_S5000x1 : S5000.ShapeCasts S5000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  dot_S5000x4_S4x128_S5000x128_1_0_0_1_n_n_wf : DotDims.WF S5000x4 S4x128 S5000x128 [1] [0] [0] [1] [] []
  dot_S1000x1280_S1280x128_S1000x128_1_0_0_1_n_n_wf : DotDims.WF S1000x1280 S1280x128 S1000x128 [1] [0] [0] [1] [] []
  scatter_S20000_S1000000x1_S1000000_n_0_0_1_wf : ScatterDims.WF S20000 S1000000x1 S1000000 [] [0] [0] 1
  scatter_S100000_S1000000x1_S1000000_n_0_0_1_wf : ScatterDims.WF S100000 S1000000x1 S1000000 [] [0] [0] 1
  gather_S100000x128_S1000000x1_S1000000x128_1_0_n_n_0_1_1128_wf : GatherDims.WF S100000x128 S1000000x1 S1000000x128 [1] [0] [] [0] [] 1 ![1, 128]
  scatter_S20000x128_S1000000x1_S1000000x128_1_0_0_1_wf : ScatterDims.WF S20000x128 S1000000x1 S1000000x128 [1] [0] [0] 1
  gather_S20000x128_S1000000x1_S1000000x128_1_0_n_n_0_1_1128_wf : GatherDims.WF S20000x128 S1000000x1 S1000000x128 [1] [0] [] [0] [] 1 ![1, 128]
  scatter_S100000x128_S1000000x1_S1000000x128_1_0_0_1_wf : ScatterDims.WF S100000x128 S1000000x1 S1000000x128 [1] [0] [0] 1
  dot_S2000x128_S128x128_S2000x128_1_0_0_1_n_n_wf : DotDims.WF S2000x128 S128x128 S2000x128 [1] [0] [0] [1] [] []
  dot_S5000x128_S128x128_S5000x128_1_0_0_1_n_n_wf : DotDims.WF S5000x128 S128x128 S5000x128 [1] [0] [0] [1] [] []
  dot_S10000x128_S128x128_S10000x128_1_0_0_1_n_n_wf : DotDims.WF S10000x128 S128x128 S10000x128 [1] [0] [0] [1] [] []
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x4.size a ≤ S100000x4.size a
  hwx0_0 : ∀ i : grid0.Coords, EltTy.bits .f32 = 32 ∨ (Rect.block (s := S100000x4) S5000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x128.size a ≤ S4x128.size a
  hwx0_1 : ∀ i : grid0.Coords, EltTy.bits .f32 = 32 ∨ (Rect.block (s := S4x128) S4x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .bf16 = 32 ∨ (Rect.block (s := S100000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x1280.size a ≤ S20000x1280.size a
  hwx1_0 : ∀ i : grid1.Coords, EltTy.bits .f32 = 32 ∨ (Rect.block (s := S20000x1280) S1000x1280.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1280x128.size a ≤ S1280x128.size a
  hwx1_1 : ∀ i : grid1.Coords, EltTy.bits .f32 = 32 ∨ (Rect.block (s := S1280x128) S1280x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x128.size a ≤ S20000x128.size a
  hwx1_3 : ∀ i : grid1.Coords, EltTy.bits .bf16 = 32 ∨ (Rect.block (s := S20000x128) S1000x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S20000x128.size a
  hwx2_0 : ∀ i : grid2.Coords, EltTy.bits .f32 = 32 ∨ (Rect.block (s := S20000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S20000x128.size a
  hwx2_3 : ∀ i : grid2.Coords, EltTy.bits .bf16 = 32 ∨ (Rect.block (s := S20000x128) S2000x128.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .bf16 = 32 ∨ (Rect.block (s := S100000x128) S5000x128.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S20000x128.size a
  hwx4_0 : ∀ i : grid4.Coords, EltTy.bits .f32 = 32 ∨ (Rect.block (s := S20000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S20000x128.size a
  hwx4_3 : ∀ i : grid4.Coords, EltTy.bits .bf16 = 32 ∨ (Rect.block (s := S20000x128) S2000x128.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S100000x128.size a
  hwx5_3 : ∀ i : grid5.Coords, EltTy.bits .bf16 = 32 ∨ (Rect.block (s := S100000x128) S5000x128.size (cc5_transform_3 i) (hinb5_3 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S100000x128.size a
  hwx6_0 : ∀ i : grid6.Coords, EltTy.bits .bf16 = 32 ∨ (Rect.block (s := S100000x128) S10000x128.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S10000x128.size a ≤ S100000x128.size a
  hwx6_3 : ∀ i : grid6.Coords, EltTy.bits .bf16 = 32 ∨ (Rect.block (s := S100000x128) S10000x128.size (cc6_transform_3 i) (hinb6_3 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4000x128.size a ≤ S20000x128.size a
  hwx7_0 : ∀ i : grid7.Coords, EltTy.bits .bf16 = 32 ∨ (Rect.block (s := S20000x128) S4000x128.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S4000x128.size a ≤ S20000x128.size a
  hwx7_3 : ∀ i : grid7.Coords, EltTy.bits .bf16 = 32 ∨ (Rect.block (s := S20000x128) S4000x128.size (cc7_transform_3 i) (hinb7_3 i)).WholeWords (EltTy.packing .bf16)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S1000000x128.size a
  hwx8_0 : ∀ i : grid8.Coords, EltTy.bits .bf16 = 32 ∨ (Rect.block (s := S1000000x128) S5000x128.size (cc8_transform_0 i) (hinb8_0 i)).WholeWords (EltTy.packing .bf16)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S1000000x128.size a
  hwx8_1 : ∀ i : grid8.Coords, EltTy.bits .bf16 = 32 ∨ (Rect.block (s := S1000000x128) S5000x128.size (cc8_transform_1 i) (hinb8_1 i)).WholeWords (EltTy.packing .bf16)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x1.size a ≤ S1x1.size a
  hwx8_4 : ∀ i : grid8.Coords, EltTy.bits .f32 = 32 ∨ (Rect.block (s := S1x1) S1x1.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x1.size a ≤ S1000000x1.size a
  hwx8_5 : ∀ i : grid8.Coords, EltTy.bits .f32 = 32 ∨ (Rect.block (s := S1000000x1) S5000x1.size (cc8_transform_5 i) (hinb8_5 i)).WholeWords (EltTy.packing .f32)

variable [Facts₀]

def dot_S5000x4_S4x128_S5000x128_1_0_0_1_n_n : DotDims S5000x4 S4x128 S5000x128 where
  lhsContracting := [1]
  rhsContracting := [0]
  lhsNonContracting := [0]
  rhsNonContracting := [1]
  lhsBatch := []
  rhsBatch := []
  wf := dot_S5000x4_S4x128_S5000x128_1_0_0_1_n_n_wf
def dot_S1000x1280_S1280x128_S1000x128_1_0_0_1_n_n : DotDims S1000x1280 S1280x128 S1000x128 where
  lhsContracting := [1]
  rhsContracting := [0]
  lhsNonContracting := [0]
  rhsNonContracting := [1]
  lhsBatch := []
  rhsBatch := []
  wf := dot_S1000x1280_S1280x128_S1000x128_1_0_0_1_n_n_wf
def scatter_S20000_S1000000x1_S1000000_n_0_0_1 : ScatterDims S20000 S1000000x1 S1000000 where
  updateWindowDims := []
  insertedWindowDims := [0]
  scatterDimsToOperandDims := [0]
  indexVectorDim := 1
  wf := scatter_S20000_S1000000x1_S1000000_n_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S20000x128_S1000000x1_S1000000x128_1_0_0_1 : ScatterDims S20000x128 S1000000x1 S1000000x128 where
  updateWindowDims := [1]
  insertedWindowDims := [0]
  scatterDimsToOperandDims := [0]
  indexVectorDim := 1
  wf := scatter_S20000x128_S1000000x1_S1000000x128_1_0_0_1_wf
def gather_S20000x128_S1000000x1_S1000000x128_1_0_n_n_0_1_1128 : GatherDims S20000x128 S1000000x1 S1000000x128 where
  offsetDims := [1]
  collapsedSliceDims := [0]
  operandBatchingDims := []
  startIndicesBatchingDims := []
  startIndexMap := [0]
  indexVectorDim := 1
  sliceSizes := ![1, 128]
  wf := gather_S20000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S5000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S4x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1000x1280.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S1280x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v33) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v46) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg10) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v49) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v50) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v63) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg12) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v77) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v78) S2000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v76) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg14) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v80) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v80) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v81) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v84) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v85) S10000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v78) S4000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v82) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v86) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v87) S4000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v94) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v101) S5000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v103) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v102) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v104) S1x1.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v105) S5000x1.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

class Facts : Prop extends Facts₀ where

variable [Facts]
-- ==== ReferenceIdeal.lean ====
abbrev S100000x4 : Shape := ⟨2, ![100000, 4]⟩
abbrev S20000x1280 : Shape := ⟨2, ![20000, 1280]⟩
abbrev S1000000 : Shape := ⟨1, ![1000000]⟩
abbrev S4x128 : Shape := ⟨2, ![4, 128]⟩
abbrev S128 : Shape := ⟨1, ![128]⟩
abbrev S1280x128 : Shape := ⟨2, ![1280, 128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S100000x128 : Shape := ⟨2, ![100000, 128]⟩
abbrev S1x128 : Shape := ⟨2, ![1, 128]⟩
abbrev S20000x128 : Shape := ⟨2, ![20000, 128]⟩
abbrev S_ : Shape := ⟨0, ![]⟩
abbrev S1000000x1 : Shape := ⟨2, ![1000000, 1]⟩
abbrev S1000000x128 : Shape := ⟨2, ![1000000, 128]⟩
abbrev S20000 : Shape := ⟨1, ![20000]⟩
abbrev S20000x1 : Shape := ⟨2, ![20000, 1]⟩
abbrev S100000 : Shape := ⟨1, ![100000]⟩
abbrev S100000x1 : Shape := ⟨2, ![100000, 1]⟩
abbrev S1000000x256 : Shape := ⟨2, ![1000000, 256]⟩
abbrev S1x1 : Shape := ⟨2, ![1, 1]⟩

abbrev nBuf : Space → Nat
  | .hbm => 186
  | .vmem => 0
  | .smem => 0
  | _ => 0

abbrev hbmTy0_0 (i : Nat) : BufTy := match i % 128 with
  | 0 => ⟨S100000x4, .f32⟩
  | 1 => ⟨S20000x1280, .f32⟩
  | 2 => ⟨S1000000, .i32⟩
  | 3 => ⟨S1000000, .i32⟩
  | 4 => ⟨S4x128, .f32⟩
  | 5 => ⟨S128, .f32⟩
  | 6 => ⟨S1280x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S256x128, .f32⟩
  | 17 => ⟨S128, .f32⟩
  | 18 => ⟨S128x1, .f32⟩
  | 19 => ⟨S1, .f32⟩
  | 20 => ⟨S100000x128, .f32⟩
  | 21 => ⟨S1x128, .f32⟩
  | 22 => ⟨S100000x128, .f32⟩
  | 23 => ⟨S100000x128, .f32⟩
  | 24 => ⟨S20000x128, .f32⟩
  | 25 => ⟨S1x128, .f32⟩
  | 26 => ⟨S20000x128, .f32⟩
  | 27 => ⟨S20000x128, .f32⟩
  | 28 => ⟨S_, .i32⟩
  | 29 => ⟨S1000000, .i32⟩
  | 30 => ⟨S1000000, .i1⟩
  | 31 => ⟨S_, .i32⟩
  | 32 => ⟨S1000000, .i32⟩
  | 33 => ⟨S1000000, .i32⟩
  | 34 => ⟨S1000000, .i32⟩
  | 35 => ⟨S1000000x1, .i32⟩
  | 36 => ⟨S1000000x128, .f32⟩
  | 37 => ⟨S_, .f32⟩
  | 38 => ⟨S20000x128, .f32⟩
  | 39 => ⟨S1000000x1, .i32⟩
  | 40 => ⟨S20000x128, .f32⟩
  | 41 => ⟨S_, .f32⟩
  | 42 => ⟨S1000000, .f32⟩
  | 43 => ⟨S_, .f32⟩
  | 44 => ⟨S20000, .f32⟩
  | 45 => ⟨S1000000x1, .i32⟩
  | 46 => ⟨S20000, .f32⟩
  | 47 => ⟨S_, .f32⟩
  | 48 => ⟨S20000, .f32⟩
  | 49 => ⟨S20000, .f32⟩
  | 50 => ⟨S20000x1, .f32⟩
  | 51 => ⟨S20000x128, .f32⟩
  | 52 => ⟨S20000x128, .f32⟩
  | 53 => ⟨S_, .i32⟩
  | 54 => ⟨S1000000, .i32⟩
  | 55 => ⟨S1000000, .i1⟩
  | 56 => ⟨S_, .i32⟩
  | 57 => ⟨S1000000, .i32⟩
  | 58 => ⟨S1000000, .i32⟩
  | 59 => ⟨S1000000, .i32⟩
  | 60 => ⟨S1000000x1, .i32⟩
  | 61 => ⟨S1000000x128, .f32⟩
  | 62 => ⟨S_, .f32⟩
  | 63 => ⟨S100000x128, .f32⟩
  | 64 => ⟨S1000000x1, .i32⟩
  | 65 => ⟨S100000x128, .f32⟩
  | 66 => ⟨S_, .f32⟩
  | 67 => ⟨S1000000, .f32⟩
  | 68 => ⟨S_, .f32⟩
  | 69 => ⟨S100000, .f32⟩
  | 70 => ⟨S1000000x1, .i32⟩
  | 71 => ⟨S100000, .f32⟩
  | 72 => ⟨S_, .f32⟩
  | 73 => ⟨S100000, .f32⟩
  | 74 => ⟨S100000, .f32⟩
  | 75 => ⟨S100000x1, .f32⟩
  | 76 => ⟨S100000x128, .f32⟩
  | 77 => ⟨S100000x128, .f32⟩
  | 78 => ⟨S20000x128, .f32⟩
  | 79 => ⟨S1x128, .f32⟩
  | 80 => ⟨S20000x128, .f32⟩
  | 81 => ⟨S20000x128, .f32⟩
  | 82 => ⟨S_, .f32⟩
  | 83 => ⟨S20000x128, .f32⟩
  | 84 => ⟨S20000x128, .f32⟩
  | 85 => ⟨S100000x128, .f32⟩
  | 86 => ⟨S1x128, .f32⟩
  | 87 => ⟨S100000x128, .f32⟩
  | 88 => ⟨S100000x128, .f32⟩
  | 89 => ⟨S_, .f32⟩
  | 90 => ⟨S100000x128, .f32⟩
  | 91 => ⟨S100000x128, .f32⟩
  | 92 => ⟨S_, .i32⟩
  | 93 => ⟨S1000000, .i32⟩
  | 94 => ⟨S1000000, .i1⟩
  | 95 => ⟨S_, .i32⟩
  | 96 => ⟨S1000000, .i32⟩
  | 97 => ⟨S1000000, .i32⟩
  | 98 => ⟨S1000000, .i32⟩
  | 99 => ⟨S1000000x1, .i32⟩
  | 100 => ⟨S1000000x128, .f32⟩
  | 101 => ⟨S_, .f32⟩
  | 102 => ⟨S20000x128, .f32⟩
  | 103 => ⟨S1000000x1, .i32⟩
  | 104 => ⟨S20000x128, .f32⟩
  | 105 => ⟨S_, .f32⟩
  | 106 => ⟨S1000000, .f32⟩
  | 107 => ⟨S_, .f32⟩
  | 108 => ⟨S20000, .f32⟩
  | 109 => ⟨S1000000x1, .i32⟩
  | 110 => ⟨S20000, .f32⟩
  | 111 => ⟨S_, .f32⟩
  | 112 => ⟨S20000, .f32⟩
  | 113 => ⟨S20000, .f32⟩
  | 114 => ⟨S20000x1, .f32⟩
  | 115 => ⟨S20000x128, .f32⟩
  | 116 => ⟨S20000x128, .f32⟩
  | 117 => ⟨S_, .i32⟩
  | 118 => ⟨S1000000, .i32⟩
  | 119 => ⟨S1000000, .i1⟩
  | 120 => ⟨S_, .i32⟩
  | 121 => ⟨S1000000, .i32⟩
  | 122 => ⟨S1000000, .i32⟩
  | 123 => ⟨S1000000, .i32⟩
  | 124 => ⟨S1000000x1, .i32⟩
  | 125 => ⟨S1000000x128, .f32⟩
  | 126 => ⟨S_, .f32⟩
  | 127 => ⟨S100000x128, .f32⟩
  | _ => ⟨S100000x4, .f32⟩

abbrev hbmTy0_1 (i : Nat) : BufTy := match i % 128 with
  | 0 => ⟨S1000000x1, .i32⟩
  | 1 => ⟨S100000x128, .f32⟩
  | 2 => ⟨S_, .f32⟩
  | 3 => ⟨S1000000, .f32⟩
  | 4 => ⟨S_, .f32⟩
  | 5 => ⟨S100000, .f32⟩
  | 6 => ⟨S1000000x1, .i32⟩
  | 7 => ⟨S100000, .f32⟩
  | 8 => ⟨S_, .f32⟩
  | 9 => ⟨S100000, .f32⟩
  | 10 => ⟨S100000, .f32⟩
  | 11 => ⟨S100000x1, .f32⟩
  | 12 => ⟨S100000x128, .f32⟩
  | 13 => ⟨S100000x128, .f32⟩
  | 14 => ⟨S20000x128, .f32⟩
  | 15 => ⟨S1x128, .f32⟩
  | 16 => ⟨S20000x128, .f32⟩
  | 17 => ⟨S20000x128, .f32⟩
  | 18 => ⟨S_, .f32⟩
  | 19 => ⟨S20000x128, .f32⟩
  | 20 => ⟨S20000x128, .f32⟩
  | 21 => ⟨S100000x128, .f32⟩
  | 22 => ⟨S1x128, .f32⟩
  | 23 => ⟨S100000x128, .f32⟩
  | 24 => ⟨S100000x128, .f32⟩
  | 25 => ⟨S_, .f32⟩
  | 26 => ⟨S100000x128, .f32⟩
  | 27 => ⟨S100000x128, .f32⟩
  | 28 => ⟨S_, .i32⟩
  | 29 => ⟨S1000000, .i32⟩
  | 30 => ⟨S1000000, .i1⟩
  | 31 => ⟨S_, .i32⟩
  | 32 => ⟨S1000000, .i32⟩
  | 33 => ⟨S1000000, .i32⟩
  | 34 => ⟨S1000000, .i32⟩
  | 35 => ⟨S1000000x1, .i32⟩
  | 36 => ⟨S1000000x128, .f32⟩
  | 37 => ⟨S_, .i32⟩
  | 38 => ⟨S1000000, .i32⟩
  | 39 => ⟨S1000000, .i1⟩
  | 40 => ⟨S_, .i32⟩
  | 41 => ⟨S1000000, .i32⟩
  | 42 => ⟨S1000000, .i32⟩
  | 43 => ⟨S1000000, .i32⟩
  | 44 => ⟨S1000000x1, .i32⟩
  | 45 => ⟨S1000000x128, .f32⟩
  | 46 => ⟨S1000000x256, .f32⟩
  | 47 => ⟨S1000000x128, .f32⟩
  | 48 => ⟨S1x128, .f32⟩
  | 49 => ⟨S1000000x128, .f32⟩
  | 50 => ⟨S1000000x128, .f32⟩
  | 51 => ⟨S_, .f32⟩
  | 52 => ⟨S1000000x128, .f32⟩
  | 53 => ⟨S1000000x128, .f32⟩
  | 54 => ⟨S1000000x1, .f32⟩
  | 55 => ⟨S1x1, .f32⟩
  | 56 => ⟨S1000000x1, .f32⟩
  | 57 => ⟨S1000000x1, .f32⟩
  | _ => ⟨S100000x4, .f32⟩

abbrev hbmTy (i : Nat) : BufTy := match i / 128 with
  | 0 => hbmTy0_0 i
  | 1 => hbmTy0_1 i
  | _ => ⟨S100000x4, .f32⟩

abbrev bufTy : (tb : Table) → Fin (tcTables nBuf tb) → BufTy
  | .hbm, ⟨i, _⟩ => hbmTy i
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_c : Ref sig .tc := ⟨.hbm, 28, rfl⟩
abbrev main_v8 : Ref sig .tc := ⟨.hbm, 29, rfl⟩
abbrev main_v9 : Ref sig .tc := ⟨.hbm, 30, rfl⟩
abbrev main_c_0 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_1 : Ref sig .tc := ⟨.hbm, 41, rfl⟩
abbrev main_v18 : Ref sig .tc := ⟨.hbm, 42, rfl⟩
abbrev main_cst_2 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst_3 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_c_4 : Ref sig .tc := ⟨.hbm, 53, rfl⟩
abbrev main_v27 : Ref sig .tc := ⟨.hbm, 54, rfl⟩
abbrev main_v28 : Ref sig .tc := ⟨.hbm, 55, rfl⟩
abbrev main_c_5 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_6 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_7 : Ref sig .tc := ⟨.hbm, 66, rfl⟩
abbrev main_v37 : Ref sig .tc := ⟨.hbm, 67, rfl⟩
abbrev main_cst_8 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_9 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_call0_cst : Ref sig .tc := ⟨.hbm, 82, rfl⟩
abbrev main_call0_v0 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_call1_cst : Ref sig .tc := ⟨.hbm, 89, rfl⟩
abbrev main_call1_v0 : Ref sig .tc := ⟨.hbm, 90, rfl⟩
abbrev main_v55 : Ref sig .tc := ⟨.hbm, 91, rfl⟩
abbrev main_c_10 : Ref sig .tc := ⟨.hbm, 92, rfl⟩
abbrev main_v56 : Ref sig .tc := ⟨.hbm, 93, rfl⟩
abbrev main_v57 : Ref sig .tc := ⟨.hbm, 94, rfl⟩
abbrev main_c_11 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_cst_12 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_cst_13 : Ref sig .tc := ⟨.hbm, 105, rfl⟩
abbrev main_v66 : Ref sig .tc := ⟨.hbm, 106, rfl⟩
abbrev main_cst_14 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_15 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_c_16 : Ref sig .tc := ⟨.hbm, 117, rfl⟩
abbrev main_v75 : Ref sig .tc := ⟨.hbm, 118, rfl⟩
abbrev main_v76 : Ref sig .tc := ⟨.hbm, 119, rfl⟩
abbrev main_c_17 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_cst_18 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_cst_19 : Ref sig .tc := ⟨.hbm, 130, rfl⟩
abbrev main_v85 : Ref sig .tc := ⟨.hbm, 131, rfl⟩
abbrev main_cst_20 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_cst_21 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_call2_cst : Ref sig .tc := ⟨.hbm, 146, rfl⟩
abbrev main_call2_v0 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_call3_cst : Ref sig .tc := ⟨.hbm, 153, rfl⟩
abbrev main_call3_v0 : Ref sig .tc := ⟨.hbm, 154, rfl⟩
abbrev main_v103 : Ref sig .tc := ⟨.hbm, 155, rfl⟩
abbrev main_c_22 : Ref sig .tc := ⟨.hbm, 156, rfl⟩
abbrev main_v104 : Ref sig .tc := ⟨.hbm, 157, rfl⟩
abbrev main_v105 : Ref sig .tc := ⟨.hbm, 158, rfl⟩
abbrev main_c_23 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_c_24 : Ref sig .tc := ⟨.hbm, 165, rfl⟩
abbrev main_v111 : Ref sig .tc := ⟨.hbm, 166, rfl⟩
abbrev main_v112 : Ref sig .tc := ⟨.hbm, 167, rfl⟩
abbrev main_c_25 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_call4_cst : Ref sig .tc := ⟨.hbm, 179, rfl⟩
abbrev main_call4_v0 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1x128_S20000x128_0_1 : S1x128.BroadcastsInDim S20000x128 (![0, 1] : Fin 2 → Fin S20000x128.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S20000x128 : S_.BroadcastsInDim S20000x128 (![] : Fin 0 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  concatenates_S1000000x128_S1000000x128_S1000000x256_d1 : Shape.Concatenates [S1000000x128, S1000000x128] S1000000x256 1
  bcast_S1x128_S1000000x128_0_1 : S1x128.BroadcastsInDim S1000000x128 (![0, 1] : Fin 2 → Fin S1000000x128.rank)
  bcast_S_S1000000x128 : S_.BroadcastsInDim S1000000x128 (![] : Fin 0 → Fin S1000000x128.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  dot_S100000x4_S4x128_S100000x128_1_0_0_1_n_n_wf : DotDims.WF S100000x4 S4x128 S100000x128 [1] [0] [0] [1] [] []
  dot_S20000x1280_S1280x128_S20000x128_1_0_0_1_n_n_wf : DotDims.WF S20000x1280 S1280x128 S20000x128 [1] [0] [0] [1] [] []
  gather_S100000x128_S1000000x1_S1000000x128_1_0_n_n_0_1_1128_wf : GatherDims.WF S100000x128 S1000000x1 S1000000x128 [1] [0] [] [0] [] 1 ![1, 128]
  scatter_S20000x128_S1000000x1_S1000000x128_1_0_0_1_wf : ScatterDims.WF S20000x128 S1000000x1 S1000000x128 [1] [0] [0] 1
  scatter_S20000_S1000000x1_S1000000_n_0_0_1_wf : ScatterDims.WF S20000 S1000000x1 S1000000 [] [0] [0] 1
  gather_S20000x128_S1000000x1_S1000000x128_1_0_n_n_0_1_1128_wf : GatherDims.WF S20000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1
  dot_S20000x128_S128x128_S20000x128_1_0_0_1_n_n_wf : DotDims.WF S20000x128 S128x128 S20000x128 [1] [0] [0] [1] [] []
  dot_S100000x128_S128x128_S100000x128_1_0_0_1_n_n_wf : DotDims.WF S100000x128 S128x128 S100000x128 [1] [0] [0] [1] [] []
  dot_S1000000x256_S256x128_S1000000x128_1_0_0_1_n_n_wf : DotDims.WF S1000000x256 S256x128 S1000000x128 [1] [0] [0] [1] [] []
  dot_S1000000x128_S128x1_S1000000x1_1_0_0_1_n_n_wf : DotDims.WF S1000000x128 S128x1 S1000000x1 [1] [0] [0] [1] [] []

variable [Facts₀]

def dot_S100000x4_S4x128_S100000x128_1_0_0_1_n_n : DotDims S100000x4 S4x128 S100000x128 where
  lhsContracting := [1]
  rhsContracting := [0]
  lhsNonContracting := [0]
  rhsNonContracting := [1]
  lhsBatch := []
  rhsBatch := []
  wf := dot_S100000x4_S4x128_S100000x128_1_0_0_1_n_n_wf
def dot_S20000x1280_S1280x128_S20000x128_1_0_0_1_n_n : DotDims S20000x1280 S1280x128 S20000x128 where
  lhsContracting := [1]
  rhsContracting := [0]
  lhsNonContracting := [0]
  rhsNonContracting := [1]
  lhsBatch := []
  rhsBatch := []
  wf := dot_S20000x1280_S1280x128_S20000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S20000x128_S1000000x1_S1000000x128_1_0_0_1 : ScatterDims S20000x128 S1000000x1 S1000000x128 where
  updateWindowDims := [1]
  insertedWindowDims := [0]
  scatterDimsToOperandDims := [0]
  indexVectorDim := 1
  wf := scatter_S20000x128_S1000000x1_S1000000x128_1_0_0_1_wf
def scatter_S20000_S1000000x1_S1000000_n_0_0_1 : ScatterDims S20000 S1000000x1 S1000000 where
  updateWindowDims := []
  insertedWindowDims := [0]
  scatterDimsToOperandDims := [0]
  indexVectorDim := 1
  wf := scatter_S20000_S1000000x1_S1000000_n_0_0_1_wf
def gather_S20000x128_S1000000x1_S1000000x128_1_0_n_n_0_1_1128 : GatherDims S20000x128 S1000000x1 S1000000x128 where
  offsetDims := [1]
  collapsedSliceDims := [0]
  operandBatchingDims := []
  startIndicesBatchingDims := []
  startIndexMap := [0]
  indexVectorDim := 1
  sliceSizes := ![1, 128]
  wf := gather_S20000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S1000000x256_S256x128_S1000000x128_1_0_0_1_n_n : DotDims S1000000x256 S256x128 S1000000x128 where
  lhsContracting := [1]
  rhsContracting := [0]
  lhsNonContracting := [0]
  rhsNonContracting := [1]
  lhsBatch := []
  rhsBatch := []
  wf := dot_S1000000x256_S256x128_S1000000x128_1_0_0_1_n_n_wf
def dot_S1000000x128_S128x1_S1000000x1_1_0_0_1_n_n : DotDims S1000000x128 S128x1 S1000000x1 where
  lhsContracting := [1]
  rhsContracting := [0]
  lhsNonContracting := [0]
  rhsNonContracting := [1]
  lhsBatch := []
  rhsBatch := []
  wf := dot_S1000000x128_S128x1_S1000000x1_1_0_0_1_n_n_wf

class Facts : Prop extends Facts₀ where

variable [Facts]
-- ==== Proof.ValueRun.lean ====
/-
  The idealized kernel's run with its result named: every weakly fair execution of the nine regions and the host
  stretches between them terminates, the argument arrays end as launched, and the result array ends at the last
  boundary's contents — the fold of the host operations and of the regions' write-backs from the launch memory.
-/
import proofs.«132711_j11063835754497_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- The run of @main from any memory with zero counters: it terminates without a fault, the result array holds the
    last boundary's contents `W18`, and every argument array is as launched. -/
theorem run_value : θ_run defs (onTc (τ := τ) (main (F := F))) ⟨m, fun _ => 0, ρ⟩ (fun r => ∀ c : Dev nD,
      r.2.mem ((c.tc : Thread nD τ).loc main_v105) = W18 m ρ c (Proc.devRef .tc main_v105)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v105 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c),
       (h c _ (mem_uc main_arg13 (by decide))).trans (W18_main_arg13 m ρ c),
       (h c _ (mem_uc main_arg14 (by decide))).trans (W18_main_arg14 m ρ c),
       (h c _ (mem_uc main_arg15 (by decide))).trans (W18_main_arg15 m ρ c),
       (h c _ (mem_uc main_arg16 (by decide))).trans (W18_main_arg16 m ρ c),
       (h c _ (mem_uc main_arg17 (by decide))).trans (W18_main_arg17 m ρ c),
       (h c _ (mem_uc main_arg18 (by decide))).trans (W18_main_arg18 m ρ c),
       (h c _ (mem_uc main_arg19 (by decide))).trans (W18_main_arg19 m ρ c)⟩)

end Cert.KernelIdeal.RunValue

end
-- ==== Proof.LibRowVector.lean ====
/-
  A length-n vector laid out as a 1×n row, and a 1×n row copied to every row of an R×n matrix, read at an entry.

  * `broadcastTo_row`: a 1×n row broadcast to R×n holds, at (p, k), the row's entry (0, k) — for n ≠ 1
    (a unit axis of the operand is the one that is copied; a length-1 last axis would be copied too).
  * `shapeCast_row`: a length-n vector reshaped to a 1×n row holds, at (0, k), the vector's entry k: both sit at
    row-major position k.
-/
import Idealize.ShloMosaic.Lib.Pipeline.Value
import Idealize.ShloMosaic.Lib.ValueIdx

noncomputable section

namespace Cert.RowVector

open Idealize.ShloMosaic Idealize.ShloMosaic.ValueIdx

variable {α : Type} {R n : Nat}

/-- A 1×n row copied to every row of an R×n matrix, at (p, k): the row at (0, k). -/
theorem broadcastTo_row (hn : n ≠ 1) (v : (⟨2, ![1, n]⟩ : Shape).Idx → α)
    (h : (⟨2, ![1, n]⟩ : Shape).Broadcasts ⟨2, ![R, n]⟩) (p : Fin R) (k : Fin n) :
    broadcastTo ⟨2, ![R, n]⟩ v h (ix2 p k) = v (ix2 0 k) :=
  broadcastTo_apply v h (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

/-- A length-n vector reshaped to a 1×n row, at (0, k): the vector at k. -/
theorem shapeCast_row (x : (⟨1, ![n]⟩ : Shape).Idx → α)
    (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]
    show k.val = 0 * n + k.val
    omega)

end Cert.RowVector

end
-- ==== Proof.LibRowInDim.lean ====
/-
  A 1×n row copied to every row of an R×n matrix by a host broadcast along both axes, read at an entry.

  `broadcast_in_dim` with dims = [0, 1] from 1×n to R×n copies along the operand's unit axis 0 and keeps axis 1
  (for n ≠ 1, where axis 1 is not itself a unit axis): entry (p, k) of the result is the row's entry (0, k).
-/
import Idealize.ShloMosaic.Lib.Pipeline.Value
import Idealize.ShloMosaic.Lib.ValueIdx

noncomputable section

namespace Cert.RowInDim

open Idealize.ShloMosaic Idealize.ShloMosaic.ValueIdx

variable {α : Type} {R n : Nat}

/-- The row broadcast along both axes into R×n, at (p, k): the row at (0, k). -/
theorem broadcastInDim_rows (hn : n ≠ 1) (v : (⟨2, ![1, n]⟩ : Shape).Idx → α)
    (h : (⟨2, ![1, n]⟩ : Shape).BroadcastsInDim ⟨2, ![R, n]⟩ (![0, 1] : Fin 2 → Fin 2)) (p : Fin R) (k : Fin n) :
    broadcastInDim ⟨2, ![R, n]⟩ ![0, 1] h v (ix2 p k) = v (ix2 0 k) :=
  broadcastInDim_apply _ h v (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

end Cert.RowInDim

end
-- ==== Proof.LibColumnInDim.lean ====
/-
  A per-row vector carried to a matrix by the host's `broadcast_in_dim`, read at an entry.

  * `broadcastInDim_column`: a length-a vector broadcast along axis 0 into an a×1 column holds, at (i, u), the
    vector's entry i.
  * `broadcastInDim_lanes`: an a×1 column broadcast along both axes into a×b holds, at (p, c), the column's entry
    of row p, whatever the lane c.
  * `shapeCast_column` and `shapeCast_eq_broadcastInDim`: a reshape of the vector to a×1 holds the same entries,
    so the reshape and the broadcast are one array.
-/
import Idealize.ShloMosaic.Lib.Pipeline.Value
import Idealize.ShloMosaic.Lib.ValueIdx

noncomputable section

namespace Cert.ColumnInDim

open Idealize.ShloMosaic Idealize.ShloMosaic.ValueIdx

variable {α : Type} {a b : Nat}

/-- The vector broadcast along axis 0 into an a×1 column, at (i, u): the vector at i. -/
theorem broadcastInDim_column (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) :=
  broadcastInDim_apply _ h x (ix2 i u) (ix1 i) (fun ax => match ax with
    | ⟨0, _⟩ => by
      show i.val = if a = 1 then 0 else i.val
      split
      · have := i.isLt; omega
      · rfl)

/-- The column broadcast along both axes into a×b, at (p, c): the column at (p, 0). -/
theorem broadcastInDim_lanes (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) :=
  broadcastInDim_apply _ h v (ix2 p c) (ix2 p (0 : Fin 1)) (fun ax => match ax with
    | ⟨0, _⟩ => by
      show p.val = if a = 1 then 0 else p.val
      split
      · have := p.isLt; omega
      · rfl
    | ⟨1, _⟩ => by
      show (0 : Nat) = if (1 : Nat) = 1 then 0 else c.val
      rw [if_pos rfl])

/-- The vector reshaped to an a×1 column, at (i, u): the vector at i. -/
theorem shapeCast_column (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- So the reshape and the broadcast are one array. -/
theorem shapeCast_eq_broadcastInDim (x : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ x h = broadcastInDim ⟨2, ![a, 1]⟩ ![0] h' x := by
  funext j
  obtain ⟨i, u, rfl⟩ : ∃ (i : Fin a) (u : Fin 1), j = ix2 i u := ⟨j 0, j 1, eq_ix2 j⟩
  rw [shapeCast_column, broadcastInDim_column]

end Cert.ColumnInDim

end
-- ==== Proof.LibRowOfVector.lean ====
/-
  Two spellings of a length-n vector laid out as a 1×n row.

  A reshape of the vector to 1×n and a broadcast of it along axis 1 into a 1×n array are the same array: both hold,
  at (0, k), the vector's entry k (for n ≠ 1, where the broadcast does not copy along the vector's own axis).
-/
import Idealize.ShloMosaic.Lib.Pipeline.Value
import Idealize.ShloMosaic.Lib.ValueIdx

noncomputable section

namespace Cert.RowOfVector

open Idealize.ShloMosaic Idealize.ShloMosaic.ValueIdx

variable {α : Type} {n : Nat}

/-- The vector broadcast along axis 1 into a 1×n row, at (0, k): the vector at k. -/
theorem broadcastInDim_row (hn : n ≠ 1) (x : (⟨1, ![n]⟩ : Shape).Idx → α)
    (h : (⟨1, ![n]⟩ : Shape).BroadcastsInDim ⟨2, ![1, n]⟩ (![1] : Fin 1 → Fin 2)) (z : Fin 1) (k : Fin n) :
    broadcastInDim ⟨2, ![1, n]⟩ ![1] h x (ix2 z k) = x (ix1 k) :=
  broadcastInDim_apply _ h x (ix2 z k) (ix1 k) (fun a => match a with
    | ⟨0, _⟩ => by
      show k.val = if n = 1 then 0 else k.val
      rw [if_neg hn])

/-- The vector reshaped to a 1×n row, at (0, k): the vector at k. -/
theorem shapeCast_row (x : (⟨1, ![n]⟩ : Shape).Idx → α)
    (h : (⟨1, ![n]⟩ : Shape).ShapeCasts ⟨2, ![1, n]⟩) (z : Fin 1) (k : Fin n) :
    shapeCast ⟨2, ![1, n]⟩ x h (ix2 z k) = x (ix1 k) :=
  shapeCast_apply x h (ix2 z k) (ix1 k) (by
    rw [Shape.rowMajor_val_two, Shape.rowMajor_val_one]
    show k.val = z.val * n + k.val
    have hz : z.val = 0 := by have := z.isLt; omega
    rw [hz]; omega)

/-- So the reshape and the broadcast are one array. -/
theorem shapeCast_eq_broadcastInDim (hn : n ≠ 1) (x : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ x h = broadcastInDim ⟨2, ![1, n]⟩ ![1] h' x := by
  funext j
  obtain ⟨z, k, rfl⟩ : ∃ (z : Fin 1) (k : Fin n), j = ix2 z k := ⟨j 0, j 1, eq_ix2 j⟩
  rw [shapeCast_row, broadcastInDim_row hn]

end Cert.RowOfVector

end
-- ==== Proof.LibCombine.lean ====
/-
  A graph-convolution layer's combine step as one array, and its two spellings.

  For R×N arrays A (the aggregated messages) and H (the projected features), an R×1 column D (a per-row factor)
  and a 1×N row B (a per-lane offset) the combine step is the array

      combine A H D B (i, j) = (A(i, j) + H(i, j) · D(i, 0)) + B(0, j)

  in the extended reals, and `combineRelu` clamps it below at zero. A host spells it with the column and the row
  broadcast to R×N along both axes; a kernel body spells it with the two vector broadcasts (of a whole block's
  column and of the row). Each spelling holds that value at every entry by definition, so no finiteness is asked.
  N ≠ 1, so that the row's own axis is not one a broadcast copies.
-/
import Idealize.ShloMosaic.PureOps.Ideal.Laws
import Idealize.ShloMosaic.Lib.Pipeline.Value
import Idealize.ShloMosaic.Lib.ValueIdx
import proofs.«132711_j11063835754497_2_alg».proof.Proof.LibRowVector
import proofs.«132711_j11063835754497_2_alg».proof.Proof.LibRowInDim
import proofs.«132711_j11063835754497_2_alg».proof.Proof.LibColumnInDim

noncomputable section

namespace Cert.Combine

open Idealize.ShloMosaic Idealize.ShloMosaic.ValueIdx

variable {R N : Nat}

/-- The zero every clamp compares against: the value of the all-zero f32 pattern. -/
abbrev zero : EReal := Ideal.ofBits .f32 0x00000000#32

/-- (A + H · D) + B, entry by entry: D a per-row factor, B a per-lane offset. -/
def combine (A H : (⟨2, ![R, N]⟩ : Shape).Idx → EReal) (D : (⟨2, ![R, 1]⟩ : Shape).Idx → EReal)
    (B : (⟨2, ![1, N]⟩ : Shape).Idx → EReal) : (⟨2, ![R, N]⟩ : Shape).Idx → EReal :=
  fun i => (A i + H i * D (ix2 (i 0) (0 : Fin 1))) + B (ix2 (0 : Fin 1) (i 1))

/-- The same, clamped below at zero. -/
def combineRelu (A H : (⟨2, ![R, N]⟩ : Shape).Idx → EReal) (D : (⟨2, ![R, 1]⟩ : Shape).Idx → EReal)
    (B : (⟨2, ![1, N]⟩ : Shape).Idx → EReal) : (⟨2, ![R, N]⟩ : Shape).Idx → EReal :=
  fun i => max (combine A H D B i) zero

theorem combine_apply (A H : (⟨2, ![R, N]⟩ : Shape).Idx → EReal) (D : (⟨2, ![R, 1]⟩ : Shape).Idx → EReal)
    (B : (⟨2, ![1, N]⟩ : Shape).Idx → EReal) (p : Fin R) (q : Fin N) :
    combine A H D B (ix2 p q) = (A (ix2 p q) + H (ix2 p q) * D (ix2 p (0 : Fin 1))) + B (ix2 (0 : Fin 1) q) := rfl

theorem combineRelu_apply (A H : (⟨2, ![R, N]⟩ : Shape).Idx → EReal) (D : (⟨2, ![R, 1]⟩ : Shape).Idx → EReal)
    (B : (⟨2, ![1, N]⟩ : Shape).Idx → EReal) (p : Fin R) (q : Fin N) :
    combineRelu A H D B (ix2 p q)
      = max ((A (ix2 p q) + H (ix2 p q) * D (ix2 p (0 : Fin 1))) + B (ix2 (0 : Fin 1) q)) zero := rfl

/-- An R×1 column copied to every lane of an R×N array by a vector broadcast, at (p, c): the column at (p, 0). -/
theorem broadcastTo_column {α : Type} (v : (⟨2, ![R, 1]⟩ : Shape).Idx → α)
    (h : (⟨2, ![R, 1]⟩ : Shape).Broadcasts ⟨2, ![R, N]⟩) (p : Fin R) (c : Fin N) :
    broadcastTo ⟨2, ![R, N]⟩ v h (ix2 p c) = v (ix2 p (0 : Fin 1)) :=
  broadcastTo_apply v h (ix2 p c) (ix2 p (0 : Fin 1)) (fun ax => match ax with
    | ⟨0, _⟩ => by
      show p.val = if R = 1 then 0 else p.val
      split
      · have := p.isLt; omega
      · rfl
    | ⟨1, _⟩ => by
      show (0 : Nat) = if (1 : Nat) = 1 then 0 else c.val
      rw [if_pos rfl])

/-- A scalar broadcast to every entry by the host, at an index: the scalar. -/
theorem broadcastInDim_scalar {α : Type} {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 (fun ax => ax.elim0)

/-- A host's spelling of the combine step IS the combine step. -/
theorem host_eq (hN : N ≠ 1) (A H : FVec Ideal ⟨2, ![R, N]⟩ .f32) (D : FVec Ideal ⟨2, ![R, 1]⟩ .f32)
    (B : FVec Ideal ⟨2, ![1, N]⟩ .f32)
    (hD : (⟨2, ![R, 1]⟩ : Shape).BroadcastsInDim ⟨2, ![R, N]⟩ (![0, 1] : Fin 2 → Fin 2))
    (hB : (⟨2, ![1, N]⟩ : Shape).BroadcastsInDim ⟨2, ![R, N]⟩ (![0, 1] : Fin 2 → Fin 2)) :
    addf (addf A (mulf H (broadcastInDim ⟨2, ![R, N]⟩ ![0, 1] hD D))) (broadcastInDim ⟨2, ![R, N]⟩ ![0, 1] hB B)
      = combine A H D B := by
  funext j
  obtain ⟨p, q, rfl⟩ : ∃ (p : Fin R) (q : Fin N), j = ix2 p q := ⟨j 0, j 1, eq_ix2 j⟩
  show (A (ix2 p q) + H (ix2 p q) * broadcastInDim ⟨2, ![R, N]⟩ ![0, 1] hD D (ix2 p q))
      + broadcastInDim ⟨2, ![R, N]⟩ ![0, 1] hB B (ix2 p q) = _
  rw [ColumnInDim.broadcastInDim_lanes, RowInDim.broadcastInDim_rows hN, combine_apply]

/-- A host's clamp at zero (a maximum with the zero scalar broadcast to every entry), entry by entry. -/
theorem host_relu_eq (X : FVec Ideal ⟨2, ![R, N]⟩ .f32)
    (h0 : (⟨0, ![]⟩ : Shape).BroadcastsInDim ⟨2, ![R, N]⟩ (![] : Fin 0 → Fin 2)) :
    maximumf X (broadcastInDim ⟨2, ![R, N]⟩ ![] h0 (constant (F := Ideal) ⟨0, ![]⟩ .f32 0x00000000#32))
      = fun i => max (X i) zero := by
  funext j
  show max (X j) (broadcastInDim ⟨2, ![R, N]⟩ ![] h0 (constant (F := Ideal) ⟨0, ![]⟩ .f32 0x00000000#32) j) = _
  rw [broadcastInDim_scalar]
  rfl

/-- So a host's spelling of the clamped combine step IS the clamped combine step. -/
theorem host_relu_combine_eq (hN : N ≠ 1) (A H : FVec Ideal ⟨2, ![R, N]⟩ .f32) (D : FVec Ideal ⟨2, ![R, 1]⟩ .f32)
    (B : FVec Ideal ⟨2, ![1, N]⟩ .f32)
    (hD : (⟨2, ![R, 1]⟩ : Shape).BroadcastsInDim ⟨2, ![R, N]⟩ (![0, 1] : Fin 2 → Fin 2))
    (hB : (⟨2, ![1, N]⟩ : Shape).BroadcastsInDim ⟨2, ![R, N]⟩ (![0, 1] : Fin 2 → Fin 2))
    (h0 : (⟨0, ![]⟩ : Shape).BroadcastsInDim ⟨2, ![R, N]⟩ (![] : Fin 0 → Fin 2)) :
    maximumf (addf (addf A (mulf H (broadcastInDim ⟨2, ![R, N]⟩ ![0, 1] hD D)))
        (broadcastInDim ⟨2, ![R, N]⟩ ![0, 1] hB B))
        (broadcastInDim ⟨2, ![R, N]⟩ ![] h0 (constant (F := Ideal) ⟨0, ![]⟩ .f32 0x00000000#32))
      = combineRelu A H D B := by
  rw [host_relu_eq, host_eq hN]
  rfl

/-- A kernel body's spelling on one block (the block's column and the row spread by vector broadcasts), at entry
    (r, q) of the block. -/
theorem kernel_apply (hN : N ≠ 1) (a h : FVec Ideal ⟨2, ![R, N]⟩ .f32) (d : FVec Ideal ⟨2, ![R, 1]⟩ .f32)
    (b : FVec Ideal ⟨2, ![1, N]⟩ .f32)
    (hd : (⟨2, ![R, 1]⟩ : Shape).Broadcasts ⟨2, ![R, N]⟩) (hb : (⟨2, ![1, N]⟩ : Shape).Broadcasts ⟨2, ![R, N]⟩)
    (r : Fin R) (q : Fin N) :
    addf (addf a (mulf h (broadcastTo ⟨2, ![R, N]⟩ d hd))) (broadcastTo ⟨2, ![R, N]⟩ b hb) (ix2 r q)
      = (a (ix2 r q) + h (ix2 r q) * d (ix2 r (0 : Fin 1))) + b (ix2 (0 : Fin 1) q) := by
  show (a (ix2 r q) + h (ix2 r q) * broadcastTo ⟨2, ![R, N]⟩ d hd (ix2 r q)) + broadcastTo ⟨2, ![R, N]⟩ b hb (ix2 r q) = _
  rw [broadcastTo_column, RowVector.broadcastTo_row hN]

end Cert.Combine

end
-- ==== Proof.LibPlainDot.lean ====
/-
  The plain matrix product read at one entry, at the ideal values.

  Take dimension numbers that contract the left operand's column axis against the right operand's row axis and
  have no batch axis: an m×k matrix A times a k×n matrix B. Then a kernel's `tpu.matmul` into the zero
  accumulator and the host's `dot_general` both hold, at entry (a, b), the sum over the contracted coordinate c
  of A(a, c) · B(c, b) — in the extended reals, with no finiteness asked, since both are that sum by definition
  once the contraction index is renamed by its one coordinate.

  The dimension record may be any record equal to the library's `DotDims.plain m k n`; for a record written out
  with those lists the equality is `rfl`.
-/
import Idealize.ShloMosaic.PureOps.Ideal.Laws
import Idealize.ShloMosaic.Lib.ValueIdx

noncomputable section

open scoped BigOperators

namespace Cert.PlainDot

open Idealize.ShloMosaic Idealize.ShloMosaic.ValueIdx

variable {m k n : Nat} {φ₁ φ₂ : FTy}

/-- The left operand's row coordinate is the output's row. -/
theorem lhsIdx_plain_0 (j : (⟨2, ![m, n]⟩ : Shape).Idx) (q : (DotDims.plain m k n).contr.Idx) :
    ((DotDims.plain m k n).lhsIdx j q 0).val = (j 0).val := by
  unfold DotDims.lhsIdx
  rw [dif_neg (show ¬(0 : Fin 2) ∈ (DotDims.plain m k n).lhsBatch from List.not_mem_nil),
    dif_pos (show (0 : Fin 2) ∈ (DotDims.plain m k n).lhsNonContracting from List.mem_singleton.mpr rfl)]
  rfl

/-- The left operand's column coordinate is the contraction coordinate. -/
theorem lhsIdx_plain_1 (j : (⟨2, ![m, n]⟩ : Shape).Idx) (q : (DotDims.plain m k n).contr.Idx) :
    ((DotDims.plain m k n).lhsIdx j q 1).val = (q ⟨0, Nat.one_pos⟩).val :=
  (DotDims.plain m k n).lhsIdx_val_of_single rfl j q

/-- The right operand's row coordinate is the contraction coordinate. -/
theorem rhsIdx_plain_0 (j : (⟨2, ![m, n]⟩ : Shape).Idx) (q : (DotDims.plain m k n).contr.Idx) :
    ((DotDims.plain m k n).rhsIdx j q 0).val = (q ⟨0, Nat.one_pos⟩).val :=
  (DotDims.plain m k n).rhsIdx_val_of_single rfl j q

/-- The right operand's column coordinate is the output's column. -/
theorem rhsIdx_plain_1 (j : (⟨2, ![m, n]⟩ : Shape).Idx) (q : (DotDims.plain m k n).contr.Idx) :
    ((DotDims.plain m k n).rhsIdx j q 1).val = (j 1).val := by
  unfold DotDims.rhsIdx
  rw [dif_neg (show ¬(1 : Fin 2) ∈ (DotDims.plain m k n).rhsBatch from List.not_mem_nil),
    dif_pos (show (1 : Fin 2) ∈ (DotDims.plain m k n).rhsNonContracting from List.mem_singleton.mpr rfl)]
  rfl

/-- At output entry (a, b) and contraction coordinate c the left operand is read at (a, c). -/
theorem lhsIdx_plain (a : Fin m) (b : Fin n) (c : Fin k) :
    (DotDims.plain m k n).lhsIdx (ix2 a b) ((contrEquiv1 (DotDims.plain m k n) k rfl rfl).symm c) = ix2 a c := by
  have hc := contrEquiv1_symm_val (DotDims.plain m k n) k rfl rfl c
  funext ax
  apply Fin.ext
  match ax with
  | ⟨0, _⟩ => exact lhsIdx_plain_0 _ _
  | ⟨1, _⟩ => exact (lhsIdx_plain_1 _ _).trans hc

/-- At output entry (a, b) and contraction coordinate c the right operand is read at (c, b). -/
theorem rhsIdx_plain (a : Fin m) (b : Fin n) (c : Fin k) :
    (DotDims.plain m k n).rhsIdx (ix2 a b) ((contrEquiv1 (DotDims.plain m k n) k rfl rfl).symm c) = ix2 c b := by
  have hc := contrEquiv1_symm_val (DotDims.plain m k n) k rfl rfl c
  funext ax
  apply Fin.ext
  match ax with
  | ⟨0, _⟩ => exact (rhsIdx_plain_0 _ _).trans hc
  | ⟨1, _⟩ => exact rhsIdx_plain_1 _ _

/-- The sum over the contraction index of a plain product is the sum over its one coordinate. -/
theorem sum_contr_plain (A : (⟨2, ![m, k]⟩ : Shape).Idx → EReal) (B : (⟨2, ![k, n]⟩ : Shape).Idx → EReal)
    (a : Fin m) (b : Fin n) :
    (∑ q : (DotDims.plain m k n).contr.Idx,
        A ((DotDims.plain m k n).lhsIdx (ix2 a b) q) * B ((DotDims.plain m k n).rhsIdx (ix2 a b) q))
      = ∑ c : Fin k, A (ix2 a c) * B (ix2 c b) := by
  rw [← Equiv.sum_comp (contrEquiv1 (DotDims.plain m k n) k rfl rfl).symm]
  refine Finset.sum_congr rfl fun c _ => ?_
  rw [lhsIdx_plain, rhsIdx_plain]

/-- A `tpu.matmul` into the zero accumulator, with the plain dimension numbers, at entry (a, b):
    the sum over c of A(a, c) · B(c, b). -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂)
    (a : Fin m) (b : Fin n) :
    FloatOps.matmul D prec A B (constant (F := Ideal) ⟨2, ![m, n]⟩ .f32 0x00000000#32) (ix2 a b)
      = ∑ c : Fin k, A (ix2 a c) * B (ix2 c b) := by
  subst hD
  rw [Ideal.matmul_constant_zero_apply]
  exact sum_contr_plain A B a b

/-- The host's `dot_general` with the plain dimension numbers, at entry (a, b): the same sum. -/
theorem dotGeneral_apply (D : DotDims ⟨2, ![m, k]⟩ ⟨2, ![k, n]⟩ ⟨2, ![m, n]⟩) (hD : D = DotDims.plain m k n)
    (prec : Option ContractPrecision) (sched : HostSchedule) (A : FVec Ideal ⟨2, ![m, k]⟩ φ₁)
    (B : FVec Ideal ⟨2, ![k, n]⟩ φ₂) (a : Fin m) (b : Fin n) :
    FloatOps.dotGeneral D prec sched A B (ix2 a b) = ∑ c : Fin k, A (ix2 a c) * B (ix2 c b) := by
  subst hD
  rw [Ideal.dotGeneral_apply]
  exact sum_contr_plain A B a b

end Cert.PlainDot

end
-- ==== Proof.LibProduct.lean ====
/-
  The plain matrix product as one array, and its two spellings.

  For an R×K matrix X and a K×N matrix W the product is the array

      prod X W (i, j) = ∑ c, X(i, c) · W(c, j)

  in the extended reals. A host's general dot product with the plain dimension numbers IS this array, and a
  product on the matrix unit into the zero accumulator holds the same sum at every entry — with no finiteness
  asked, since each is that sum by definition once the contraction index is renamed by its one coordinate.
  The dimension record may be any record equal to the plain one (for a record written out with those lists the
  equality is `rfl`).
-/
import Idealize.ShloMosaic.PureOps.Ideal.Laws
import Idealize.ShloMosaic.Lib.ValueIdx
import proofs.«132711_j11063835754497_2_alg».proof.Proof.LibPlainDot

noncomputable section

open scoped BigOperators

namespace Cert.Product

open Idealize.ShloMosaic Idealize.ShloMosaic.ValueIdx

variable {R K N : Nat}

/-- The product X · W as one array, entry by entry. -/
def prod (X : (⟨2, ![R, K]⟩ : Shape).Idx → EReal) (W : (⟨2, ![K, N]⟩ : Shape).Idx → EReal) :
    (⟨2, ![R, N]⟩ : Shape).Idx → EReal :=
  fun i => ∑ c : Fin K, X (ix2 (i 0) c) * W (ix2 c (i 1))

/-- The product at entry (p, q). -/
theorem prod_apply (X : (⟨2, ![R, K]⟩ : Shape).Idx → EReal) (W : (⟨2, ![K, N]⟩ : Shape).Idx → EReal)
    (p : Fin R) (q : Fin N) : prod X W (ix2 p q) = ∑ c : Fin K, X (ix2 p c) * W (ix2 c q) := rfl

/-- The host's general dot product with the plain dimension numbers is the product. -/
theorem dotGeneral_eq (D : DotDims ⟨2, ![R, K]⟩ ⟨2, ![K, N]⟩ ⟨2, ![R, N]⟩) (hD : D = DotDims.plain R K N)
    (prec : Option ContractPrecision) (X : FVec Ideal ⟨2, ![R, K]⟩ .f32) (W : FVec Ideal ⟨2, ![K, N]⟩ .f32) :
    Host.dotGeneral D prec X W = prod X W := by
  funext j
  obtain ⟨p, q, rfl⟩ : ∃ (p : Fin R) (q : Fin N), j = ix2 p q := ⟨j 0, j 1, eq_ix2 j⟩
  exact PlainDot.dotGeneral_apply D hD prec .single X W p q

/-- A product on the matrix unit into the zero accumulator, after a change of float format of both operands,
    at entry (p, q): the product's entry. -/
theorem matmul_truncf_apply (D : DotDims ⟨2, ![R, K]⟩ ⟨2, ![K, N]⟩ ⟨2, ![R, N]⟩) (hD : D = DotDims.plain R K N)
    (prec : Option ContractPrecision) (X : FVec Ideal ⟨2, ![R, K]⟩ .f32) (W : FVec Ideal ⟨2, ![K, N]⟩ .f32)
    (hlt : FTy.bf16.bits < FTy.f32.bits) (p : Fin R) (q : Fin N) :
    matmul D prec (truncf .bf16 X hlt) (truncf .bf16 W hlt) (constant (F := Ideal) ⟨2, ![R, N]⟩ .f32 0x00000000#32) (ix2 p q)
      = prod X W (ix2 p q) :=
  PlainDot.matmul_zero_apply D hD prec (truncf .bf16 X hlt) (truncf .bf16 W hlt) p q

end Cert.Product

end
-- ==== Proof.LibHostRead.lean ====
/-
  GENERAL LEMMAS: host layout operations read at an index.

  * a host operation of three operands whose function is given as a function of the three contents leaves that
    function of the three operands' contents in its result buffer;
  * a matrix (or vector) padded on the high side only reads, inside the original extents, the operand at the same
    index, and outside them the padding value;
  * three equal-shape blocks joined along the lanes of a matrix (or along a vector) read, at position
    w·g + r of the joined axis, block g at position r.
  Nothing here depends on a program.
-/
import Idealize.ShloMosaic.Lib.StableHlo.Run
import Idealize.ShloMosaic.Lib.Pipeline.Value
import Idealize.ShloMosaic.Lib.ValueIdx

noncomputable section

namespace Cert.HostRead

open Idealize.ShloMosaic Idealize.ShloMosaic.ValueIdx Idealize.ShloMosaic.StableHlo Idealize.SL.Sem

/-- A three-operand host operation whose function is `g` of the three contents: its result buffer holds `g` of the
    operands' contents. -/
theorem nary3_result {τ : Topo} {sig : RefSig} {Val : EltTy → Type} {x a b y : Ref sig .tc}
    (g : x.ty.Contents Val → a.ty.Contents Val → b.ty.Contents Val → y.ty.Contents Val) (hxs hy)
    (F : Valuation τ sig Val) :
    (nary (τ := τ) ![x, a, b] y (fun u => g (u 0) (u 1) (u 2)) hxs hy).result F (no_index (Proc.devRef .tc y))
      = g (F (Proc.devRef .tc x)) (F (Proc.devRef .tc a)) (F (Proc.devRef .tc b)) :=
  nary_result ![x, a, b] y _ hxs hy F

variable {α : Type}

/-- A matrix padded on the high side of both axes, read inside the original extents. -/
theorem pad2_inside {a b A B ha hb : Nat} (X : (⟨2, ![a, b]⟩ : Shape).Idx → α) {u : Shape} (v : u.Idx → α)
    (h : (⟨2, ![a, b]⟩ : Shape).Pads ![0, 0] ![ha, hb] ![0, 0] ⟨2, ![A, B]⟩) (hu : 0 < u.numel)
    (i : Fin A) (j : Fin B) (hi : i.val < a) (hj : j.val < b) :
    pad ⟨2, ![A, B]⟩ ![0, 0] ![ha, hb] ![0, 0] X v h hu (ix2 i j) = X (ix2 ⟨i.val, hi⟩ ⟨j.val, hj⟩) := by
  unfold pad
  rw [dif_pos (fun ax => match ax with
    | ⟨0, _⟩ => ⟨Nat.zero_le _, Nat.mod_one _, by show (i.val - 0) / (0 + 1) < a; simpa using hi⟩
    | ⟨1, _⟩ => ⟨Nat.zero_le _, Nat.mod_one _, by show (j.val - 0) / (0 + 1) < b; simpa using hj⟩)]
  refine congrArg X (funext fun ax => Fin.ext ?_)
  match ax with
  | ⟨0, _⟩ => show (i.val - 0) / (0 + 1) = i.val; simp
  | ⟨1, _⟩ => show (j.val - 0) / (0 + 1) = j.val; simp

/-- A matrix padded on the high side, read at a row past the original rows: the padding value. -/
theorem pad2_past_rows {a b A B ha hb : Nat} (X : (⟨2, ![a, b]⟩ : Shape).Idx → α) {u : Shape} (v : u.Idx → α)
    (h : (⟨2, ![a, b]⟩ : Shape).Pads ![0, 0] ![ha, hb] ![0, 0] ⟨2, ![A, B]⟩) (hu : 0 < u.numel)
    (i : Fin A) (j : Fin B) (hi : a ≤ i.val) :
    pad ⟨2, ![A, B]⟩ ![0, 0] ![ha, hb] ![0, 0] X v h hu (ix2 i j) = v (Shape.Idx.first hu) := by
  unfold pad
  rw [dif_neg]
  intro hin
  have h0 : (i.val - 0) / (0 + 1) < a := (hin (0 : Fin 2)).2.2
  simp at h0
  omega

/-- A vector padded on the high side, read inside the original extent. -/
theorem pad1_inside {a A ha : Nat} (x : (⟨1, ![a]⟩ : Shape).Idx → α) {u : Shape} (v : u.Idx → α)
    (h : (⟨1, ![a]⟩ : Shape).Pads ![0] ![ha] ![0] ⟨1, ![A]⟩) (hu : 0 < u.numel) (i : Fin A) (hi : i.val < a) :
    pad ⟨1, ![A]⟩ ![0] ![ha] ![0] x v h hu (ix1 i) = x (ix1 ⟨i.val, hi⟩) := by
  unfold pad
  rw [dif_pos (fun ax => match ax with
    | ⟨0, _⟩ => ⟨Nat.zero_le _, Nat.mod_one _, by show (i.val - 0) / (0 + 1) < a; simpa using hi⟩)]
  refine congrArg x (funext fun ax => Fin.ext ?_)
  match ax with
  | ⟨0, _⟩ => show (i.val - 0) / (0 + 1) = i.val; simp

/-- Three K×w blocks joined along the lanes, read at lane w·g + r: block g at lane r. -/
theorem join3_lanes {K w n : Nat} (A0 A1 A2 : (⟨2, ![K, w]⟩ : Shape).Idx → α)
    (h : Shape.Concatenates [(⟨2, ![K, w]⟩ : Shape), ⟨2, ![K, w]⟩, ⟨2, ![K, w]⟩] ⟨2, ![K, n]⟩ 1) (k : Fin K) (r : Fin w) (l : Fin n) :
    (l.val = r.val → concatenate ⟨2, ![K, n]⟩ 1 [⟨⟨2, ![K, w]⟩, A0⟩, ⟨⟨2, ![K, w]⟩, A1⟩, ⟨⟨2, ![K, w]⟩, A2⟩] h (ix2 k l) = A0 (ix2 k r))
    ∧ (l.val = w + r.val → concatenate ⟨2, ![K, n]⟩ 1 [⟨⟨2, ![K, w]⟩, A0⟩, ⟨⟨2, ![K, w]⟩, A1⟩, ⟨⟨2, ![K, w]⟩, A2⟩] h (ix2 k l) = A1 (ix2 k r))
    ∧ (l.val = w + w + r.val → concatenate ⟨2, ![K, n]⟩ 1 [⟨⟨2, ![K, w]⟩, A0⟩, ⟨⟨2, ![K, w]⟩, A1⟩, ⟨⟨2, ![K, w]⟩, A2⟩] h (ix2 k l) = A2 (ix2 k r)) := by
  have hi : ∀ b : Fin 2, b.cast (rfl : (2 : Nat) = 2) ≠ (1 : Fin 2) → ((ix2 k r : (⟨2, ![K, w]⟩ : Shape).Idx) b).val = ((ix2 k l : (⟨2, ![K, n]⟩ : Shape).Idx) (b.cast rfl)).val :=
    fun b hb => match b with
      | ⟨0, _⟩ => rfl
      | ⟨1, _⟩ => absurd rfl hb
  refine ⟨fun hl => ?_, fun hl => ?_, fun hl => ?_⟩
  · exact concatenate_apply_piece (t := ⟨2, ![K, n]⟩) (1 : Fin 2) [⟨⟨2, ![K, w]⟩, A0⟩, ⟨⟨2, ![K, w]⟩, A1⟩, ⟨⟨2, ![K, w]⟩, A2⟩] h (ix2 k l) 0 (by show 0 < 3; omega) _ A0 rfl rfl 0 (by simp) (ix2 k r) hi (by show 0 + r.val = l.val; omega)
  · exact concatenate_apply_piece (t := ⟨2, ![K, n]⟩) (1 : Fin 2) [⟨⟨2, ![K, w]⟩, A0⟩, ⟨⟨2, ![K, w]⟩, A1⟩, ⟨⟨2, ![K, w]⟩, A2⟩] h (ix2 k l) 1 (by show 1 < 3; omega) _ A1 rfl rfl w (by simp) (ix2 k r) hi (by show w + r.val = l.val; omega)
  · exact concatenate_apply_piece (t := ⟨2, ![K, n]⟩) (1 : Fin 2) [⟨⟨2, ![K, w]⟩, A0⟩, ⟨⟨2, ![K, w]⟩, A1⟩, ⟨⟨2, ![K, w]⟩, A2⟩] h (ix2 k l) 2 (by show 2 < 3; omega) _ A2 rfl rfl (w + w) (by simp) (ix2 k r) hi (by show w + w + r.val = l.val; omega)

/-- Three length-w vectors joined end to end, read at position w·g + r: vector g at position r. -/
theorem join3_vec {w n : Nat} (a0 a1 a2 : (⟨1, ![w]⟩ : Shape).Idx → α)
    (h : Shape.Concatenates [(⟨1, ![w]⟩ : Shape), ⟨1, ![w]⟩, ⟨1, ![w]⟩] ⟨1, ![n]⟩ 0) (r : Fin w) (l : Fin n) :
    (l.val = r.val → concatenate ⟨1, ![n]⟩ 0 [⟨⟨1, ![w]⟩, a0⟩, ⟨⟨1, ![w]⟩, a1⟩, ⟨⟨1, ![w]⟩, a2⟩] h (ix1 l) = a0 (ix1 r))
    ∧ (l.val = w + r.val → concatenate ⟨1, ![n]⟩ 0 [⟨⟨1, ![w]⟩, a0⟩, ⟨⟨1, ![w]⟩, a1⟩, ⟨⟨1, ![w]⟩, a2⟩] h (ix1 l) = a1 (ix1 r))
    ∧ (l.val = w + w + r.val → concatenate ⟨1, ![n]⟩ 0 [⟨⟨1, ![w]⟩, a0⟩, ⟨⟨1, ![w]⟩, a1⟩, ⟨⟨1, ![w]⟩, a2⟩] h (ix1 l) = a2 (ix1 r)) := by
  have hi : ∀ b : Fin 1, b.cast (rfl : (1 : Nat) = 1) ≠ (0 : Fin 1) → ((ix1 r : (⟨1, ![w]⟩ : Shape).Idx) b).val = ((ix1 l : (⟨1, ![n]⟩ : Shape).Idx) (b.cast rfl)).val :=
    fun b hb => match b with
      | ⟨0, _⟩ => absurd rfl hb
  refine ⟨fun hl => ?_, fun hl => ?_, fun hl => ?_⟩
  · exact concatenate_apply_piece (t := ⟨1, ![n]⟩) (0 : Fin 1) [⟨⟨1, ![w]⟩, a0⟩, ⟨⟨1, ![w]⟩, a1⟩, ⟨⟨1, ![w]⟩, a2⟩] h (ix1 l) 0 (by show 0 < 3; omega) _ a0 rfl rfl 0 (by simp) (ix1 r) hi (by show 0 + r.val = l.val; omega)
  · exact concatenate_apply_piece (t := ⟨1, ![n]⟩) (0 : Fin 1) [⟨⟨1, ![w]⟩, a0⟩, ⟨⟨1, ![w]⟩, a1⟩, ⟨⟨1, ![w]⟩, a2⟩] h (ix1 l) 1 (by show 1 < 3; omega) _ a1 rfl rfl w (by simp) (ix1 r) hi (by show w + r.val = l.val; omega)
  · exact concatenate_apply_piece (t := ⟨1, ![n]⟩) (0 : Fin 1) [⟨⟨1, ![w]⟩, a0⟩, ⟨⟨1, ![w]⟩, a1⟩, ⟨⟨1, ![w]⟩, a2⟩] h (ix1 l) 2 (by show 2 < 3; omega) _ a2 rfl rfl (w + w) (by simp) (ix1 r) hi (by show w + w + r.val = l.val; omega)

end Cert.HostRead

end
-- ==== Proof.LibLinear.lean ====
/-
  An affine layer read at one entry, at the ideal values.

  For an R×K matrix X, a K×N matrix W and a length-N vector b the layer is the array

      dense X W b (i, j) = (∑ c, X(i, c) · W(c, j)) + b(j)

  in the extended reals. Two spellings of it are read here at an entry (p, q), with no finiteness asked, since
  each is that sum by definition once the contraction index is renamed by its one coordinate:

    * a kernel's: the product on the matrix unit into the zero accumulator of the two operands after a change of
      float format (the identity on ideal values), the left operand first re-cast to its own shape; the vector
      laid out as a 1×N row, copied to every row and added;
    * a host's: the general dot product with the plain dimension numbers; the vector broadcast to a 1×N row and
      then to every row, and added.

  Row i of the layer depends on row i of X alone. So rows appended below X (a padding of any value) change nothing
  in the first rows: the layer of the padded matrix, cut back to the original rows, is the layer of X
  (`slice_dense_pad`).

  The dimension record of either product may be any record equal to the plain one (for a record written out with
  those lists the equality is `rfl`); N ≠ 1 so that the row's own axis is not one that a broadcast copies.
-/
import Idealize.ShloMosaic.PureOps.Ideal.Laws
import Idealize.ShloMosaic.Lib.Pipeline.Value
import Idealize.ShloMosaic.Lib.ValueIdx
import proofs.«132711_j11063835754497_2_alg».proof.Proof.LibPlainDot
import proofs.«132711_j11063835754497_2_alg».proof.Proof.LibRowVector
import proofs.«132711_j11063835754497_2_alg».proof.Proof.LibRowInDim
import proofs.«132711_j11063835754497_2_alg».proof.Proof.LibRowOfVector
import proofs.«132711_j11063835754497_2_alg».proof.Proof.LibHostRead

noncomputable section

open scoped BigOperators

namespace Cert.Linear

open Idealize.ShloMosaic Idealize.ShloMosaic.ValueIdx

variable {R K N : Nat}

/-- The affine layer X · W + b as one array, entry by entry. -/
def dense (X : (⟨2, ![R, K]⟩ : Shape).Idx → EReal) (W : (⟨2, ![K, N]⟩ : Shape).Idx → EReal)
    (b : (⟨1, ![N]⟩ : Shape).Idx → EReal) : (⟨2, ![R, N]⟩ : Shape).Idx → EReal :=
  fun i => (∑ c : Fin K, X (ix2 (i 0) c) * W (ix2 c (i 1))) + b (ix1 (i 1))

/-- The layer at entry (p, q). -/
theorem dense_apply (X : (⟨2, ![R, K]⟩ : Shape).Idx → EReal) (W : (⟨2, ![K, N]⟩ : Shape).Idx → EReal)
    (b : (⟨1, ![N]⟩ : Shape).Idx → EReal) (p : Fin R) (q : Fin N) :
    dense X W b (ix2 p q) = (∑ c : Fin K, X (ix2 p c) * W (ix2 c q)) + b (ix1 q) := rfl

/-- A kernel's spelling of the layer, at entry (p, q). -/
theorem kernel_apply (D : DotDims ⟨2, ![R, K]⟩ ⟨2, ![K, N]⟩ ⟨2, ![R, N]⟩) (hD : D = DotDims.plain R K N) (hN : N ≠ 1)
    (prec : Option ContractPrecision) (X : FVec Ideal ⟨2, ![R, K]⟩ .f32) (W : FVec Ideal ⟨2, ![K, N]⟩ .f32)
    (b : FVec Ideal ⟨1, ![N]⟩ .f32)
    (hX : (⟨2, ![R, K]⟩ : Shape).ShapeCasts ⟨2, ![R, K]⟩) (hb : (⟨1, ![N]⟩ : Shape).ShapeCasts ⟨2, ![1, N]⟩)
    (hbc : (⟨2, ![1, N]⟩ : Shape).Broadcasts ⟨2, ![R, N]⟩) (hlt : FTy.bf16.bits < FTy.f32.bits)
    (p : Fin R) (q : Fin N) :
    addf (matmul D prec (truncf .bf16 (shapeCast ⟨2, ![R, K]⟩ X hX) hlt) (truncf .bf16 W hlt)
          (constant (F := Ideal) ⟨2, ![R, N]⟩ .f32 0x00000000#32))
        (broadcastTo ⟨2, ![R, N]⟩ (shapeCast ⟨2, ![1, N]⟩ b hb) hbc) (ix2 p q)
      = dense X W b (ix2 p q) := by
  show matmul D prec (truncf .bf16 (shapeCast ⟨2, ![R, K]⟩ X hX) hlt) (truncf .bf16 W hlt)
        (constant (F := Ideal) ⟨2, ![R, N]⟩ .f32 0x00000000#32) (ix2 p q)
      + broadcastTo ⟨2, ![R, N]⟩ (shapeCast ⟨2, ![1, N]⟩ b hb) hbc (ix2 p q) = _
  rw [RowVector.broadcastTo_row hN, RowVector.shapeCast_row, dense_apply]
  refine congrArg (· + b (ix1 q))
    ((PlainDot.matmul_zero_apply D hD prec (truncf .bf16 (shapeCast ⟨2, ![R, K]⟩ X hX) hlt) (truncf .bf16 W hlt) p q).trans ?_)
  refine Finset.sum_congr rfl fun c _ => ?_
  show shapeCast ⟨2, ![R, K]⟩ X hX (ix2 p c) * W (ix2 c q) = _
  rw [shapeCast_self]

/-- A host's spelling of the layer, at entry (r, c). -/
theorem host_apply (D : DotDims ⟨2, ![R, K]⟩ ⟨2, ![K, N]⟩ ⟨2, ![R, N]⟩) (hD : D = DotDims.plain R K N) (hN : N ≠ 1)
    (prec : Option ContractPrecision) (X : FVec Ideal ⟨2, ![R, K]⟩ .f32) (W : FVec Ideal ⟨2, ![K, N]⟩ .f32)
    (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2)) (r : Fin R) (c : Fin N) :
    addf (Host.dotGeneral D prec X W)
        (broadcastInDim ⟨2, ![R, N]⟩ ![0, 1] h2 (broadcastInDim ⟨2, ![1, N]⟩ ![1] h1 b)) (ix2 r c)
      = dense X W b (ix2 r c) := by
  show FloatOps.dotGeneral D prec .single X W (ix2 r c)
      + broadcastInDim ⟨2, ![R, N]⟩ ![0, 1] h2 (broadcastInDim ⟨2, ![1, N]⟩ ![1] h1 b) (ix2 r c) = _
  rw [RowInDim.broadcastInDim_rows hN, PlainDot.dotGeneral_apply D hD, RowOfVector.broadcastInDim_row hN, dense_apply]

/-- So a host's spelling of the layer IS the layer. -/
theorem host_eq (D : DotDims ⟨2, ![R, K]⟩ ⟨2, ![K, N]⟩ ⟨2, ![R, N]⟩) (hD : D = DotDims.plain R K N) (hN : N ≠ 1)
    (prec : Option ContractPrecision) (X : FVec Ideal ⟨2, ![R, K]⟩ .f32) (W : FVec Ideal ⟨2, ![K, N]⟩ .f32)
    (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2)) :
    addf (Host.dotGeneral D prec X W)
        (broadcastInDim ⟨2, ![R, N]⟩ ![0, 1] h2 (broadcastInDim ⟨2, ![1, N]⟩ ![1] h1 b))
      = dense X W b := by
  funext j
  obtain ⟨r, c, rfl⟩ : ∃ (r : Fin R) (c : Fin N), j = ix2 r c := ⟨j 0, j 1, eq_ix2 j⟩
  exact host_apply D hD hN prec X W b h1 h2 r c

/-- Rows appended below a matrix do not reach the rows above them: the layer of a matrix padded with extra rows,
    cut back to the original rows, is the layer of the matrix. -/
theorem slice_dense_pad {a A ha : Nat} (X : (⟨2, ![a, K]⟩ : Shape).Idx → EReal) {u : Shape} (v : u.Idx → EReal)
    (W : (⟨2, ![K, N]⟩ : Shape).Idx → EReal) (b : (⟨1, ![N]⟩ : Shape).Idx → EReal)
    (hp : (⟨2, ![a, K]⟩ : Shape).Pads ![0, 0] ![ha, 0] ![0, 0] ⟨2, ![A, K]⟩) (hu : 0 < u.numel)
    (hs : (⟨2, ![A, N]⟩ : Shape).Slices ![0, 0] ⟨2, ![a, N]⟩) (haA : a ≤ A) :
    extractStridedSlice ⟨2, ![a, N]⟩ ![0, 0] (dense (pad ⟨2, ![A, K]⟩ ![0, 0] ![ha, 0] ![0, 0] X v hp hu) W b) hs
      = dense X W b := by
  funext j
  obtain ⟨r, q, rfl⟩ : ∃ (r : Fin a) (q : Fin N), j = ix2 r q := ⟨j 0, j 1, eq_ix2 j⟩
  have hr : r.val < A := lt_of_lt_of_le r.isLt haA
  rw [extractStridedSlice_apply ![0, 0] _ hs (ix2 r q) (ix2 ⟨r.val, hr⟩ q) (fun ax => match ax with
      | ⟨0, _⟩ => by show r.val = 0 + r.val; omega
      | ⟨1, _⟩ => by show q.val = 0 + q.val; omega),
    dense_apply, dense_apply]
  refine congrArg (· + b (ix1 q)) (Finset.sum_congr rfl fun c _ => ?_)
  rw [HostRead.pad2_inside X v hp hu ⟨r.val, hr⟩ c r.isLt c.isLt]

end Cert.Linear

end
-- ==== Proof.LibAffineRow.lean ====
/-
  A matrix product plus a row, as one array.

  For an R×K matrix X, a K×N matrix W and a 1×N row B,

      rowAffine X W B (i, j) = (∑ c, X(i, c) · W(c, j)) + B(0, j)

  in the extended reals. When the row is a length-N vector laid out as 1×N by a reshape, this is the affine layer
  X · W + b of that vector.
-/
import Idealize.ShloMosaic.PureOps.Ideal.Laws
import Idealize.ShloMosaic.Lib.Pipeline.Value
import Idealize.ShloMosaic.Lib.ValueIdx
import proofs.«132711_j11063835754497_2_alg».proof.Proof.LibProduct
import proofs.«132711_j11063835754497_2_alg».proof.Proof.LibLinear
import proofs.«132711_j11063835754497_2_alg».proof.Proof.LibRowVector

noncomputable section

open scoped BigOperators

namespace Cert.AffineRow

open Idealize.ShloMosaic Idealize.ShloMosaic.ValueIdx

variable {R K N : Nat}

/-- X · W plus the row B on every row, entry by entry. -/
def rowAffine (X : (⟨2, ![R, K]⟩ : Shape).Idx → EReal) (W : (⟨2, ![K, N]⟩ : Shape).Idx → EReal)
    (B : (⟨2, ![1, N]⟩ : Shape).Idx → EReal) : (⟨2, ![R, N]⟩ : Shape).Idx → EReal :=
  fun i => (∑ c : Fin K, X (ix2 (i 0) c) * W (ix2 c (i 1))) + B (ix2 (0 : Fin 1) (i 1))

theorem rowAffine_apply (X : (⟨2, ![R, K]⟩ : Shape).Idx → EReal) (W : (⟨2, ![K, N]⟩ : Shape).Idx → EReal)
    (B : (⟨2, ![1, N]⟩ : Shape).Idx → EReal) (p : Fin R) (q : Fin N) :
    rowAffine X W B (ix2 p q) = (∑ c : Fin K, X (ix2 p c) * W (ix2 c q)) + B (ix2 (0 : Fin 1) q) := rfl

/-- With the row a reshaped length-N vector, this is the affine layer of the vector. -/
theorem rowAffine_shapeCast (X : (⟨2, ![R, K]⟩ : Shape).Idx → EReal) (W : (⟨2, ![K, N]⟩ : Shape).Idx → EReal)
    (b : (⟨1, ![N]⟩ : Shape).Idx → EReal) (h : (⟨1, ![N]⟩ : Shape).ShapeCasts ⟨2, ![1, N]⟩) :
    rowAffine X W (shapeCast ⟨2, ![1, N]⟩ b h) = Linear.dense X W b := by
  funext j
  obtain ⟨p, q, rfl⟩ : ∃ (p : Fin R) (q : Fin N), j = ix2 p q := ⟨j 0, j 1, eq_ix2 j⟩
  rw [rowAffine_apply, Linear.dense_apply, RowVector.shapeCast_row]

end Cert.AffineRow

end
-- ==== Proof.LibNodeUpdate.lean ====
/-
  One node update of a normalised graph convolution as one array, and its spellings.

  For R×N arrays A (the messages summed at each node) and H (the node's own projected features), a length-R
  vector d (a per-node factor) and a length-N vector b (a per-lane offset) the update is

      update A H d b (i, j) = max ((A(i, j) + (d(i) · d(i)) · H(i, j)) + b(j)) 0

  in the extended reals: the node's own row enters scaled by the square of its factor, and the sum is clamped
  below at zero. Three spellings are read here, each that value by definition at every entry, so no
  finiteness is asked:

    * over a column view D (R×1) of d and a row view B (1×N) of b (`updateCol`), and that with the views
      the reshapes of the vectors it is `update`;
    * a kernel body's, on one block: the block's column squared, then spread over the lanes by a vector
      broadcast, the row spread over the rows, the maximum taken with a splat zero;
    * a host's: the squared vector broadcast to a column and then to every lane, the offset broadcast to a
      row and then to every row, the maximum taken with the zero scalar broadcast to every entry.

  Also an affine layer whose offset is a 1×N row (`AffineRow.rowAffine`), in a kernel body's spelling on
  one block, with and without the clamp, and the clamp `relu` itself in a host's spelling.
  N ≠ 1 so that the row's own axis is not one a broadcast copies.
-/
import Idealize.ShloMosaic.PureOps.Ideal.Laws
import Idealize.ShloMosaic.Lib.Pipeline.Value
import Idealize.ShloMosaic.Lib.ValueIdx
import proofs.«132711_j11063835754497_2_alg».proof.Proof.LibRowVector
import proofs.«132711_j11063835754497_2_alg».proof.Proof.LibRowInDim
import proofs.«132711_j11063835754497_2_alg».proof.Proof.LibColumnInDim
import proofs.«132711_j11063835754497_2_alg».proof.Proof.LibRowOfVector
import proofs.«132711_j11063835754497_2_alg».proof.Proof.LibCombine
import proofs.«132711_j11063835754497_2_alg».proof.Proof.LibPlainDot
import proofs.«132711_j11063835754497_2_alg».proof.Proof.LibAffineRow

noncomputable section

open scoped BigOperators

namespace Cert.NodeUpdate

open Idealize.ShloMosaic Idealize.ShloMosaic.ValueIdx

variable {R K N : Nat}

/-- The zero every clamp compares against: the value of the all-zero f32 pattern. -/
abbrev zero : EReal := Ideal.ofBits .f32 0x00000000#32

/-- The clamp below at zero, entry by entry. -/
def relu {s : Shape} (X : s.Idx → EReal) : s.Idx → EReal := fun i => max (X i) zero

/-- The node update over a column view of the factor and a row view of the offset. -/
def updateCol (A H : (⟨2, ![R, N]⟩ : Shape).Idx → EReal) (D : (⟨2, ![R, 1]⟩ : Shape).Idx → EReal)
    (B : (⟨2, ![1, N]⟩ : Shape).Idx → EReal) : (⟨2, ![R, N]⟩ : Shape).Idx → EReal :=
  fun i => max ((A i + (D (ix2 (i 0) (0 : Fin 1)) * D (ix2 (i 0) (0 : Fin 1))) * H i) + B (ix2 (0 : Fin 1) (i 1))) zero

/-- The node update over the factor and the offset as vectors. -/
def update (A H : (⟨2, ![R, N]⟩ : Shape).Idx → EReal) (d : (⟨1, ![R]⟩ : Shape).Idx → EReal)
    (b : (⟨1, ![N]⟩ : Shape).Idx → EReal) : (⟨2, ![R, N]⟩ : Shape).Idx → EReal :=
  fun i => max ((A i + (d (ix1 (i 0)) * d (ix1 (i 0))) * H i) + b (ix1 (i 1))) zero

theorem updateCol_apply (A H : (⟨2, ![R, N]⟩ : Shape).Idx → EReal) (D : (⟨2, ![R, 1]⟩ : Shape).Idx → EReal)
    (B : (⟨2, ![1, N]⟩ : Shape).Idx → EReal) (p : Fin R) (q : Fin N) :
    updateCol A H D B (ix2 p q)
      = max ((A (ix2 p q) + (D (ix2 p (0 : Fin 1)) * D (ix2 p (0 : Fin 1))) * H (ix2 p q)) + B (ix2 (0 : Fin 1) q)) zero := rfl

theorem update_apply (A H : (⟨2, ![R, N]⟩ : Shape).Idx → EReal) (d : (⟨1, ![R]⟩ : Shape).Idx → EReal)
    (b : (⟨1, ![N]⟩ : Shape).Idx → EReal) (p : Fin R) (q : Fin N) :
    update A H d b (ix2 p q) = max ((A (ix2 p q) + (d (ix1 p) * d (ix1 p)) * H (ix2 p q)) + b (ix1 q)) zero := rfl

/-- With the column and the row the reshapes of the two vectors, the update over views is the update. -/
theorem updateCol_shapeCast (A H : (⟨2, ![R, N]⟩ : Shape).Idx → EReal) (d : (⟨1, ![R]⟩ : Shape).Idx → EReal)
    (b : (⟨1, ![N]⟩ : Shape).Idx → EReal) (hd : (⟨1, ![R]⟩ : Shape).ShapeCasts ⟨2, ![R, 1]⟩)
    (hb : (⟨1, ![N]⟩ : Shape).ShapeCasts ⟨2, ![1, N]⟩) :
    updateCol A H (shapeCast ⟨2, ![R, 1]⟩ d hd) (shapeCast ⟨2, ![1, N]⟩ b hb) = update A H d b := by
  funext j
  obtain ⟨p, q, rfl⟩ : ∃ (p : Fin R) (q : Fin N), j = ix2 p q := ⟨j 0, j 1, eq_ix2 j⟩
  rw [updateCol_apply, update_apply, ColumnInDim.shapeCast_column, RowVector.shapeCast_row]

/-- A kernel body's spelling of the update on one block, at entry (r, q) of the block. -/
theorem block_apply (hN : N ≠ 1) (a h : FVec Ideal ⟨2, ![R, N]⟩ .f32) (d : FVec Ideal ⟨2, ![R, 1]⟩ .f32)
    (b : FVec Ideal ⟨2, ![1, N]⟩ .f32)
    (h1 : (⟨2, ![R, N]⟩ : Shape).ShapeCasts ⟨2, ![R, N]⟩) (h2 : (⟨2, ![R, 1]⟩ : Shape).ShapeCasts ⟨2, ![R, 1]⟩)
    (h3 : (⟨2, ![1, N]⟩ : Shape).ShapeCasts ⟨2, ![1, N]⟩)
    (hd : (⟨2, ![R, 1]⟩ : Shape).Broadcasts ⟨2, ![R, N]⟩) (hb : (⟨2, ![1, N]⟩ : Shape).Broadcasts ⟨2, ![R, N]⟩)
    (r : Fin R) (q : Fin N) :
    maximumf
        (addf
          (addf (shapeCast ⟨2, ![R, N]⟩ a h1)
            (mulf (broadcastTo ⟨2, ![R, N]⟩ (mulf (shapeCast ⟨2, ![R, 1]⟩ d h2) (shapeCast ⟨2, ![R, 1]⟩ d h2)) hd)
              (shapeCast ⟨2, ![R, N]⟩ h h1)))
          (broadcastTo ⟨2, ![R, N]⟩ (shapeCast ⟨2, ![1, N]⟩ b h3) hb))
        (broadcast ⟨2, ![R, N]⟩ (Scalar.ofBits (F := Ideal) .f32 0x00000000#32)) (ix2 r q)
      = max ((a (ix2 r q) + (d (ix2 r (0 : Fin 1)) * d (ix2 r (0 : Fin 1))) * h (ix2 r q)) + b (ix2 (0 : Fin 1) q)) zero := by
  show max ((shapeCast ⟨2, ![R, N]⟩ a h1 (ix2 r q)
        + broadcastTo ⟨2, ![R, N]⟩ (mulf (shapeCast ⟨2, ![R, 1]⟩ d h2) (shapeCast ⟨2, ![R, 1]⟩ d h2)) hd (ix2 r q)
          * shapeCast ⟨2, ![R, N]⟩ h h1 (ix2 r q))
      + broadcastTo ⟨2, ![R, N]⟩ (shapeCast ⟨2, ![1, N]⟩ b h3) hb (ix2 r q)) zero = _
  rw [Combine.broadcastTo_column, RowVector.broadcastTo_row hN]
  simp only [shapeCast_self]
  rfl

/-- A host's spelling of the update IS the update. -/
theorem host_eq (hN : N ≠ 1) (A H : FVec Ideal ⟨2, ![R, N]⟩ .f32) (d : FVec Ideal ⟨1, ![R]⟩ .f32)
    (b : FVec Ideal ⟨1, ![N]⟩ .f32)
    (hc : (⟨1, ![R]⟩ : Shape).BroadcastsInDim ⟨2, ![R, 1]⟩ (![0] : Fin 1 → Fin 2))
    (hl : (⟨2, ![R, 1]⟩ : Shape).BroadcastsInDim ⟨2, ![R, N]⟩ (![0, 1] : Fin 2 → Fin 2))
    (hr : (⟨1, ![N]⟩ : Shape).BroadcastsInDim ⟨2, ![1, N]⟩ (![1] : Fin 1 → Fin 2))
    (hrr : (⟨2, ![1, N]⟩ : Shape).BroadcastsInDim ⟨2, ![R, N]⟩ (![0, 1] : Fin 2 → Fin 2))
    (h0 : (⟨0, ![]⟩ : Shape).BroadcastsInDim ⟨2, ![R, N]⟩ (![] : Fin 0 → Fin 2)) :
    maximumf
        (addf
          (addf A (mulf (broadcastInDim ⟨2, ![R, N]⟩ ![0, 1] hl (broadcastInDim ⟨2, ![R, 1]⟩ ![0] hc (mulf d d))) H))
          (broadcastInDim ⟨2, ![R, N]⟩ ![0, 1] hrr (broadcastInDim ⟨2, ![1, N]⟩ ![1] hr b)))
        (broadcastInDim ⟨2, ![R, N]⟩ ![] h0 (constant (F := Ideal) ⟨0, ![]⟩ .f32 0x00000000#32))
      = update A H d b := by
  funext j
  obtain ⟨p, q, rfl⟩ : ∃ (p : Fin R) (q : Fin N), j = ix2 p q := ⟨j 0, j 1, eq_ix2 j⟩
  show max ((A (ix2 p q)
        + broadcastInDim ⟨2, ![R, N]⟩ ![0, 1] hl (broadcastInDim ⟨2, ![R, 1]⟩ ![0] hc (mulf d d)) (ix2 p q) * H (ix2 p q))
      + broadcastInDim ⟨2, ![R, N]⟩ ![0, 1] hrr (broadcastInDim ⟨2, ![1, N]⟩ ![1] hr b) (ix2 p q))
      (broadcastInDim ⟨2, ![R, N]⟩ ![] h0 (constant (F := Ideal) ⟨0, ![]⟩ .f32 0x00000000#32) (ix2 p q)) = _
  rw [ColumnInDim.broadcastInDim_lanes, ColumnInDim.broadcastInDim_column, RowInDim.broadcastInDim_rows hN,
    RowOfVector.broadcastInDim_row hN, Combine.broadcastInDim_scalar, update_apply]
  rfl

/-- A host's clamp at zero IS the clamp. -/
theorem host_relu_eq (X : FVec Ideal ⟨2, ![R, N]⟩ .f32)
    (h0 : (⟨0, ![]⟩ : Shape).BroadcastsInDim ⟨2, ![R, N]⟩ (![] : Fin 0 → Fin 2)) :
    maximumf X (broadcastInDim ⟨2, ![R, N]⟩ ![] h0 (constant (F := Ideal) ⟨0, ![]⟩ .f32 0x00000000#32)) = relu X :=
  Combine.host_relu_eq X h0

/-- A kernel body's spelling of an affine layer whose offset is a 1×N row, on one block, at entry (p, q). -/
theorem affine_block_apply (D : DotDims ⟨2, ![R, K]⟩ ⟨2, ![K, N]⟩ ⟨2, ![R, N]⟩) (hD : D = DotDims.plain R K N)
    (hN : N ≠ 1) (prec : Option ContractPrecision) (X : FVec Ideal ⟨2, ![R, K]⟩ .f32)
    (W : FVec Ideal ⟨2, ![K, N]⟩ .f32) (B : FVec Ideal ⟨2, ![1, N]⟩ .f32)
    (hX : (⟨2, ![R, K]⟩ : Shape).ShapeCasts ⟨2, ![R, K]⟩) (hB : (⟨2, ![1, N]⟩ : Shape).ShapeCasts ⟨2, ![1, N]⟩)
    (hbc : (⟨2, ![1, N]⟩ : Shape).Broadcasts ⟨2, ![R, N]⟩) (hlt : FTy.bf16.bits < FTy.f32.bits)
    (p : Fin R) (q : Fin N) :
    addf (matmul D prec (truncf .bf16 (shapeCast ⟨2, ![R, K]⟩ X hX) hlt) (truncf .bf16 W hlt)
          (constant (F := Ideal) ⟨2, ![R, N]⟩ .f32 0x00000000#32))
        (broadcastTo ⟨2, ![R, N]⟩ (shapeCast ⟨2, ![1, N]⟩ B hB) hbc) (ix2 p q)
      = AffineRow.rowAffine X W B (ix2 p q) := by
  show matmul D prec (truncf .bf16 (shapeCast ⟨2, ![R, K]⟩ X hX) hlt) (truncf .bf16 W hlt)
        (constant (F := Ideal) ⟨2, ![R, N]⟩ .f32 0x00000000#32) (ix2 p q)
      + broadcastTo ⟨2, ![R, N]⟩ (shapeCast ⟨2, ![1, N]⟩ B hB) hbc (ix2 p q) = _
  rw [RowVector.broadcastTo_row hN]
  simp only [shapeCast_self]
  rw [AffineRow.rowAffine_apply]
  exact congrArg (· + B (ix2 (0 : Fin 1) q))
    (PlainDot.matmul_zero_apply D hD prec (truncf .bf16 X hlt) (truncf .bf16 W hlt) p q)

/-- The same followed by the clamp (a maximum with a splat zero), at entry (p, q). -/
theorem affine_relu_block_apply (D : DotDims ⟨2, ![R, K]⟩ ⟨2, ![K, N]⟩ ⟨2, ![R, N]⟩) (hD : D = DotDims.plain R K N)
    (hN : N ≠ 1) (prec : Option ContractPrecision) (X : FVec Ideal ⟨2, ![R, K]⟩ .f32)
    (W : FVec Ideal ⟨2, ![K, N]⟩ .f32) (B : FVec Ideal ⟨2, ![1, N]⟩ .f32)
    (hX : (⟨2, ![R, K]⟩ : Shape).ShapeCasts ⟨2, ![R, K]⟩) (hB : (⟨2, ![1, N]⟩ : Shape).ShapeCasts ⟨2, ![1, N]⟩)
    (hbc : (⟨2, ![1, N]⟩ : Shape).Broadcasts ⟨2, ![R, N]⟩) (hlt : FTy.bf16.bits < FTy.f32.bits)
    (p : Fin R) (q : Fin N) :
    maximumf
        (addf (matmul D prec (truncf .bf16 (shapeCast ⟨2, ![R, K]⟩ X hX) hlt) (truncf .bf16 W hlt)
            (constant (F := Ideal) ⟨2, ![R, N]⟩ .f32 0x00000000#32))
          (broadcastTo ⟨2, ![R, N]⟩ (shapeCast ⟨2, ![1, N]⟩ B hB) hbc))
        (broadcast ⟨2, ![R, N]⟩ (Scalar.ofBits (F := Ideal) .f32 0x00000000#32)) (ix2 p q)
      = relu (AffineRow.rowAffine X W B) (ix2 p q) := by
  show max (addf (matmul D prec (truncf .bf16 (shapeCast ⟨2, ![R, K]⟩ X hX) hlt) (truncf .bf16 W hlt)
            (constant (F := Ideal) ⟨2, ![R, N]⟩ .f32 0x00000000#32))
          (broadcastTo ⟨2, ![R, N]⟩ (shapeCast ⟨2, ![1, N]⟩ B hB) hbc) (ix2 p q)) zero = _
  rw [affine_block_apply D hD hN]
  rfl

end Cert.NodeUpdate

end
-- ==== Proof.EdgeSpec.lean ====
/-
  The per-edge readout of the network, as one function of whole arrays over the extended reals.
  For an edge e, with the two projected feature rows al(e, ·) and at(e, ·) of its end points:
    out(e) = (∑ over the 128 lanes l of max((al(e,l) + at(e,l)) + b1(l), 0) · w2(l)) + b2.
  The association of the additions is the one the kernel body uses.
-/
import Idealize.ShloMosaic.PureOps.Ideal.Laws
import Idealize.ShloMosaic.Lib.Pipeline.Value
import Idealize.ShloMosaic.Lib.ValueIdx

noncomputable section

open scoped BigOperators

namespace Cert.EdgeSpec

open Idealize.ShloMosaic Idealize.ShloMosaic.ValueIdx

variable {E : Nat}

/-- The zero the clamp compares with: the f32 pattern of 0.0 read as an extended real. -/
abbrev zero : EReal := Ideal.ofBits .f32 0x00000000#32

/-- The readout of one edge: clamp the sum of the two projected rows and the bias at zero, weigh the lanes by
    `w2`, sum them, add the scalar bias. -/
def edgeRow (al at' : Fin 128 → EReal) (B1 W2 : (⟨2, ![1, 128]⟩ : Shape).Idx → EReal)
    (B2 : (⟨2, ![1, 1]⟩ : Shape).Idx → EReal) : EReal :=
  (∑ l : Fin 128, max ((al l + at' l) + B1 (ix2 (0 : Fin 1) l)) zero * W2 (ix2 (0 : Fin 1) l))
    + B2 (ix2 (0 : Fin 1) (0 : Fin 1))

/-- The readout of every edge: an [E, 1] column. -/
def edgeFinal (AL AT : (⟨2, ![E, 128]⟩ : Shape).Idx → EReal) (B1 W2 : (⟨2, ![1, 128]⟩ : Shape).Idx → EReal)
    (B2 : (⟨2, ![1, 1]⟩ : Shape).Idx → EReal) : (⟨2, ![E, 1]⟩ : Shape).Idx → EReal :=
  fun i => edgeRow (fun l => AL (ix2 (⟨(i 0).val, (i 0).isLt⟩ : Fin E) l)) (fun l => AT (ix2 (⟨(i 0).val, (i 0).isLt⟩ : Fin E) l)) B1 W2 B2

theorem edgeFinal_apply (AL AT : (⟨2, ![E, 128]⟩ : Shape).Idx → EReal) (B1 W2 : (⟨2, ![1, 128]⟩ : Shape).Idx → EReal)
    (B2 : (⟨2, ![1, 1]⟩ : Shape).Idx → EReal) (e : Fin E) (u : Fin 1) :
    edgeFinal AL AT B1 W2 B2 (ix2 e u)
      = (∑ l : Fin 128, max ((AL (ix2 e l) + AT (ix2 e l)) + B1 (ix2 (0 : Fin 1) l)) zero * W2 (ix2 (0 : Fin 1) l))
          + B2 (ix2 (0 : Fin 1) (0 : Fin 1)) := rfl

end Cert.EdgeSpec

end
-- ==== Proof.Forms.lean ====
/-
  What each of the nine regions leaves in its output array, as one function of the arrays it reads, for any contents
  V of the buffers at the region's entry: a dense layer X·W + B over all rows (clamped at zero in the two
  message-passing layers), and the per-edge readout. Stated as one record so that the walk through @main can cite
  the nine facts by name.
-/
import proofs.«132711_j11063835754497_2_alg».proof.Proof.Gen.KernelIdeal.Frame
import proofs.«132711_j11063835754497_2_alg».proof.Proof.LibNodeUpdate
import proofs.«132711_j11063835754497_2_alg».proof.Proof.EdgeSpec

noncomputable section

namespace Cert.KernelIdeal.Chain

open Cert.KernelIdeal Cert.KernelIdeal.Gen
open Idealize.ShloMosaic Idealize.ShloMosaic.TcCoe
open Idealize.SL.Sem

set_option maxHeartbeats 4000000 in
/-- The nine regions' output arrays as functions of their input arrays at the region's entry. -/
structure Forms : Prop where
  out0 : ∀ (V : (c : Dev nD) → (b : Ref sig .tc) → Buf (Elt Ideal) ((c : Thread nD τ).loc b)) (c : Dev nD), (dat0 (F := Ideal) V c).arrAt 3 cfg0.N
      = Cert.AffineRow.rowAffine (R := 100000) (K := 4) (N := 128) (V c (Pipeline.arrRef spec0 0)) (V c (Pipeline.arrRef spec0 1)) (V c (Pipeline.arrRef spec0 2))
  out1 : ∀ (V : (c : Dev nD) → (b : Ref sig .tc) → Buf (Elt Ideal) ((c : Thread nD τ).loc b)) (c : Dev nD), (dat1 (F := Ideal) V c).arrAt 3 cfg1.N
      = Cert.AffineRow.rowAffine (R := 20000) (K := 1280) (N := 128) (V c (Pipeline.arrRef spec1 0)) (V c (Pipeline.arrRef spec1 1)) (V c (Pipeline.arrRef spec1 2))
  out2 : ∀ (V : (c : Dev nD) → (b : Ref sig .tc) → Buf (Elt Ideal) ((c : Thread nD τ).loc b)) (c : Dev nD), (dat2 (F := Ideal) V c).arrAt 3 cfg2.N
      = Cert.NodeUpdate.relu (Cert.AffineRow.rowAffine (R := 20000) (K := 128) (N := 128) (V c (Pipeline.arrRef spec2 0)) (V c (Pipeline.arrRef spec2 1)) (V c (Pipeline.arrRef spec2 2)))
  out3 : ∀ (V : (c : Dev nD) → (b : Ref sig .tc) → Buf (Elt Ideal) ((c : Thread nD τ).loc b)) (c : Dev nD), (dat3 (F := Ideal) V c).arrAt 3 cfg3.N
      = Cert.NodeUpdate.relu (Cert.AffineRow.rowAffine (R := 100000) (K := 128) (N := 128) (V c (Pipeline.arrRef spec3 0)) (V c (Pipeline.arrRef spec3 1)) (V c (Pipeline.arrRef spec3 2)))
  out4 : ∀ (V : (c : Dev nD) → (b : Ref sig .tc) → Buf (Elt Ideal) ((c : Thread nD τ).loc b)) (c : Dev nD), (dat4 (F := Ideal) V c).arrAt 3 cfg4.N
      = Cert.NodeUpdate.relu (Cert.AffineRow.rowAffine (R := 20000) (K := 128) (N := 128) (V c (Pipeline.arrRef spec4 0)) (V c (Pipeline.arrRef spec4 1)) (V c (Pipeline.arrRef spec4 2)))
  out5 : ∀ (V : (c : Dev nD) → (b : Ref sig .tc) → Buf (Elt Ideal) ((c : Thread nD τ).loc b)) (c : Dev nD), (dat5 (F := Ideal) V c).arrAt 3 cfg5.N
      = Cert.NodeUpdate.relu (Cert.AffineRow.rowAffine (R := 100000) (K := 128) (N := 128) (V c (Pipeline.arrRef spec5 0)) (V c (Pipeline.arrRef spec5 1)) (V c (Pipeline.arrRef spec5 2)))
  out6 : ∀ (V : (c : Dev nD) → (b : Ref sig .tc) → Buf (Elt Ideal) ((c : Thread nD τ).loc b)) (c : Dev nD), (dat6 (F := Ideal) V c).arrAt 3 cfg6.N
      = Cert.AffineRow.rowAffine (R := 100000) (K := 128) (N := 128) (V c (Pipeline.arrRef spec6 0)) (V c (Pipeline.arrRef spec6 1)) (V c (Pipeline.arrRef spec6 2))
  out7 : ∀ (V : (c : Dev nD) → (b : Ref sig .tc) → Buf (Elt Ideal) ((c : Thread nD τ).loc b)) (c : Dev nD), (dat7 (F := Ideal) V c).arrAt 3 cfg7.N
      = Cert.AffineRow.rowAffine (R := 20000) (K := 128) (N := 128) (V c (Pipeline.arrRef spec7 0)) (V c (Pipeline.arrRef spec7 1)) (V c (Pipeline.arrRef spec7 2))
  out8 : ∀ (V : (c : Dev nD) → (b : Ref sig .tc) → Buf (Elt Ideal) ((c : Thread nD τ).loc b)) (c : Dev nD), (dat8 (F := Ideal) V c).arrAt 5 cfg8.N
      = Cert.EdgeSpec.edgeFinal (E := 1000000) (V c (Pipeline.arrRef spec8 0)) (V c (Pipeline.arrRef spec8 1)) (V c (Pipeline.arrRef spec8 2)) (V c (Pipeline.arrRef spec8 3)) (V c (Pipeline.arrRef spec8 4))

end Cert.KernelIdeal.Chain

end
-- ==== Proof.RegionPayload.lean ====
/-
  The dense layer a kernel block computes, read at one entry.

  Each of the eight dense-layer kernels holds, on a block of rows X (R×K), the whole weight matrix W (K×N) and
  the 1×N row B, the array

      (r, q) ↦ (∑ c, X(r, c) · W(c, q)) + B(0, q)

  clamped below at zero in four of them. The spellings differ only by changes of float format and by reshapes
  to the same shape, and at the extended reals both are the identity, so every spelling is that value at
  every entry, with no finiteness asked. First over arbitrary extents, then at the eight kernels' own shapes.
-/
import proofs.«132711_j11063835754497_2_alg».proof.Proof.Gen.KernelIdeal.Skeleton
import proofs.«132711_j11063835754497_2_alg».proof.Proof.LibPlainDot
import proofs.«132711_j11063835754497_2_alg».proof.Proof.LibRowVector
import proofs.«132711_j11063835754497_2_alg».proof.Proof.LibAffineRow
import proofs.«132711_j11063835754497_2_alg».proof.Proof.LibNodeUpdate

noncomputable section

open scoped BigOperators

namespace Cert.KernelIdeal.RegionValue

open Idealize.ShloMosaic Idealize.ShloMosaic.ValueIdx Cert.KernelIdeal Cert.KernelIdeal.Gen

section General

variable {R K N : Nat}

/-- The layer with both operands only changed in float format, the sum changed in format at the end:
    X · W + B at entry (p, q). -/
theorem affine_plain_apply (D : DotDims ⟨2, ![R, K]⟩ ⟨2, ![K, N]⟩ ⟨2, ![R, N]⟩) (hD : D = DotDims.plain R K N)
    (hN : N ≠ 1) (prec : Option ContractPrecision) (X : FVec Ideal ⟨2, ![R, K]⟩ .f32)
    (W : FVec Ideal ⟨2, ![K, N]⟩ .f32) (B : FVec Ideal ⟨2, ![1, N]⟩ .f32)
    (hB : (⟨2, ![1, N]⟩ : Shape).ShapeCasts ⟨2, ![1, N]⟩)
    (hbc : (⟨2, ![1, N]⟩ : Shape).Broadcasts ⟨2, ![R, N]⟩) (hlt : FTy.bf16.bits < FTy.f32.bits)
    (p : Fin R) (q : Fin N) :
    truncf .bf16
        (addf (matmul D prec (truncf .bf16 X hlt) (truncf .bf16 W hlt)
            (constant (F := Ideal) ⟨2, ![R, N]⟩ .f32 0x00000000#32))
          (broadcastTo ⟨2, ![R, N]⟩ (shapeCast ⟨2, ![1, N]⟩ B hB) hbc)) hlt (ix2 p q)
      = AffineRow.rowAffine X W B (ix2 p q) := by
  show matmul D prec (truncf .bf16 X hlt) (truncf .bf16 W hlt)
        (constant (F := Ideal) ⟨2, ![R, N]⟩ .f32 0x00000000#32) (ix2 p q)
      + broadcastTo ⟨2, ![R, N]⟩ (shapeCast ⟨2, ![1, N]⟩ B hB) hbc (ix2 p q) = _
  rw [RowVector.broadcastTo_row hN]
  simp only [shapeCast_self]
  rw [AffineRow.rowAffine_apply]
  exact congrArg (· + B (ix2 (0 : Fin 1) q))
    (PlainDot.matmul_zero_apply D hD prec (truncf .bf16 X hlt) (truncf .bf16 W hlt) p q)

/-- The layer with the rows first reshaped to their own shape, clamped below at zero, then changed in format:
    max (X · W + B) 0 at entry (p, q). -/
theorem affine_relu_apply (D : DotDims ⟨2, ![R, K]⟩ ⟨2, ![K, N]⟩ ⟨2, ![R, N]⟩) (hD : D = DotDims.plain R K N)
    (hN : N ≠ 1) (prec : Option ContractPrecision) (X : FVec Ideal ⟨2, ![R, K]⟩ .f32)
    (W : FVec Ideal ⟨2, ![K, N]⟩ .f32) (B : FVec Ideal ⟨2, ![1, N]⟩ .f32)
    (hX : (⟨2, ![R, K]⟩ : Shape).ShapeCasts ⟨2, ![R, K]⟩) (hB : (⟨2, ![1, N]⟩ : Shape).ShapeCasts ⟨2, ![1, N]⟩)
    (hbc : (⟨2, ![1, N]⟩ : Shape).Broadcasts ⟨2, ![R, N]⟩) (hlt : FTy.bf16.bits < FTy.f32.bits)
    (p : Fin R) (q : Fin N) :
    truncf .bf16
        (maximumf
          (addf (matmul D prec (truncf .bf16 (shapeCast ⟨2, ![R, K]⟩ X hX) hlt) (truncf .bf16 W hlt)
              (constant (F := Ideal) ⟨2, ![R, N]⟩ .f32 0x00000000#32))
            (broadcastTo ⟨2, ![R, N]⟩ (shapeCast ⟨2, ![1, N]⟩ B hB) hbc))
          (broadcast ⟨2, ![R, N]⟩ (Scalar.ofBits (F := Ideal) .f32 0x00000000#32))) hlt (ix2 p q)
      = NodeUpdate.relu (AffineRow.rowAffine X W B) (ix2 p q) :=
  NodeUpdate.affine_relu_block_apply D hD hN prec X W B hX hB hbc hlt p q

/-- The layer whose rows already come in the narrow format: rows and weights reshaped to their own shapes, the
    weights changed in format: X · W + B at entry (p, q). -/
theorem affine_narrow_apply (D : DotDims ⟨2, ![R, K]⟩ ⟨2, ![K, N]⟩ ⟨2, ![R, N]⟩) (hD : D = DotDims.plain R K N)
    (hN : N ≠ 1) (prec : Option ContractPrecision) (X : FVec Ideal ⟨2, ![R, K]⟩ .bf16)
    (W : FVec Ideal ⟨2, ![K, N]⟩ .f32) (B : FVec Ideal ⟨2, ![1, N]⟩ .f32)
    (hX : (⟨2, ![R, K]⟩ : Shape).ShapeCasts ⟨2, ![R, K]⟩) (hW : (⟨2, ![K, N]⟩ : Shape).ShapeCasts ⟨2, ![K, N]⟩)
    (hB : (⟨2, ![1, N]⟩ : Shape).ShapeCasts ⟨2, ![1, N]⟩)
    (hbc : (⟨2, ![1, N]⟩ : Shape).Broadcasts ⟨2, ![R, N]⟩) (hlt : FTy.bf16.bits < FTy.f32.bits)
    (p : Fin R) (q : Fin N) :
    truncf .bf16
        (addf (matmul D prec (shapeCast ⟨2, ![R, K]⟩ X hX) (truncf .bf16 (shapeCast ⟨2, ![K, N]⟩ W hW) hlt)
            (constant (F := Ideal) ⟨2, ![R, N]⟩ .f32 0x00000000#32))
          (broadcastTo ⟨2, ![R, N]⟩ (shapeCast ⟨2, ![1, N]⟩ B hB) hbc)) hlt (ix2 p q)
      = AffineRow.rowAffine (R := R) (K := K) (N := N) X W B (ix2 p q) := by
  show matmul D prec (shapeCast ⟨2, ![R, K]⟩ X hX) (truncf .bf16 (shapeCast ⟨2, ![K, N]⟩ W hW) hlt)
        (constant (F := Ideal) ⟨2, ![R, N]⟩ .f32 0x00000000#32) (ix2 p q)
      + broadcastTo ⟨2, ![R, N]⟩ (shapeCast ⟨2, ![1, N]⟩ B hB) hbc (ix2 p q) = _
  rw [RowVector.broadcastTo_row hN]
  simp only [shapeCast_self]
  rw [AffineRow.rowAffine_apply]
  exact congrArg (· + B (ix2 (0 : Fin 1) q))
    (PlainDot.matmul_zero_apply D hD prec X (truncf .bf16 W hlt) p q)

end General

/-! ## The eight kernels' payloads at an entry -/

/-- Kernel 0 (5000×4 rows, 4×128 weights). -/
theorem pay0_apply (x0 : Vec Ideal S5000x4 .f32) (x1 : Vec Ideal S4x128 .f32) (x2 : Vec Ideal S1x128 .f32)
    (r : Fin 5000) (q : Fin 128) :
    k0_pay1 (F := Ideal) x0 x1 x2 (ix2 r q)
      = AffineRow.rowAffine (R := 5000) (K := 4) (N := 128) x0 x1 x2 (ix2 r q) :=
  affine_plain_apply dot_S5000x4_S4x128_S5000x128_1_0_0_1_n_n rfl (by decide) none x0 x1 x2 _ _ _ r q

/-- Kernel 1 (1000×1280 rows, 1280×128 weights). -/
theorem pay1_apply (x0 : Vec Ideal S1000x1280 .f32) (x1 : Vec Ideal S1280x128 .f32) (x2 : Vec Ideal S1x128 .f32)
    (r : Fin 1000) (q : Fin 128) :
    k1_pay1 (F := Ideal) x0 x1 x2 (ix2 r q)
      = AffineRow.rowAffine (R := 1000) (K := 1280) (N := 128) x0 x1 x2 (ix2 r q) :=
  affine_plain_apply dot_S1000x1280_S1280x128_S1000x128_1_0_0_1_n_n rfl (by decide) none x0 x1 x2 _ _ _ r q

/-- Kernel 2 (2000×128 rows, 128×128 weights, clamped). -/
theorem pay2_apply (x0 : Vec Ideal S2000x128 .f32) (x1 : Vec Ideal S128x128 .f32) (x2 : Vec Ideal S1x128 .f32)
    (r : Fin 2000) (q : Fin 128) :
    k2_pay1 (F := Ideal) x0 x1 x2 (ix2 r q)
      = NodeUpdate.relu (AffineRow.rowAffine (R := 2000) (K := 128) (N := 128) x0 x1 x2) (ix2 r q) :=
  affine_relu_apply dot_S2000x128_S128x128_S2000x128_1_0_0_1_n_n rfl (by decide) none x0 x1 x2 _ _ _ _ r q

/-- Kernel 3 (5000×128 rows, 128×128 weights, clamped). -/
theorem pay3_apply (x0 : Vec Ideal S5000x128 .f32) (x1 : Vec Ideal S128x128 .f32) (x2 : Vec Ideal S1x128 .f32)
    (r : Fin 5000) (q : Fin 128) :
    k3_pay1 (F := Ideal) x0 x1 x2 (ix2 r q)
      = NodeUpdate.relu (AffineRow.rowAffine (R := 5000) (K := 128) (N := 128) x0 x1 x2) (ix2 r q) :=
  affine_relu_apply dot_S5000x128_S128x128_S5000x128_1_0_0_1_n_n rfl (by decide) none x0 x1 x2 _ _ _ _ r q

/-- Kernel 4 (2000×128 rows, 128×128 weights, clamped). -/
theorem pay4_apply (x0 : Vec Ideal S2000x128 .f32) (x1 : Vec Ideal S128x128 .f32) (x2 : Vec Ideal S1x128 .f32)
    (r : Fin 2000) (q : Fin 128) :
    k4_pay1 (F := Ideal) x0 x1 x2 (ix2 r q)
      = NodeUpdate.relu (AffineRow.rowAffine (R := 2000) (K := 128) (N := 128) x0 x1 x2) (ix2 r q) :=
  affine_relu_apply dot_S2000x128_S128x128_S2000x128_1_0_0_1_n_n rfl (by decide) none x0 x1 x2 _ _ _ _ r q

/-- Kernel 5 (5000×128 rows, 128×128 weights, clamped). -/
theorem pay5_apply (x0 : Vec Ideal S5000x128 .f32) (x1 : Vec Ideal S128x128 .f32) (x2 : Vec Ideal S1x128 .f32)
    (r : Fin 5000) (q : Fin 128) :
    k5_pay1 (F := Ideal) x0 x1 x2 (ix2 r q)
      = NodeUpdate.relu (AffineRow.rowAffine (R := 5000) (K := 128) (N := 128) x0 x1 x2) (ix2 r q) :=
  affine_relu_apply dot_S5000x128_S128x128_S5000x128_1_0_0_1_n_n rfl (by decide) none x0 x1 x2 _ _ _ _ r q

/-- Kernel 6 (10000×128 rows already in the narrow format, 128×128 weights). -/
theorem pay6_apply (x0 : Vec Ideal S10000x128 .bf16) (x1 : Vec Ideal S128x128 .f32) (x2 : Vec Ideal S1x128 .f32)
    (r : Fin 10000) (q : Fin 128) :
    k6_pay1 (F := Ideal) x0 x1 x2 (ix2 r q)
      = AffineRow.rowAffine (R := 10000) (K := 128) (N := 128) x0 x1 x2 (ix2 r q) :=
  affine_narrow_apply dot_S10000x128_S128x128_S10000x128_1_0_0_1_n_n rfl (by decide) none x0 x1 x2 _ _ _ _ _ r q

/-- Kernel 7 (4000×128 rows already in the narrow format, 128×128 weights). -/
theorem pay7_apply (x0 : Vec Ideal S4000x128 .bf16) (x1 : Vec Ideal S128x128 .f32) (x2 : Vec Ideal S1x128 .f32)
    (r : Fin 4000) (q : Fin 128) :
    k7_pay1 (F := Ideal) x0 x1 x2 (ix2 r q)
      = AffineRow.rowAffine (R := 4000) (K := 128) (N := 128) x0 x1 x2 (ix2 r q) :=
  affine_narrow_apply dot_S4000x128_S128x128_S4000x128_1_0_0_1_n_n rfl (by decide) none x0 x1 x2 _ _ _ _ _ r q

/-- The zero offsets of a whole-block access, however spelt. -/
theorem offsets_zero : (![0, 0] : Fin 2 → Nat) = fun _ => 0 := funext fun a => by fin_cases a <;> rfl

end Cert.KernelIdeal.RegionValue

end
-- ==== Proof.Region0.lean ====
/-
  The dense layer of kernel 0 as one array.

  The kernel walks 20 blocks of 5000 rows. At each block it reads the block's rows X, the whole 4×128 weight
  matrix W and the 1×128 row B, and leaves (∑ c, X(r, c) · W(c, q)) + B(0, q) in the block's rows of the
  output. Row r of the block at point t is row t · 5000 + r of the array, the blocks cover the 100000 rows, so after
  the last block the output array is that function of the three whole arrays as the kernel found them.
-/
import proofs.«132711_j11063835754497_2_alg».proof.Proof.Gen.KernelIdeal.Frame
import proofs.«132711_j11063835754497_2_alg».proof.Proof.RegionPayload
import Idealize.ShloMosaic.Lib.Pipeline.Value

noncomputable section

open scoped BigOperators

namespace Cert.KernelIdeal.RegionValue

open Idealize.ShloMosaic Idealize.ShloMosaic.ValueIdx Idealize.ShloMosaic.TcCoe Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- The block indices over the grid: the rows' and the output's block is the point's own, the weights' and
    the row's is the one block there is. -/
theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row r of the block at point t, as a row of the whole array. -/
def row0 (t : Fin cfg0.N) (r : Fin 5000) : Fin 100000 :=
  ⟨t.val * 5000 + r.val, by have ht : t.val < 20 := t.isLt; have hr := r.isLt; omega⟩

/-- Entry (r, k) of the rows' block at point t sits at (t · 5000 + r, k) of their array. -/
theorem emb0_0 (t : Fin cfg0.N) (r : Fin 5000) (k : Fin 4) :
    ((cfg0.win 0).blk t).view.emb (ix2 r k) = ix2 (row0 t r) k := by
  obtain ⟨e0, e1, -, -, -, -, -, -⟩ := index_facts0 t
  funext a; apply Fin.ext
  match a with
  | ⟨0, _⟩ => show win0_0.index t (0 : Fin 2) * 5000 + 1 * r.val = t.val * 5000 + r.val; omega
  | ⟨1, _⟩ => show win0_0.index t (1 : Fin 2) * 4 + 1 * k.val = k.val; omega

/-- The weights' block is their whole array. -/
theorem emb0_1 (t : Fin cfg0.N) (k : Fin 4) (q : Fin 128) :
    ((cfg0.win 1).blk t).view.emb (ix2 k q) = ix2 k q := by
  obtain ⟨-, -, e2, e3, -, -, -, -⟩ := index_facts0 t
  funext a; apply Fin.ext
  match a with
  | ⟨0, _⟩ => show win0_1.index t (0 : Fin 2) * 4 + 1 * k.val = k.val; omega
  | ⟨1, _⟩ => show win0_1.index t (1 : Fin 2) * 128 + 1 * q.val = q.val; omega

/-- The row's block is its whole array. -/
theorem emb0_2 (t : Fin cfg0.N) (z : Fin 1) (q : Fin 128) :
    ((cfg0.win 2).blk t).view.emb (ix2 z q) = ix2 z q := by
  obtain ⟨-, -, -, -, e4, e5, -, -⟩ := index_facts0 t
  funext a; apply Fin.ext
  match a with
  | ⟨0, _⟩ => show win0_2.index t (0 : Fin 2) * 1 + 1 * z.val = z.val; omega
  | ⟨1, _⟩ => show win0_2.index t (1 : Fin 2) * 128 + 1 * q.val = q.val; omega

/-- Entry (r, q) of the output's block at point t sits at (t · 5000 + r, q) of the output array. -/
theorem emb0_3 (t : Fin cfg0.N) (r : Fin 5000) (q : Fin 128) :
    ((cfg0.win 3).blk t).view.emb (ix2 r q) = ix2 (row0 t r) q := by
  obtain ⟨-, -, -, -, -, -, e6, e7⟩ := index_facts0 t
  funext a; apply Fin.ext
  match a with
  | ⟨0, _⟩ => show win0_3.index t (0 : Fin 2) * 5000 + 1 * r.val = t.val * 5000 + r.val; omega
  | ⟨1, _⟩ => show win0_3.index t (1 : Fin 2) * 128 + 1 * q.val = q.val; omega

/-- The layer of the three blocks at point t, at entry (r, q), is the layer of the three whole arrays at
    entry (t · 5000 + r, q): each block is read where it sits in its array. -/
theorem affine_block0 (c : Dev nD) (t : Fin cfg0.N) (r : Fin 5000) (q : Fin 128) :
    Cert.AffineRow.rowAffine (R := 5000) (K := 4) (N := 128) (iblk0 V c 0 t) (iblk0 V c 1 t) (iblk0 V c 2 t) (ix2 r q)
      = Cert.AffineRow.rowAffine (R := 100000) (K := 4) (N := 128) (V c (Pipeline.arrRef spec0 0)) (V c (Pipeline.arrRef spec0 1)) (V c (Pipeline.arrRef spec0 2)) (ix2 (row0 t r) q) := by
  rw [Cert.AffineRow.rowAffine_apply, Cert.AffineRow.rowAffine_apply]
  have h2 : iblk0 V c 2 t (ix2 (0 : Fin 1) q) = V c (Pipeline.arrRef spec0 2) (ix2 (0 : Fin 1) q) :=
    congrArg (V c (Pipeline.arrRef spec0 2)) (emb0_2 t 0 q)
  rw [h2]
  refine congrArg (· + V c (Pipeline.arrRef spec0 2) (ix2 (0 : Fin 1) q)) (Finset.sum_congr rfl fun k _ => ?_)
  have hL : iblk0 V c 0 t (ix2 r k) = V c (Pipeline.arrRef spec0 0) (ix2 (row0 t r) k) :=
    congrArg (V c (Pipeline.arrRef spec0 0)) (emb0_0 t r k)
  have hR : iblk0 V c 1 t (ix2 k q) = V c (Pipeline.arrRef spec0 1) (ix2 k q) :=
    congrArg (V c (Pipeline.arrRef spec0 1)) (emb0_1 t k q)
  rw [hL, hR]

/-- What point t writes back is its block of the layer of the whole arrays. -/
theorem flushed0_eq (c : Dev nD) (t : Fin cfg0.N) :
    (dat0 (F := Ideal) V c).flushed 3 t
      = ((cfg0.win 3).blk t).view.read (Elt Ideal)
          (Cert.AffineRow.rowAffine (R := 100000) (K := 4) (N := 128) (V c (Pipeline.arrRef spec0 0)) (V c (Pipeline.arrRef spec0 1)) (V c (Pipeline.arrRef spec0 2))) := by
  show (cfg0.win 3).cut (grid0.coords t) ((dat0 (F := Ideal) V c).after 3 t) = _
  rw [after0_3]
  unfold out0_3
  rw [View.canon_unit_zero offsets_zero]
  simp only [View.ld_unit_zero (S := S5000x4) offsets_zero, View.ld_unit_zero (S := S4x128) offsets_zero,
    View.ld_unit_zero (S := S1x128) offsets_zero]
  funext j
  obtain ⟨r, q, rfl⟩ : ∃ (r : Fin 5000) (q : Fin 128), j = ix2 r q := ⟨j 0, j 1, eq_ix2 j⟩
  refine (pay0_apply (iblk0 V c 0 t) (iblk0 V c 1 t) (iblk0 V c 2 t) r q).trans ?_
  show _ = (Cert.AffineRow.rowAffine (R := 100000) (K := 4) (N := 128) (V c (Pipeline.arrRef spec0 0)) (V c (Pipeline.arrRef spec0 1)) (V c (Pipeline.arrRef spec0 2))) (((cfg0.win 3).blk t).view.emb (ix2 r q))
  rw [emb0_3]
  exact affine_block0 V c t r q

/-- An index of the output array is in point t's block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v1).slice (win0_3.rect t)).set ↔ _
  rw [View.set_slice_whole, Rect.mem_set_unit]
  exact Iff.rfl

/-- Every row of the output array is in the block of the point its number divided by 5000 names. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hlt : (i 0).val / 5000 < 20 := by omega
  obtain ⟨-, -, -, -, -, -, e6, e7⟩ := index_facts0 ⟨(i 0).val / 5000, hlt⟩
  have e6' : win0_3.index ⟨(i 0).val / 5000, hlt⟩ (0 : Fin 2) = (i 0).val / 5000 := e6
  refine ⟨⟨(i 0).val / 5000, hlt⟩, flush0_3 _, ?_⟩
  rw [mem_blk0]
  intro a
  match a with
  | ⟨0, _⟩ =>
    show win0_3.index ⟨(i 0).val / 5000, hlt⟩ (0 : Fin 2) * 5000 ≤ (i 0).val
      ∧ (i 0).val < win0_3.index ⟨(i 0).val / 5000, hlt⟩ (0 : Fin 2) * 5000 + 5000
    omega
  | ⟨1, _⟩ =>
    show win0_3.index ⟨(i 0).val / 5000, hlt⟩ (1 : Fin 2) * 128 ≤ (i 1).val
      ∧ (i 1).val < win0_3.index ⟨(i 0).val / 5000, hlt⟩ (1 : Fin 2) * 128 + 128
    omega

/-- THE OUTPUT ARRAY of kernel 0 after its last block: the layer of the rows, the weights and the
    1×128 row as the kernel found them, whatever they are. -/
theorem out0 (c : Dev nD) :
    (dat0 (F := Ideal) V c).arrAt 3 cfg0.N
      = Cert.AffineRow.rowAffine (R := 100000) (K := 4) (N := 128) (V c (Pipeline.arrRef spec0 0)) (V c (Pipeline.arrRef spec0 1)) (V c (Pipeline.arrRef spec0 2)) :=
  (dat0 (F := Ideal) V c).arrAt_eq_of_cover 3 _ (fun t _ => flushed0_eq V c t) cover0

end Cert.KernelIdeal.RegionValue

end
-- ==== Proof.Region1.lean ====
/-
  The dense layer of kernel 1 as one array.

  The kernel walks 20 blocks of 1000 rows. At each block it reads the block's rows X, the whole 1280×128 weight
  matrix W and the 1×128 row B, and leaves (∑ c, X(r, c) · W(c, q)) + B(0, q) in the block's rows of the
  output. Row r of the block at point t is row t · 1000 + r of the array, the blocks cover the 20000 rows, so after
  the last block the output array is that function of the three whole arrays as the kernel found them.
-/
import proofs.«132711_j11063835754497_2_alg».proof.Proof.Gen.KernelIdeal.Frame
import proofs.«132711_j11063835754497_2_alg».proof.Proof.RegionPayload
import Idealize.ShloMosaic.Lib.Pipeline.Value

noncomputable section

open scoped BigOperators

namespace Cert.KernelIdeal.RegionValue

open Idealize.ShloMosaic Idealize.ShloMosaic.ValueIdx Idealize.ShloMosaic.TcCoe Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- The block indices over the grid: the rows' and the output's block is the point's own, the weights' and
    the row's is the one block there is. -/
theorem index_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row r of the block at point t, as a row of the whole array. -/
def row1 (t : Fin cfg1.N) (r : Fin 1000) : Fin 20000 :=
  ⟨t.val * 1000 + r.val, by have ht : t.val < 20 := t.isLt; have hr := r.isLt; omega⟩

/-- Entry (r, k) of the rows' block at point t sits at (t · 1000 + r, k) of their array. -/
theorem emb1_0 (t : Fin cfg1.N) (r : Fin 1000) (k : Fin 1280) :
    ((cfg1.win 0).blk t).view.emb (ix2 r k) = ix2 (row1 t r) k := by
  obtain ⟨e0, e1, -, -, -, -, -, -⟩ := index_facts1 t
  funext a; apply Fin.ext
  match a with
  | ⟨0, _⟩ => show win1_0.index t (0 : Fin 2) * 1000 + 1 * r.val = t.val * 1000 + r.val; omega
  | ⟨1, _⟩ => show win1_0.index t (1 : Fin 2) * 1280 + 1 * k.val = k.val; omega

/-- The weights' block is their whole array. -/
theorem emb1_1 (t : Fin cfg1.N) (k : Fin 1280) (q : Fin 128) :
    ((cfg1.win 1).blk t).view.emb (ix2 k q) = ix2 k q := by
  obtain ⟨-, -, e2, e3, -, -, -, -⟩ := index_facts1 t
  funext a; apply Fin.ext
  match a with
  | ⟨0, _⟩ => show win1_1.index t (0 : Fin 2) * 1280 + 1 * k.val = k.val; omega
  | ⟨1, _⟩ => show win1_1.index t (1 : Fin 2) * 128 + 1 * q.val = q.val; omega

/-- The row's block is its whole array. -/
theorem emb1_2 (t : Fin cfg1.N) (z : Fin 1) (q : Fin 128) :
    ((cfg1.win 2).blk t).view.emb (ix2 z q) = ix2 z q := by
  obtain ⟨-, -, -, -, e4, e5, -, -⟩ := index_facts1 t
  funext a; apply Fin.ext
  match a with
  | ⟨0, _⟩ => show win1_2.index t (0 : Fin 2) * 1 + 1 * z.val = z.val; omega
  | ⟨1, _⟩ => show win1_2.index t (1 : Fin 2) * 128 + 1 * q.val = q.val; omega

/-- Entry (r, q) of the output's block at point t sits at (t · 1000 + r, q) of the output array. -/
theorem emb1_3 (t : Fin cfg1.N) (r : Fin 1000) (q : Fin 128) :
    ((cfg1.win 3).blk t).view.emb (ix2 r q) = ix2 (row1 t r) q := by
  obtain ⟨-, -, -, -, -, -, e6, e7⟩ := index_facts1 t
  funext a; apply Fin.ext
  match a with
  | ⟨0, _⟩ => show win1_3.index t (0 : Fin 2) * 1000 + 1 * r.val = t.val * 1000 + r.val; omega
  | ⟨1, _⟩ => show win1_3.index t (1 : Fin 2) * 128 + 1 * q.val = q.val; omega

/-- The layer of the three blocks at point t, at entry (r, q), is the layer of the three whole arrays at
    entry (t · 1000 + r, q): each block is read where it sits in its array. -/
theorem affine_block1 (c : Dev nD) (t : Fin cfg1.N) (r : Fin 1000) (q : Fin 128) :
    Cert.AffineRow.rowAffine (R := 1000) (K := 1280) (N := 128) (iblk1 V c 0 t) (iblk1 V c 1 t) (iblk1 V c 2 t) (ix2 r q)
      = Cert.AffineRow.rowAffine (R := 20000) (K := 1280) (N := 128) (V c (Pipeline.arrRef spec1 0)) (V c (Pipeline.arrRef spec1 1)) (V c (Pipeline.arrRef spec1 2)) (ix2 (row1 t r) q) := by
  rw [Cert.AffineRow.rowAffine_apply, Cert.AffineRow.rowAffine_apply]
  have h2 : iblk1 V c 2 t (ix2 (0 : Fin 1) q) = V c (Pipeline.arrRef spec1 2) (ix2 (0 : Fin 1) q) :=
    congrArg (V c (Pipeline.arrRef spec1 2)) (emb1_2 t 0 q)
  rw [h2]
  refine congrArg (· + V c (Pipeline.arrRef spec1 2) (ix2 (0 : Fin 1) q)) (Finset.sum_congr rfl fun k _ => ?_)
  have hL : iblk1 V c 0 t (ix2 r k) = V c (Pipeline.arrRef spec1 0) (ix2 (row1 t r) k) :=
    congrArg (V c (Pipeline.arrRef spec1 0)) (emb1_0 t r k)
  have hR : iblk1 V c 1 t (ix2 k q) = V c (Pipeline.arrRef spec1 1) (ix2 k q) :=
    congrArg (V c (Pipeline.arrRef spec1 1)) (emb1_1 t k q)
  rw [hL, hR]

/-- What point t writes back is its block of the layer of the whole arrays. -/
theorem flushed1_eq (c : Dev nD) (t : Fin cfg1.N) :
    (dat1 (F := Ideal) V c).flushed 3 t
      = ((cfg1.win 3).blk t).view.read (Elt Ideal)
          (Cert.AffineRow.rowAffine (R := 20000) (K := 1280) (N := 128) (V c (Pipeline.arrRef spec1 0)) (V c (Pipeline.arrRef spec1 1)) (V c (Pipeline.arrRef spec1 2))) := by
  show (cfg1.win 3).cut (grid1.coords t) ((dat1 (F := Ideal) V c).after 3 t) = _
  rw [after1_3]
  unfold out1_3
  rw [View.canon_unit_zero offsets_zero]
  simp only [View.ld_unit_zero (S := S1000x1280) offsets_zero, View.ld_unit_zero (S := S1280x128) offsets_zero,
    View.ld_unit_zero (S := S1x128) offsets_zero]
  funext j
  obtain ⟨r, q, rfl⟩ : ∃ (r : Fin 1000) (q : Fin 128), j = ix2 r q := ⟨j 0, j 1, eq_ix2 j⟩
  refine (pay1_apply (iblk1 V c 0 t) (iblk1 V c 1 t) (iblk1 V c 2 t) r q).trans ?_
  show _ = (Cert.AffineRow.rowAffine (R := 20000) (K := 1280) (N := 128) (V c (Pipeline.arrRef spec1 0)) (V c (Pipeline.arrRef spec1 1)) (V c (Pipeline.arrRef spec1 2))) (((cfg1.win 3).blk t).view.emb (ix2 r q))
  rw [emb1_3]
  exact affine_block1 V c t r q

/-- An index of the output array is in point t's block iff each coordinate is in the block's range on its axis. -/
theorem mem_blk1 (t : Fin cfg1.N) (i : S20000x128.Idx) :
    i ∈ ((cfg1.win 3).blk t).view.set ↔ ∀ a : Fin 2, win1_3.index t a * S1000x128.size a ≤ (i a).val ∧ (i a).val < win1_3.index t a * S1000x128.size a + S1000x128.size a := by
  show i ∈ ((View.whole main_v3).slice (win1_3.rect t)).set ↔ _
  rw [View.set_slice_whole, Rect.mem_set_unit]
  exact Iff.rfl

/-- Every row of the output array is in the block of the point its number divided by 1000 names. -/
theorem cover1 (i : S20000x128.Idx) :
    ∃ t : Fin cfg1.N, (cfg1.win 3).flush t = true ∧ i ∈ ((cfg1.win 3).blk t).view.set := by
  have hi0 : (i 0).val < 20000 := (i 0).isLt
  have hi1 : (i 1).val < 128 := (i 1).isLt
  have hlt : (i 0).val / 1000 < 20 := by omega
  obtain ⟨-, -, -, -, -, -, e6, e7⟩ := index_facts1 ⟨(i 0).val / 1000, hlt⟩
  have e6' : win1_3.index ⟨(i 0).val / 1000, hlt⟩ (0 : Fin 2) = (i 0).val / 1000 := e6
  refine ⟨⟨(i 0).val / 1000, hlt⟩, flush1_3 _, ?_⟩
  rw [mem_blk1]
  intro a
  match a with
  | ⟨0, _⟩ =>
    show win1_3.index ⟨(i 0).val / 1000, hlt⟩ (0 : Fin 2) * 1000 ≤ (i 0).val
      ∧ (i 0).val < win1_3.index ⟨(i 0).val / 1000, hlt⟩ (0 : Fin 2) * 1000 + 1000
    omega
  | ⟨1, _⟩ =>
    show win1_3.index ⟨(i 0).val / 1000, hlt⟩ (1 : Fin 2) * 128 ≤ (i 1).val
      ∧ (i 1).val < win1_3.index ⟨(i 0).val / 1000, hlt⟩ (1 : Fin 2) * 128 + 128
    omega

/-- THE OUTPUT ARRAY of kernel 1 after its last block: the layer of the rows, the weights and the
    1×128 row as the kernel found them, whatever they are. -/
theorem out1 (c : Dev nD) :
    (dat1 (F := Ideal) V c).arrAt 3 cfg1.N
      = Cert.AffineRow.rowAffine (R := 20000) (K := 1280) (N := 128) (V c (Pipeline.arrRef spec1 0)) (V c (Pipeline.arrRef spec1 1)) (V c (Pipeline.arrRef spec1 2)) :=
  (dat1 (F := Ideal) V c).arrAt_eq_of_cover 3 _ (fun t _ => flushed1_eq V c t) cover1

end Cert.KernelIdeal.RegionValue

end
-- ==== Proof.Region2.lean ====
/-
  The dense layer of kernel 2 as one array.

  The kernel walks 10 blocks of 2000 rows. At each block it reads the block's rows X, the whole 128×128 weight
  matrix W and the 1×128 row B, and leaves (∑ c, X(r, c) · W(c, q)) + B(0, q), clamped below at zero, in the block's rows of the
  output. Row r of the block at point t is row t · 2000 + r of the array, the blocks cover the 20000 rows, so after
  the last block the output array is that function of the three whole arrays as the kernel found them.
-/
import proofs.«132711_j11063835754497_2_alg».proof.Proof.Gen.KernelIdeal.Frame
import proofs.«132711_j11063835754497_2_alg».proof.Proof.RegionPayload
import Idealize.ShloMosaic.Lib.Pipeline.Value

noncomputable section

open scoped BigOperators

namespace Cert.KernelIdeal.RegionValue

open Idealize.ShloMosaic Idealize.ShloMosaic.ValueIdx Idealize.ShloMosaic.TcCoe Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- The block indices over the grid: the rows' and the output's block is the point's own, the weights' and
    the row's is the one block there is. -/
theorem index_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row r of the block at point t, as a row of the whole array. -/
def row2 (t : Fin cfg2.N) (r : Fin 2000) : Fin 20000 :=
  ⟨t.val * 2000 + r.val, by have ht : t.val < 10 := t.isLt; have hr := r.isLt; omega⟩

/-- Entry (r, k) of the rows' block at point t sits at (t · 2000 + r, k) of their array. -/
theorem emb2_0 (t : Fin cfg2.N) (r : Fin 2000) (k : Fin 128) :
    ((cfg2.win 0).blk t).view.emb (ix2 r k) = ix2 (row2 t r) k := by
  obtain ⟨e0, e1, -, -, -, -, -, -⟩ := index_facts2 t
  funext a; apply Fin.ext
  match a with
  | ⟨0, _⟩ => show win2_0.index t (0 : Fin 2) * 2000 + 1 * r.val = t.val * 2000 + r.val; omega
  | ⟨1, _⟩ => show win2_0.index t (1 : Fin 2) * 128 + 1 * k.val = k.val; omega

/-- The weights' block is their whole array. -/
theorem emb2_1 (t : Fin cfg2.N) (k : Fin 128) (q : Fin 128) :
    ((cfg2.win 1).blk t).view.emb (ix2 k q) = ix2 k q := by
  obtain ⟨-, -, e2, e3, -, -, -, -⟩ := index_facts2 t
  funext a; apply Fin.ext
  match a with
  | ⟨0, _⟩ => show win2_1.index t (0 : Fin 2) * 128 + 1 * k.val = k.val; omega
  | ⟨1, _⟩ => show win2_1.index t (1 : Fin 2) * 128 + 1 * q.val = q.val; omega

/-- The row's block is its whole array. -/
theorem emb2_2 (t : Fin cfg2.N) (z : Fin 1) (q : Fin 128) :
    ((cfg2.win 2).blk t).view.emb (ix2 z q) = ix2 z q := by
  obtain ⟨-, -, -, -, e4, e5, -, -⟩ := index_facts2 t
  funext a; apply Fin.ext
  match a with
  | ⟨0, _⟩ => show win2_2.index t (0 : Fin 2) * 1 + 1 * z.val = z.val; omega
  | ⟨1, _⟩ => show win2_2.index t (1 : Fin 2) * 128 + 1 * q.val = q.val; omega

/-- Entry (r, q) of the output's block at point t sits at (t · 2000 + r, q) of the output array. -/
theorem emb2_3 (t : Fin cfg2.N) (r : Fin 2000) (q : Fin 128) :
    ((cfg2.win 3).blk t).view.emb (ix2 r q) = ix2 (row2 t r) q := by
  obtain ⟨-, -, -, -, -, -, e6, e7⟩ := index_facts2 t
  funext a; apply Fin.ext
  match a with
  | ⟨0, _⟩ => show win2_3.index t (0 : Fin 2) * 2000 + 1 * r.val = t.val * 2000 + r.val; omega
  | ⟨1, _⟩ => show win2_3.index t (1 : Fin 2) * 128 + 1 * q.val = q.val; omega

/-- The layer of the three blocks at point t, at entry (r, q), is the layer of the three whole arrays at
    entry (t · 2000 + r, q): each block is read where it sits in its array. -/
theorem affine_block2 (c : Dev nD) (t : Fin cfg2.N) (r : Fin 2000) (q : Fin 128) :
    Cert.AffineRow.rowAffine (R := 2000) (K := 128) (N := 128) (iblk2 V c 0 t) (iblk2 V c 1 t) (iblk2 V c 2 t) (ix2 r q)
      = Cert.AffineRow.rowAffine (R := 20000) (K := 128) (N := 128) (V c (Pipeline.arrRef spec2 0)) (V c (Pipeline.arrRef spec2 1)) (V c (Pipeline.arrRef spec2 2)) (ix2 (row2 t r) q) := by
  rw [Cert.AffineRow.rowAffine_apply, Cert.AffineRow.rowAffine_apply]
  have h2 : iblk2 V c 2 t (ix2 (0 : Fin 1) q) = V c (Pipeline.arrRef spec2 2) (ix2 (0 : Fin 1) q) :=
    congrArg (V c (Pipeline.arrRef spec2 2)) (emb2_2 t 0 q)
  rw [h2]
  refine congrArg (fun s : EReal => s + (V c (Pipeline.arrRef spec2 2) (ix2 (0 : Fin 1) q) : EReal)) (Finset.sum_congr rfl fun k _ => ?_)
  have hL : iblk2 V c 0 t (ix2 r k) = V c (Pipeline.arrRef spec2 0) (ix2 (row2 t r) k) :=
    congrArg (V c (Pipeline.arrRef spec2 0)) (emb2_0 t r k)
  have hR : iblk2 V c 1 t (ix2 k q) = V c (Pipeline.arrRef spec2 1) (ix2 k q) :=
    congrArg (V c (Pipeline.arrRef spec2 1)) (emb2_1 t k q)
  rw [hL, hR]

/-- What point t writes back is its block of the layer of the whole arrays. -/
theorem flushed2_eq (c : Dev nD) (t : Fin cfg2.N) :
    (dat2 (F := Ideal) V c).flushed 3 t
      = ((cfg2.win 3).blk t).view.read (Elt Ideal)
          (Cert.NodeUpdate.relu (Cert.AffineRow.rowAffine (R := 20000) (K := 128) (N := 128) (V c (Pipeline.arrRef spec2 0)) (V c (Pipeline.arrRef spec2 1)) (V c (Pipeline.arrRef spec2 2)))) := by
  show (cfg2.win 3).cut (grid2.coords t) ((dat2 (F := Ideal) V c).after 3 t) = _
  rw [after2_3]
  unfold out2_3
  rw [View.canon_unit_zero offsets_zero]
  simp only [View.ld_unit_zero (S := S2000x128) offsets_zero, View.ld_unit_zero (S := S128x128) offsets_zero,
    View.ld_unit_zero (S := S1x128) offsets_zero]
  funext j
  obtain ⟨r, q, rfl⟩ : ∃ (r : Fin 2000) (q : Fin 128), j = ix2 r q := ⟨j 0, j 1, eq_ix2 j⟩
  refine (pay2_apply (iblk2 V c 0 t) (iblk2 V c 1 t) (iblk2 V c 2 t) r q).trans ?_
  show _ = (Cert.NodeUpdate.relu (Cert.AffineRow.rowAffine (R := 20000) (K := 128) (N := 128) (V c (Pipeline.arrRef spec2 0)) (V c (Pipeline.arrRef spec2 1)) (V c (Pipeline.arrRef spec2 2)))) (((cfg2.win 3).blk t).view.emb (ix2 r q))
  rw [emb2_3]
  exact congrArg (max · Cert.NodeUpdate.zero) (affine_block2 V c t r q)

/-- An index of the output array is in point t's block iff each coordinate is in the block's range on its axis. -/
theorem mem_blk2 (t : Fin cfg2.N) (i : S20000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v48).slice (win2_3.rect t)).set ↔ _
  rw [View.set_slice_whole, Rect.mem_set_unit]
  exact Iff.rfl

/-- Every row of the output array is in the block of the point its number divided by 2000 names. -/
theorem cover2 (i : S20000x128.Idx) :
    ∃ t : Fin cfg2.N, (cfg2.win 3).flush t = true ∧ i ∈ ((cfg2.win 3).blk t).view.set := by
  have hi0 : (i 0).val < 20000 := (i 0).isLt
  have hi1 : (i 1).val < 128 := (i 1).isLt
  have hlt : (i 0).val / 2000 < 10 := by omega
  obtain ⟨-, -, -, -, -, -, e6, e7⟩ := index_facts2 ⟨(i 0).val / 2000, hlt⟩
  have e6' : win2_3.index ⟨(i 0).val / 2000, hlt⟩ (0 : Fin 2) = (i 0).val / 2000 := e6
  refine ⟨⟨(i 0).val / 2000, hlt⟩, flush2_3 _, ?_⟩
  rw [mem_blk2]
  intro a
  match a with
  | ⟨0, _⟩ =>
    show win2_3.index ⟨(i 0).val / 2000, hlt⟩ (0 : Fin 2) * 2000 ≤ (i 0).val
      ∧ (i 0).val < win2_3.index ⟨(i 0).val / 2000, hlt⟩ (0 : Fin 2) * 2000 + 2000
    omega
  | ⟨1, _⟩ =>
    show win2_3.index ⟨(i 0).val / 2000, hlt⟩ (1 : Fin 2) * 128 ≤ (i 1).val
      ∧ (i 1).val < win2_3.index ⟨(i 0).val / 2000, hlt⟩ (1 : Fin 2) * 128 + 128
    omega

/-- THE OUTPUT ARRAY of kernel 2 after its last block: the layer, clamped below at zero, of the rows, the weights and the
    1×128 row as the kernel found them, whatever they are. -/
theorem out2 (c : Dev nD) :
    (dat2 (F := Ideal) V c).arrAt 3 cfg2.N
      = Cert.NodeUpdate.relu (Cert.AffineRow.rowAffine (R := 20000) (K := 128) (N := 128) (V c (Pipeline.arrRef spec2 0)) (V c (Pipeline.arrRef spec2 1)) (V c (Pipeline.arrRef spec2 2))) :=
  (dat2 (F := Ideal) V c).arrAt_eq_of_cover 3 _ (fun t _ => flushed2_eq V c t) cover2

end Cert.KernelIdeal.RegionValue

end
-- ==== Proof.Region3.lean ====
/-
  The dense layer of kernel 3 as one array.

  The kernel walks 20 blocks of 5000 rows. At each block it reads the block's rows X, the whole 128×128 weight
  matrix W and the 1×128 row B, and leaves (∑ c, X(r, c) · W(c, q)) + B(0, q), clamped below at zero, in the block's rows of the
  output. Row r of the block at point t is row t · 5000 + r of the array, the blocks cover the 100000 rows, so after
  the last block the output array is that function of the three whole arrays as the kernel found them.
-/
import proofs.«132711_j11063835754497_2_alg».proof.Proof.Gen.KernelIdeal.Frame
import proofs.«132711_j11063835754497_2_alg».proof.Proof.RegionPayload
import Idealize.ShloMosaic.Lib.Pipeline.Value

noncomputable section

open scoped BigOperators

namespace Cert.KernelIdeal.RegionValue

open Idealize.ShloMosaic Idealize.ShloMosaic.ValueIdx Idealize.ShloMosaic.TcCoe Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- The block indices over the grid: the rows' and the output's block is the point's own, the weights' and
    the row's is the one block there is. -/
theorem index_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row r of the block at point t, as a row of the whole array. -/
def row3 (t : Fin cfg3.N) (r : Fin 5000) : Fin 100000 :=
  ⟨t.val * 5000 + r.val, by have ht : t.val < 20 := t.isLt; have hr := r.isLt; omega⟩

/-- Entry (r, k) of the rows' block at point t sits at (t · 5000 + r, k) of their array. -/
theorem emb3_0 (t : Fin cfg3.N) (r : Fin 5000) (k : Fin 128) :
    ((cfg3.win 0).blk t).view.emb (ix2 r k) = ix2 (row3 t r) k := by
  obtain ⟨e0, e1, -, -, -, -, -, -⟩ := index_facts3 t
  funext a; apply Fin.ext
  match a with
  | ⟨0, _⟩ => show win3_0.index t (0 : Fin 2) * 5000 + 1 * r.val = t.val * 5000 + r.val; omega
  | ⟨1, _⟩ => show win3_0.index t (1 : Fin 2) * 128 + 1 * k.val = k.val; omega

/-- The weights' block is their whole array. -/
theorem emb3_1 (t : Fin cfg3.N) (k : Fin 128) (q : Fin 128) :
    ((cfg3.win 1).blk t).view.emb (ix2 k q) = ix2 k q := by
  obtain ⟨-, -, e2, e3, -, -, -, -⟩ := index_facts3 t
  funext a; apply Fin.ext
  match a with
  | ⟨0, _⟩ => show win3_1.index t (0 : Fin 2) * 128 + 1 * k.val = k.val; omega
  | ⟨1, _⟩ => show win3_1.index t (1 : Fin 2) * 128 + 1 * q.val = q.val; omega

/-- The row's block is its whole array. -/
theorem emb3_2 (t : Fin cfg3.N) (z : Fin 1) (q : Fin 128) :
    ((cfg3.win 2).blk t).view.emb (ix2 z q) = ix2 z q := by
  obtain ⟨-, -, -, -, e4, e5, -, -⟩ := index_facts3 t
  funext a; apply Fin.ext
  match a with
  | ⟨0, _⟩ => show win3_2.index t (0 : Fin 2) * 1 + 1 * z.val = z.val; omega
  | ⟨1, _⟩ => show win3_2.index t (1 : Fin 2) * 128 + 1 * q.val = q.val; omega

/-- Entry (r, q) of the output's block at point t sits at (t · 5000 + r, q) of the output array. -/
theorem emb3_3 (t : Fin cfg3.N) (r : Fin 5000) (q : Fin 128) :
    ((cfg3.win 3).blk t).view.emb (ix2 r q) = ix2 (row3 t r) q := by
  obtain ⟨-, -, -, -, -, -, e6, e7⟩ := index_facts3 t
  funext a; apply Fin.ext
  match a with
  | ⟨0, _⟩ => show win3_3.index t (0 : Fin 2) * 5000 + 1 * r.val = t.val * 5000 + r.val; omega
  | ⟨1, _⟩ => show win3_3.index t (1 : Fin 2) * 128 + 1 * q.val = q.val; omega

/-- The layer of the three blocks at point t, at entry (r, q), is the layer of the three whole arrays at
    entry (t · 5000 + r, q): each block is read where it sits in its array. -/
theorem affine_block3 (c : Dev nD) (t : Fin cfg3.N) (r : Fin 5000) (q : Fin 128) :
    Cert.AffineRow.rowAffine (R := 5000) (K := 128) (N := 128) (iblk3 V c 0 t) (iblk3 V c 1 t) (iblk3 V c 2 t) (ix2 r q)
      = Cert.AffineRow.rowAffine (R := 100000) (K := 128) (N := 128) (V c (Pipeline.arrRef spec3 0)) (V c (Pipeline.arrRef spec3 1)) (V c (Pipeline.arrRef spec3 2)) (ix2 (row3 t r) q) := by
  rw [Cert.AffineRow.rowAffine_apply, Cert.AffineRow.rowAffine_apply]
  have h2 : iblk3 V c 2 t (ix2 (0 : Fin 1) q) = V c (Pipeline.arrRef spec3 2) (ix2 (0 : Fin 1) q) :=
    congrArg (V c (Pipeline.arrRef spec3 2)) (emb3_2 t 0 q)
  rw [h2]
  refine congrArg (fun s : EReal => s + (V c (Pipeline.arrRef spec3 2) (ix2 (0 : Fin 1) q) : EReal)) (Finset.sum_congr rfl fun k _ => ?_)
  have hL : iblk3 V c 0 t (ix2 r k) = V c (Pipeline.arrRef spec3 0) (ix2 (row3 t r) k) :=
    congrArg (V c (Pipeline.arrRef spec3 0)) (emb3_0 t r k)
  have hR : iblk3 V c 1 t (ix2 k q) = V c (Pipeline.arrRef spec3 1) (ix2 k q) :=
    congrArg (V c (Pipeline.arrRef spec3 1)) (emb3_1 t k q)
  rw [hL, hR]

/-- What point t writes back is its block of the layer of the whole arrays. -/
theorem flushed3_eq (c : Dev nD) (t : Fin cfg3.N) :
    (dat3 (F := Ideal) V c).flushed 3 t
      = ((cfg3.win 3).blk t).view.read (Elt Ideal)
          (Cert.NodeUpdate.relu (Cert.AffineRow.rowAffine (R := 100000) (K := 128) (N := 128) (V c (Pipeline.arrRef spec3 0)) (V c (Pipeline.arrRef spec3 1)) (V c (Pipeline.arrRef spec3 2)))) := by
  show (cfg3.win 3).cut (grid3.coords t) ((dat3 (F := Ideal) V c).after 3 t) = _
  rw [after3_3]
  unfold out3_3
  rw [View.canon_unit_zero offsets_zero]
  simp only [View.ld_unit_zero (S := S5000x128) offsets_zero, View.ld_unit_zero (S := S128x128) offsets_zero,
    View.ld_unit_zero (S := S1x128) offsets_zero]
  funext j
  obtain ⟨r, q, rfl⟩ : ∃ (r : Fin 5000) (q : Fin 128), j = ix2 r q := ⟨j 0, j 1, eq_ix2 j⟩
  refine (pay3_apply (iblk3 V c 0 t) (iblk3 V c 1 t) (iblk3 V c 2 t) r q).trans ?_
  show _ = (Cert.NodeUpdate.relu (Cert.AffineRow.rowAffine (R := 100000) (K := 128) (N := 128) (V c (Pipeline.arrRef spec3 0)) (V c (Pipeline.arrRef spec3 1)) (V c (Pipeline.arrRef spec3 2)))) (((cfg3.win 3).blk t).view.emb (ix2 r q))
  rw [emb3_3]
  exact congrArg (max · Cert.NodeUpdate.zero) (affine_block3 V c t r q)

/-- An index of the output array is in point t's block iff each coordinate is in the block's range on its axis. -/
theorem mem_blk3 (t : Fin cfg3.N) (i : S100000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v50).slice (win3_3.rect t)).set ↔ _
  rw [View.set_slice_whole, Rect.mem_set_unit]
  exact Iff.rfl

/-- Every row of the output array is in the block of the point its number divided by 5000 names. -/
theorem cover3 (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  have hlt : (i 0).val / 5000 < 20 := by omega
  obtain ⟨-, -, -, -, -, -, e6, e7⟩ := index_facts3 ⟨(i 0).val / 5000, hlt⟩
  have e6' : win3_3.index ⟨(i 0).val / 5000, hlt⟩ (0 : Fin 2) = (i 0).val / 5000 := e6
  refine ⟨⟨(i 0).val / 5000, hlt⟩, flush3_3 _, ?_⟩
  rw [mem_blk3]
  intro a
  match a with
  | ⟨0, _⟩ =>
    show win3_3.index ⟨(i 0).val / 5000, hlt⟩ (0 : Fin 2) * 5000 ≤ (i 0).val
      ∧ (i 0).val < win3_3.index ⟨(i 0).val / 5000, hlt⟩ (0 : Fin 2) * 5000 + 5000
    omega
  | ⟨1, _⟩ =>
    show win3_3.index ⟨(i 0).val / 5000, hlt⟩ (1 : Fin 2) * 128 ≤ (i 1).val
      ∧ (i 1).val < win3_3.index ⟨(i 0).val / 5000, hlt⟩ (1 : Fin 2) * 128 + 128
    omega

/-- THE OUTPUT ARRAY of kernel 3 after its last block: the layer, clamped below at zero, of the rows, the weights and the
    1×128 row as the kernel found them, whatever they are. -/
theorem out3 (c : Dev nD) :
    (dat3 (F := Ideal) V c).arrAt 3 cfg3.N
      = Cert.NodeUpdate.relu (Cert.AffineRow.rowAffine (R := 100000) (K := 128) (N := 128) (V c (Pipeline.arrRef spec3 0)) (V c (Pipeline.arrRef spec3 1)) (V c (Pipeline.arrRef spec3 2))) :=
  (dat3 (F := Ideal) V c).arrAt_eq_of_cover 3 _ (fun t _ => flushed3_eq V c t) cover3

end Cert.KernelIdeal.RegionValue

end
-- ==== Proof.Region4.lean ====
/-
  The dense layer of kernel 4 as one array.

  The kernel walks 10 blocks of 2000 rows. At each block it reads the block's rows X, the whole 128×128 weight
  matrix W and the 1×128 row B, and leaves (∑ c, X(r, c) · W(c, q)) + B(0, q), clamped below at zero, in the block's rows of the
  output. Row r of the block at point t is row t · 2000 + r of the array, the blocks cover the 20000 rows, so after
  the last block the output array is that function of the three whole arrays as the kernel found them.
-/
import proofs.«132711_j11063835754497_2_alg».proof.Proof.Gen.KernelIdeal.Frame
import proofs.«132711_j11063835754497_2_alg».proof.Proof.RegionPayload
import Idealize.ShloMosaic.Lib.Pipeline.Value

noncomputable section

open scoped BigOperators

namespace Cert.KernelIdeal.RegionValue

open Idealize.ShloMosaic Idealize.ShloMosaic.ValueIdx Idealize.ShloMosaic.TcCoe Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- The block indices over the grid: the rows' and the output's block is the point's own, the weights' and
    the row's is the one block there is. -/
theorem index_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Row r of the block at point t, as a row of the whole array. -/
def row4 (t : Fin cfg4.N) (r : Fin 2000) : Fin 20000 :=
  ⟨t.val * 2000 + r.val, by have ht : t.val < 10 := t.isLt; have hr := r.isLt; omega⟩

/-- Entry (r, k) of the rows' block at point t sits at (t · 2000 + r, k) of their array. -/
theorem emb4_0 (t : Fin cfg4.N) (r : Fin 2000) (k : Fin 128) :
    ((cfg4.win 0).blk t).view.emb (ix2 r k) = ix2 (row4 t r) k := by
  obtain ⟨e0, e1, -, -, -, -, -, -⟩ := index_facts4 t
  funext a; apply Fin.ext
  match a with
  | ⟨0, _⟩ => show win4_0.index t (0 : Fin 2) * 2000 + 1 * r.val = t.val * 2000 + r.val; omega
  | ⟨1, _⟩ => show win4_0.index t (1 : Fin 2) * 128 + 1 * k.val = k.val; omega

/-- The weights' block is their whole array. -/
theorem emb4_1 (t : Fin cfg4.N) (k : Fin 128) (q : Fin 128) :
    ((cfg4.win 1).blk t).view.emb (ix2 k q) = ix2 k q := by
  obtain ⟨-, -, e2, e3, -, -, -, -⟩ := index_facts4 t
  funext a; apply Fin.ext
  match a with
  | ⟨0, _⟩ => show win4_1.index t (0 : Fin 2) * 128 + 1 * k.val = k.val; omega
  | ⟨1, _⟩ => show win4_1.index t (1 : Fin 2) * 128 + 1 * q.val = q.val; omega

/-- The row's block is its whole array. -/
theorem emb4_2 (t : Fin cfg4.N) (z : Fin 1) (q : Fin 128) :
    ((cfg4.win 2).blk t).view.emb (ix2 z q) = ix2 z q := by
  obtain ⟨-, -, -, -, e4, e5, -, -⟩ := index_facts4 t
  funext a; apply Fin.ext
  match a with
  | ⟨0, _⟩ => show win4_2.index t (0 : Fin 2) * 1 + 1 * z.val = z.val; omega
  | ⟨1, _⟩ => show win4_2.index t (1 : Fin 2) * 128 + 1 * q.val = q.val; omega

/-- Entry (r, q) of the output's block at point t sits at (t · 2000 + r, q) of the output array. -/
theorem emb4_3 (t : Fin cfg4.N) (r : Fin 2000) (q : Fin 128) :
    ((cfg4.win 3).blk t).view.emb (ix2 r q) = ix2 (row4 t r) q := by
  obtain ⟨-, -, -, -, -, -, e6, e7⟩ := index_facts4 t
  funext a; apply Fin.ext
  match a with
  | ⟨0, _⟩ => show win4_3.index t (0 : Fin 2) * 2000 + 1 * r.val = t.val * 2000 + r.val; omega
  | ⟨1, _⟩ => show win4_3.index t (1 : Fin 2) * 128 + 1 * q.val = q.val; omega

/-- The layer of the three blocks at point t, at entry (r, q), is the layer of the three whole arrays at
    entry (t · 2000 + r, q): each block is read where it sits in its array. -/
theorem affine_block4 (c : Dev nD) (t : Fin cfg4.N) (r : Fin 2000) (q : Fin 128) :
    Cert.AffineRow.rowAffine (R := 2000) (K := 128) (N := 128) (iblk4 V c 0 t) (iblk4 V c 1 t) (iblk4 V c 2 t) (ix2 r q)
      = Cert.AffineRow.rowAffine (R := 20000) (K := 128) (N := 128) (V c (Pipeline.arrRef spec4 0)) (V c (Pipeline.arrRef spec4 1)) (V c (Pipeline.arrRef spec4 2)) (ix2 (row4 t r) q) := by
  rw [Cert.AffineRow.rowAffine_apply, Cert.AffineRow.rowAffine_apply]
  have h2 : iblk4 V c 2 t (ix2 (0 : Fin 1) q) = V c (Pipeline.arrRef spec4 2) (ix2 (0 : Fin 1) q) :=
    congrArg (V c (Pipeline.arrRef spec4 2)) (emb4_2 t 0 q)
  rw [h2]
  refine congrArg (fun s : EReal => s + (V c (Pipeline.arrRef spec4 2) (ix2 (0 : Fin 1) q) : EReal)) (Finset.sum_congr rfl fun k _ => ?_)
  have hL : iblk4 V c 0 t (ix2 r k) = V c (Pipeline.arrRef spec4 0) (ix2 (row4 t r) k) :=
    congrArg (V c (Pipeline.arrRef spec4 0)) (emb4_0 t r k)
  have hR : iblk4 V c 1 t (ix2 k q) = V c (Pipeline.arrRef spec4 1) (ix2 k q) :=
    congrArg (V c (Pipeline.arrRef spec4 1)) (emb4_1 t k q)
  rw [hL, hR]

/-- What point t writes back is its block of the layer of the whole arrays. -/
theorem flushed4_eq (c : Dev nD) (t : Fin cfg4.N) :
    (dat4 (F := Ideal) V c).flushed 3 t
      = ((cfg4.win 3).blk t).view.read (Elt Ideal)
          (Cert.NodeUpdate.relu (Cert.AffineRow.rowAffine (R := 20000) (K := 128) (N := 128) (V c (Pipeline.arrRef spec4 0)) (V c (Pipeline.arrRef spec4 1)) (V c (Pipeline.arrRef spec4 2)))) := by
  show (cfg4.win 3).cut (grid4.coords t) ((dat4 (F := Ideal) V c).after 3 t) = _
  rw [after4_3]
  unfold out4_3
  rw [View.canon_unit_zero offsets_zero]
  simp only [View.ld_unit_zero (S := S2000x128) offsets_zero, View.ld_unit_zero (S := S128x128) offsets_zero,
    View.ld_unit_zero (S := S1x128) offsets_zero]
  funext j
  obtain ⟨r, q, rfl⟩ : ∃ (r : Fin 2000) (q : Fin 128), j = ix2 r q := ⟨j 0, j 1, eq_ix2 j⟩
  refine (pay4_apply (iblk4 V c 0 t) (iblk4 V c 1 t) (iblk4 V c 2 t) r q).trans ?_
  show _ = (Cert.NodeUpdate.relu (Cert.AffineRow.rowAffine (R := 20000) (K := 128) (N := 128) (V c (Pipeline.arrRef spec4 0)) (V c (Pipeline.arrRef spec4 1)) (V c (Pipeline.arrRef spec4 2)))) (((cfg4.win 3).blk t).view.emb (ix2 r q))
  rw [emb4_3]
  exact congrArg (max · Cert.NodeUpdate.zero) (affine_block4 V c t r q)

/-- An index of the output array is in point t's block iff each coordinate is in the block's range on its axis. -/
theorem mem_blk4 (t : Fin cfg4.N) (i : S20000x128.Idx) :
    i ∈ ((cfg4.win 3).blk t).view.set ↔ ∀ a : Fin 2, win4_3.index t a * S2000x128.size a ≤ (i a).val ∧ (i a).val < win4_3.index t a * S2000x128.size a + S2000x128.size a := by
  show i ∈ ((View.whole main_v78).slice (win4_3.rect t)).set ↔ _
  rw [View.set_slice_whole, Rect.mem_set_unit]
  exact Iff.rfl

/-- Every row of the output array is in the block of the point its number divided by 2000 names. -/
theorem cover4 (i : S20000x128.Idx) :
    ∃ t : Fin cfg4.N, (cfg4.win 3).flush t = true ∧ i ∈ ((cfg4.win 3).blk t).view.set := by
  have hi0 : (i 0).val < 20000 := (i 0).isLt
  have hi1 : (i 1).val < 128 := (i 1).isLt
  have hlt : (i 0).val / 2000 < 10 := by omega
  obtain ⟨-, -, -, -, -, -, e6, e7⟩ := index_facts4 ⟨(i 0).val / 2000, hlt⟩
  have e6' : win4_3.index ⟨(i 0).val / 2000, hlt⟩ (0 : Fin 2) = (i 0).val / 2000 := e6
  refine ⟨⟨(i 0).val / 2000, hlt⟩, flush4_3 _, ?_⟩
  rw [mem_blk4]
  intro a
  match a with
  | ⟨0, _⟩ =>
    show win4_3.index ⟨(i 0).val / 2000, hlt⟩ (0 : Fin 2) * 2000 ≤ (i 0).val
      ∧ (i 0).val < win4_3.index ⟨(i 0).val / 2000, hlt⟩ (0 : Fin 2) * 2000 + 2000
    omega
  | ⟨1, _⟩ =>
    show win4_3.index ⟨(i 0).val / 2000, hlt⟩ (1 : Fin 2) * 128 ≤ (i 1).val
      ∧ (i 1).val < win4_3.index ⟨(i 0).val / 2000, hlt⟩ (1 : Fin 2) * 128 + 128
    omega

/-- THE OUTPUT ARRAY of kernel 4 after its last block: the layer, clamped below at zero, of the rows, the weights and the
    1×128 row as the kernel found them, whatever they are. -/
theorem out4 (c : Dev nD) :
    (dat4 (F := Ideal) V c).arrAt 3 cfg4.N
      = Cert.NodeUpdate.relu (Cert.AffineRow.rowAffine (R := 20000) (K := 128) (N := 128) (V c (Pipeline.arrRef spec4 0)) (V c (Pipeline.arrRef spec4 1)) (V c (Pipeline.arrRef spec4 2))) :=
  (dat4 (F := Ideal) V c).arrAt_eq_of_cover 3 _ (fun t _ => flushed4_eq V c t) cover4

end Cert.KernelIdeal.RegionValue

end
-- ==== Proof.Region5.lean ====
/-
  The dense layer of kernel 5 as one array.

  The kernel walks 20 blocks of 5000 rows. At each block it reads the block's rows X, the whole 128×128 weight
  matrix W and the 1×128 row B, and leaves (∑ c, X(r, c) · W(c, q)) + B(0, q), clamped below at zero, in the block's rows of the
  output. Row r of the block at point t is row t · 5000 + r of the array, the blocks cover the 100000 rows, so after
  the last block the output array is that function of the three whole arrays as the kernel found them.
-/
import proofs.«132711_j11063835754497_2_alg».proof.Proof.Gen.KernelIdeal.Frame
import proofs.«132711_j11063835754497_2_alg».proof.Proof.RegionPayload
import Idealize.ShloMosaic.Lib.Pipeline.Value

noncomputable section

open scoped BigOperators

namespace Cert.KernelIdeal.RegionValue

open Idealize.ShloMosaic Idealize.ShloMosaic.ValueIdx Idealize.ShloMosaic.TcCoe Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- The block indices over the grid: the rows' and the output's block is the point's own, the weights' and
    the row's is the one block there is. -/
theorem index_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- Row r of the block at point t, as a row of the whole array. -/
def row5 (t : Fin cfg5.N) (r : Fin 5000) : Fin 100000 :=
  ⟨t.val * 5000 + r.val, by have ht : t.val < 20 := t.isLt; have hr := r.isLt; omega⟩

/-- Entry (r, k) of the rows' block at point t sits at (t · 5000 + r, k) of their array. -/
theorem emb5_0 (t : Fin cfg5.N) (r : Fin 5000) (k : Fin 128) :
    ((cfg5.win 0).blk t).view.emb (ix2 r k) = ix2 (row5 t r) k := by
  obtain ⟨e0, e1, -, -, -, -, -, -⟩ := index_facts5 t
  funext a; apply Fin.ext
  match a with
  | ⟨0, _⟩ => show win5_0.index t (0 : Fin 2) * 5000 + 1 * r.val = t.val * 5000 + r.val; omega
  | ⟨1, _⟩ => show win5_0.index t (1 : Fin 2) * 128 + 1 * k.val = k.val; omega

/-- The weights' block is their whole array. -/
theorem emb5_1 (t : Fin cfg5.N) (k : Fin 128) (q : Fin 128) :
    ((cfg5.win 1).blk t).view.emb (ix2 k q) = ix2 k q := by
  obtain ⟨-, -, e2, e3, -, -, -, -⟩ := index_facts5 t
  funext a; apply Fin.ext
  match a with
  | ⟨0, _⟩ => show win5_1.index t (0 : Fin 2) * 128 + 1 * k.val = k.val; omega
  | ⟨1, _⟩ => show win5_1.index t (1 : Fin 2) * 128 + 1 * q.val = q.val; omega

/-- The row's block is its whole array. -/
theorem emb5_2 (t : Fin cfg5.N) (z : Fin 1) (q : Fin 128) :
    ((cfg5.win 2).blk t).view.emb (ix2 z q) = ix2 z q := by
  obtain ⟨-, -, -, -, e4, e5, -, -⟩ := index_facts5 t
  funext a; apply Fin.ext
  match a with
  | ⟨0, _⟩ => show win5_2.index t (0 : Fin 2) * 1 + 1 * z.val = z.val; omega
  | ⟨1, _⟩ => show win5_2.index t (1 : Fin 2) * 128 + 1 * q.val = q.val; omega

/-- Entry (r, q) of the output's block at point t sits at (t · 5000 + r, q) of the output array. -/
theorem emb5_3 (t : Fin cfg5.N) (r : Fin 5000) (q : Fin 128) :
    ((cfg5.win 3).blk t).view.emb (ix2 r q) = ix2 (row5 t r) q := by
  obtain ⟨-, -, -, -, -, -, e6, e7⟩ := index_facts5 t
  funext a; apply Fin.ext
  match a with
  | ⟨0, _⟩ => show win5_3.index t (0 : Fin 2) * 5000 + 1 * r.val = t.val * 5000 + r.val; omega
  | ⟨1, _⟩ => show win5_3.index t (1 : Fin 2) * 128 + 1 * q.val = q.val; omega

/-- The layer of the three blocks at point t, at entry (r, q), is the layer of the three whole arrays at
    entry (t · 5000 + r, q): each block is read where it sits in its array. -/
theorem affine_block5 (c : Dev nD) (t : Fin cfg5.N) (r : Fin 5000) (q : Fin 128) :
    Cert.AffineRow.rowAffine (R := 5000) (K := 128) (N := 128) (iblk5 V c 0 t) (iblk5 V c 1 t) (iblk5 V c 2 t) (ix2 r q)
      = Cert.AffineRow.rowAffine (R := 100000) (K := 128) (N := 128) (V c (Pipeline.arrRef spec5 0)) (V c (Pipeline.arrRef spec5 1)) (V c (Pipeline.arrRef spec5 2)) (ix2 (row5 t r) q) := by
  rw [Cert.AffineRow.rowAffine_apply, Cert.AffineRow.rowAffine_apply]
  have h2 : iblk5 V c 2 t (ix2 (0 : Fin 1) q) = V c (Pipeline.arrRef spec5 2) (ix2 (0 : Fin 1) q) :=
    congrArg (V c (Pipeline.arrRef spec5 2)) (emb5_2 t 0 q)
  rw [h2]
  refine congrArg (fun s : EReal => s + (V c (Pipeline.arrRef spec5 2) (ix2 (0 : Fin 1) q) : EReal)) (Finset.sum_congr rfl fun k _ => ?_)
  have hL : iblk5 V c 0 t (ix2 r k) = V c (Pipeline.arrRef spec5 0) (ix2 (row5 t r) k) :=
    congrArg (V c (Pipeline.arrRef spec5 0)) (emb5_0 t r k)
  have hR : iblk5 V c 1 t (ix2 k q) = V c (Pipeline.arrRef spec5 1) (ix2 k q) :=
    congrArg (V c (Pipeline.arrRef spec5 1)) (emb5_1 t k q)
  rw [hL, hR]

/-- What point t writes back is its block of the layer of the whole arrays. -/
theorem flushed5_eq (c : Dev nD) (t : Fin cfg5.N) :
    (dat5 (F := Ideal) V c).flushed 3 t
      = ((cfg5.win 3).blk t).view.read (Elt Ideal)
          (Cert.NodeUpdate.relu (Cert.AffineRow.rowAffine (R := 100000) (K := 128) (N := 128) (V c (Pipeline.arrRef spec5 0)) (V c (Pipeline.arrRef spec5 1)) (V c (Pipeline.arrRef spec5 2)))) := by
  show (cfg5.win 3).cut (grid5.coords t) ((dat5 (F := Ideal) V c).after 3 t) = _
  rw [after5_3]
  unfold out5_3
  rw [View.canon_unit_zero offsets_zero]
  simp only [View.ld_unit_zero (S := S5000x128) offsets_zero, View.ld_unit_zero (S := S128x128) offsets_zero,
    View.ld_unit_zero (S := S1x128) offsets_zero]
  funext j
  obtain ⟨r, q, rfl⟩ : ∃ (r : Fin 5000) (q : Fin 128), j = ix2 r q := ⟨j 0, j 1, eq_ix2 j⟩
  refine (pay5_apply (iblk5 V c 0 t) (iblk5 V c 1 t) (iblk5 V c 2 t) r q).trans ?_
  show _ = (Cert.NodeUpdate.relu (Cert.AffineRow.rowAffine (R := 100000) (K := 128) (N := 128) (V c (Pipeline.arrRef spec5 0)) (V c (Pipeline.arrRef spec5 1)) (V c (Pipeline.arrRef spec5 2)))) (((cfg5.win 3).blk t).view.emb (ix2 r q))
  rw [emb5_3]
  exact congrArg (max · Cert.NodeUpdate.zero) (affine_block5 V c t r q)

/-- An index of the output array is in point t's block iff each coordinate is in the block's range on its axis. -/
theorem mem_blk5 (t : Fin cfg5.N) (i : S100000x128.Idx) :
    i ∈ ((cfg5.win 3).blk t).view.set ↔ ∀ a : Fin 2, win5_3.index t a * S5000x128.size a ≤ (i a).val ∧ (i a).val < win5_3.index t a * S5000x128.size a + S5000x128.size a := by
  show i ∈ ((View.whole main_v80).slice (win5_3.rect t)).set ↔ _
  rw [View.set_slice_whole, Rect.mem_set_unit]
  exact Iff.rfl

/-- Every row of the output array is in the block of the point its number divided by 5000 names. -/
theorem cover5 (i : S100000x128.Idx) :
    ∃ t : Fin cfg5.N, (cfg5.win 3).flush t = true ∧ i ∈ ((cfg5.win 3).blk t).view.set := by
  have hi0 : (i 0).val < 100000 := (i 0).isLt
  have hi1 : (i 1).val < 128 := (i 1).isLt
  have hlt : (i 0).val / 5000 < 20 := by omega
  obtain ⟨-, -, -, -, -, -, e6, e7⟩ := index_facts5 ⟨(i 0).val / 5000, hlt⟩
  have e6' : win5_3.index ⟨(i 0).val / 5000, hlt⟩ (0 : Fin 2) = (i 0).val / 5000 := e6
  refine ⟨⟨(i 0).val / 5000, hlt⟩, flush5_3 _, ?_⟩
  rw [mem_blk5]
  intro a
  match a with
  | ⟨0, _⟩ =>
    show win5_3.index ⟨(i 0).val / 5000, hlt⟩ (0 : Fin 2) * 5000 ≤ (i 0).val
      ∧ (i 0).val < win5_3.index ⟨(i 0).val / 5000, hlt⟩ (0 : Fin 2) * 5000 + 5000
    omega
  | ⟨1, _⟩ =>
    show win5_3.index ⟨(i 0).val / 5000, hlt⟩ (1 : Fin 2) * 128 ≤ (i 1).val
      ∧ (i 1).val < win5_3.index ⟨(i 0).val / 5000, hlt⟩ (1 : Fin 2) * 128 + 128
    omega

/-- THE OUTPUT ARRAY of kernel 5 after its last block: the layer, clamped below at zero, of the rows, the weights and the
    1×128 row as the kernel found them, whatever they are. -/
theorem out5 (c : Dev nD) :
    (dat5 (F := Ideal) V c).arrAt 3 cfg5.N
      = Cert.NodeUpdate.relu (Cert.AffineRow.rowAffine (R := 100000) (K := 128) (N := 128) (V c (Pipeline.arrRef spec5 0)) (V c (Pipeline.arrRef spec5 1)) (V c (Pipeline.arrRef spec5 2))) :=
  (dat5 (F := Ideal) V c).arrAt_eq_of_cover 3 _ (fun t _ => flushed5_eq V c t) cover5

end Cert.KernelIdeal.RegionValue

end
-- ==== Proof.Region6.lean ====
/-
  The dense layer of kernel 6 as one array.

  The kernel walks 10 blocks of 10000 rows. At each block it reads the block's rows X, the whole 128×128 weight
  matrix W and the 1×128 row B, and leaves (∑ c, X(r, c) · W(c, q)) + B(0, q) in the block's rows of the
  output. Row r of the block at point t is row t · 10000 + r of the array, the blocks cover the 100000 rows, so after
  the last block the output array is that function of the three whole arrays as the kernel found them.
-/
import proofs.«132711_j11063835754497_2_alg».proof.Proof.Gen.KernelIdeal.Frame
import proofs.«132711_j11063835754497_2_alg».proof.Proof.RegionPayload
import Idealize.ShloMosaic.Lib.Pipeline.Value

noncomputable section

open scoped BigOperators

namespace Cert.KernelIdeal.RegionValue

open Idealize.ShloMosaic Idealize.ShloMosaic.ValueIdx Idealize.ShloMosaic.TcCoe Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- The block indices over the grid: the rows' and the output's block is the point's own, the weights' and
    the row's is the one block there is. -/
theorem index_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- Row r of the block at point t, as a row of the whole array. -/
def row6 (t : Fin cfg6.N) (r : Fin 10000) : Fin 100000 :=
  ⟨t.val * 10000 + r.val, by have ht : t.val < 10 := t.isLt; have hr := r.isLt; omega⟩

/-- Entry (r, k) of the rows' block at point t sits at (t · 10000 + r, k) of their array. -/
theorem emb6_0 (t : Fin cfg6.N) (r : Fin 10000) (k : Fin 128) :
    ((cfg6.win 0).blk t).view.emb (ix2 r k) = ix2 (row6 t r) k := by
  obtain ⟨e0, e1, -, -, -, -, -, -⟩ := index_facts6 t
  funext a; apply Fin.ext
  match a with
  | ⟨0, _⟩ => show win6_0.index t (0 : Fin 2) * 10000 + 1 * r.val = t.val * 10000 + r.val; omega
  | ⟨1, _⟩ => show win6_0.index t (1 : Fin 2) * 128 + 1 * k.val = k.val; omega

/-- The weights' block is their whole array. -/
theorem emb6_1 (t : Fin cfg6.N) (k : Fin 128) (q : Fin 128) :
    ((cfg6.win 1).blk t).view.emb (ix2 k q) = ix2 k q := by
  obtain ⟨-, -, e2, e3, -, -, -, -⟩ := index_facts6 t
  funext a; apply Fin.ext
  match a with
  | ⟨0, _⟩ => show win6_1.index t (0 : Fin 2) * 128 + 1 * k.val = k.val; omega
  | ⟨1, _⟩ => show win6_1.index t (1 : Fin 2) * 128 + 1 * q.val = q.val; omega

/-- The row's block is its whole array. -/
theorem emb6_2 (t : Fin cfg6.N) (z : Fin 1) (q : Fin 128) :
    ((cfg6.win 2).blk t).view.emb (ix2 z q) = ix2 z q := by
  obtain ⟨-, -, -, -, e4, e5, -, -⟩ := index_facts6 t
  funext a; apply Fin.ext
  match a with
  | ⟨0, _⟩ => show win6_2.index t (0 : Fin 2) * 1 + 1 * z.val = z.val; omega
  | ⟨1, _⟩ => show win6_2.index t (1 : Fin 2) * 128 + 1 * q.val = q.val; omega

/-- Entry (r, q) of the output's block at point t sits at (t · 10000 + r, q) of the output array. -/
theorem emb6_3 (t : Fin cfg6.N) (r : Fin 10000) (q : Fin 128) :
    ((cfg6.win 3).blk t).view.emb (ix2 r q) = ix2 (row6 t r) q := by
  obtain ⟨-, -, -, -, -, -, e6, e7⟩ := index_facts6 t
  funext a; apply Fin.ext
  match a with
  | ⟨0, _⟩ => show win6_3.index t (0 : Fin 2) * 10000 + 1 * r.val = t.val * 10000 + r.val; omega
  | ⟨1, _⟩ => show win6_3.index t (1 : Fin 2) * 128 + 1 * q.val = q.val; omega

/-- The layer of the three blocks at point t, at entry (r, q), is the layer of the three whole arrays at
    entry (t · 10000 + r, q): each block is read where it sits in its array. -/
theorem affine_block6 (c : Dev nD) (t : Fin cfg6.N) (r : Fin 10000) (q : Fin 128) :
    Cert.AffineRow.rowAffine (R := 10000) (K := 128) (N := 128) (iblk6 V c 0 t) (iblk6 V c 1 t) (iblk6 V c 2 t) (ix2 r q)
      = Cert.AffineRow.rowAffine (R := 100000) (K := 128) (N := 128) (V c (Pipeline.arrRef spec6 0)) (V c (Pipeline.arrRef spec6 1)) (V c (Pipeline.arrRef spec6 2)) (ix2 (row6 t r) q) := by
  rw [Cert.AffineRow.rowAffine_apply, Cert.AffineRow.rowAffine_apply]
  have h2 : iblk6 V c 2 t (ix2 (0 : Fin 1) q) = V c (Pipeline.arrRef spec6 2) (ix2 (0 : Fin 1) q) :=
    congrArg (V c (Pipeline.arrRef spec6 2)) (emb6_2 t 0 q)
  rw [h2]
  refine congrArg (fun s : EReal => s + (V c (Pipeline.arrRef spec6 2) (ix2 (0 : Fin 1) q) : EReal)) (Finset.sum_congr rfl fun k _ => ?_)
  have hL : iblk6 V c 0 t (ix2 r k) = V c (Pipeline.arrRef spec6 0) (ix2 (row6 t r) k) :=
    congrArg (V c (Pipeline.arrRef spec6 0)) (emb6_0 t r k)
  have hR : iblk6 V c 1 t (ix2 k q) = V c (Pipeline.arrRef spec6 1) (ix2 k q) :=
    congrArg (V c (Pipeline.arrRef spec6 1)) (emb6_1 t k q)
  rw [hL, hR]

/-- What point t writes back is its block of the layer of the whole arrays. -/
theorem flushed6_eq (c : Dev nD) (t : Fin cfg6.N) :
    (dat6 (F := Ideal) V c).flushed 3 t
      = ((cfg6.win 3).blk t).view.read (Elt Ideal)
          (Cert.AffineRow.rowAffine (R := 100000) (K := 128) (N := 128) (V c (Pipeline.arrRef spec6 0)) (V c (Pipeline.arrRef spec6 1)) (V c (Pipeline.arrRef spec6 2))) := by
  show (cfg6.win 3).cut (grid6.coords t) ((dat6 (F := Ideal) V c).after 3 t) = _
  rw [after6_3]
  unfold out6_3
  rw [View.canon_unit_zero offsets_zero]
  simp only [View.ld_unit_zero (S := S10000x128) offsets_zero, View.ld_unit_zero (S := S128x128) offsets_zero,
    View.ld_unit_zero (S := S1x128) offsets_zero]
  funext j
  obtain ⟨r, q, rfl⟩ : ∃ (r : Fin 10000) (q : Fin 128), j = ix2 r q := ⟨j 0, j 1, eq_ix2 j⟩
  refine (pay6_apply (iblk6 V c 0 t) (iblk6 V c 1 t) (iblk6 V c 2 t) r q).trans ?_
  show _ = (Cert.AffineRow.rowAffine (R := 100000) (K := 128) (N := 128) (V c (Pipeline.arrRef spec6 0)) (V c (Pipeline.arrRef spec6 1)) (V c (Pipeline.arrRef spec6 2))) (((cfg6.win 3).blk t).view.emb (ix2 r q))
  rw [emb6_3]
  exact affine_block6 V c t r q

/-- An index of the output array is in point t's block iff each coordinate is in the block's range on its axis. -/
theorem mem_blk6 (t : Fin cfg6.N) (i : S100000x128.Idx) :
    i ∈ ((cfg6.win 3).blk t).view.set ↔ ∀ a : Fin 2, win6_3.index t a * S10000x128.size a ≤ (i a).val ∧ (i a).val < win6_3.index t a * S10000x128.size a + S10000x128.size a := by
  show i ∈ ((View.whole main_v85).slice (win6_3.rect t)).set ↔ _
  rw [View.set_slice_whole, Rect.mem_set_unit]
  exact Iff.rfl

/-- Every row of the output array is in the block of the point its number divided by 10000 names. -/
theorem cover6 (i : S100000x128.Idx) :
    ∃ t : Fin cfg6.N, (cfg6.win 3).flush t = true ∧ i ∈ ((cfg6.win 3).blk t).view.set := by
  have hi0 : (i 0).val < 100000 := (i 0).isLt
  have hi1 : (i 1).val < 128 := (i 1).isLt
  have hlt : (i 0).val / 10000 < 10 := by omega
  obtain ⟨-, -, -, -, -, -, e6, e7⟩ := index_facts6 ⟨(i 0).val / 10000, hlt⟩
  have e6' : win6_3.index ⟨(i 0).val / 10000, hlt⟩ (0 : Fin 2) = (i 0).val / 10000 := e6
  refine ⟨⟨(i 0).val / 10000, hlt⟩, flush6_3 _, ?_⟩
  rw [mem_blk6]
  intro a
  match a with
  | ⟨0, _⟩ =>
    show win6_3.index ⟨(i 0).val / 10000, hlt⟩ (0 : Fin 2) * 10000 ≤ (i 0).val
      ∧ (i 0).val < win6_3.index ⟨(i 0).val / 10000, hlt⟩ (0 : Fin 2) * 10000 + 10000
    omega
  | ⟨1, _⟩ =>
    show win6_3.index ⟨(i 0).val / 10000, hlt⟩ (1 : Fin 2) * 128 ≤ (i 1).val
      ∧ (i 1).val < win6_3.index ⟨(i 0).val / 10000, hlt⟩ (1 : Fin 2) * 128 + 128
    omega

/-- THE OUTPUT ARRAY of kernel 6 after its last block: the layer of the rows, the weights and the
    1×128 row as the kernel found them, whatever they are. -/
theorem out6 (c : Dev nD) :
    (dat6 (F := Ideal) V c).arrAt 3 cfg6.N
      = Cert.AffineRow.rowAffine (R := 100000) (K := 128) (N := 128) (V c (Pipeline.arrRef spec6 0)) (V c (Pipeline.arrRef spec6 1)) (V c (Pipeline.arrRef spec6 2)) :=
  (dat6 (F := Ideal) V c).arrAt_eq_of_cover 3 _ (fun t _ => flushed6_eq V c t) cover6

end Cert.KernelIdeal.RegionValue

end
-- ==== Proof.Region7.lean ====
/-
  The dense layer of kernel 7 as one array.

  The kernel walks 5 blocks of 4000 rows. At each block it reads the block's rows X, the whole 128×128 weight
  matrix W and the 1×128 row B, and leaves (∑ c, X(r, c) · W(c, q)) + B(0, q) in the block's rows of the
  output. Row r of the block at point t is row t · 4000 + r of the array, the blocks cover the 20000 rows, so after
  the last block the output array is that function of the three whole arrays as the kernel found them.
-/
import proofs.«132711_j11063835754497_2_alg».proof.Proof.Gen.KernelIdeal.Frame
import proofs.«132711_j11063835754497_2_alg».proof.Proof.RegionPayload
import Idealize.ShloMosaic.Lib.Pipeline.Value

noncomputable section

open scoped BigOperators

namespace Cert.KernelIdeal.RegionValue

open Idealize.ShloMosaic Idealize.ShloMosaic.ValueIdx Idealize.ShloMosaic.TcCoe Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- The block indices over the grid: the rows' and the output's block is the point's own, the weights' and
    the row's is the one block there is. -/
theorem index_facts7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- Row r of the block at point t, as a row of the whole array. -/
def row7 (t : Fin cfg7.N) (r : Fin 4000) : Fin 20000 :=
  ⟨t.val * 4000 + r.val, by have ht : t.val < 5 := t.isLt; have hr := r.isLt; omega⟩

/-- Entry (r, k) of the rows' block at point t sits at (t · 4000 + r, k) of their array. -/
theorem emb7_0 (t : Fin cfg7.N) (r : Fin 4000) (k : Fin 128) :
    ((cfg7.win 0).blk t).view.emb (ix2 r k) = ix2 (row7 t r) k := by
  obtain ⟨e0, e1, -, -, -, -, -, -⟩ := index_facts7 t
  funext a; apply Fin.ext
  match a with
  | ⟨0, _⟩ => show win7_0.index t (0 : Fin 2) * 4000 + 1 * r.val = t.val * 4000 + r.val; omega
  | ⟨1, _⟩ => show win7_0.index t (1 : Fin 2) * 128 + 1 * k.val = k.val; omega

/-- The weights' block is their whole array. -/
theorem emb7_1 (t : Fin cfg7.N) (k : Fin 128) (q : Fin 128) :
    ((cfg7.win 1).blk t).view.emb (ix2 k q) = ix2 k q := by
  obtain ⟨-, -, e2, e3, -, -, -, -⟩ := index_facts7 t
  funext a; apply Fin.ext
  match a with
  | ⟨0, _⟩ => show win7_1.index t (0 : Fin 2) * 128 + 1 * k.val = k.val; omega
  | ⟨1, _⟩ => show win7_1.index t (1 : Fin 2) * 128 + 1 * q.val = q.val; omega

/-- The row's block is its whole array. -/
theorem emb7_2 (t : Fin cfg7.N) (z : Fin 1) (q : Fin 128) :
    ((cfg7.win 2).blk t).view.emb (ix2 z q) = ix2 z q := by
  obtain ⟨-, -, -, -, e4, e5, -, -⟩ := index_facts7 t
  funext a; apply Fin.ext
  match a with
  | ⟨0, _⟩ => show win7_2.index t (0 : Fin 2) * 1 + 1 * z.val = z.val; omega
  | ⟨1, _⟩ => show win7_2.index t (1 : Fin 2) * 128 + 1 * q.val = q.val; omega

/-- Entry (r, q) of the output's block at point t sits at (t · 4000 + r, q) of the output array. -/
theorem emb7_3 (t : Fin cfg7.N) (r : Fin 4000) (q : Fin 128) :
    ((cfg7.win 3).blk t).view.emb (ix2 r q) = ix2 (row7 t r) q := by
  obtain ⟨-, -, -, -, -, -, e6, e7⟩ := index_facts7 t
  funext a; apply Fin.ext
  match a with
  | ⟨0, _⟩ => show win7_3.index t (0 : Fin 2) * 4000 + 1 * r.val = t.val * 4000 + r.val; omega
  | ⟨1, _⟩ => show win7_3.index t (1 : Fin 2) * 128 + 1 * q.val = q.val; omega

/-- The layer of the three blocks at point t, at entry (r, q), is the layer of the three whole arrays at
    entry (t · 4000 + r, q): each block is read where it sits in its array. -/
theorem affine_block7 (c : Dev nD) (t : Fin cfg7.N) (r : Fin 4000) (q : Fin 128) :
    Cert.AffineRow.rowAffine (R := 4000) (K := 128) (N := 128) (iblk7 V c 0 t) (iblk7 V c 1 t) (iblk7 V c 2 t) (ix2 r q)
      = Cert.AffineRow.rowAffine (R := 20000) (K := 128) (N := 128) (V c (Pipeline.arrRef spec7 0)) (V c (Pipeline.arrRef spec7 1)) (V c (Pipeline.arrRef spec7 2)) (ix2 (row7 t r) q) := by
  rw [Cert.AffineRow.rowAffine_apply, Cert.AffineRow.rowAffine_apply]
  have h2 : iblk7 V c 2 t (ix2 (0 : Fin 1) q) = V c (Pipeline.arrRef spec7 2) (ix2 (0 : Fin 1) q) :=
    congrArg (V c (Pipeline.arrRef spec7 2)) (emb7_2 t 0 q)
  rw [h2]
  refine congrArg (fun s : EReal => s + (V c (Pipeline.arrRef spec7 2) (ix2 (0 : Fin 1) q) : EReal)) (Finset.sum_congr rfl fun k _ => ?_)
  have hL : iblk7 V c 0 t (ix2 r k) = V c (Pipeline.arrRef spec7 0) (ix2 (row7 t r) k) :=
    congrArg (V c (Pipeline.arrRef spec7 0)) (emb7_0 t r k)
  have hR : iblk7 V c 1 t (ix2 k q) = V c (Pipeline.arrRef spec7 1) (ix2 k q) :=
    congrArg (V c (Pipeline.arrRef spec7 1)) (emb7_1 t k q)
  rw [hL, hR]

/-- What point t writes back is its block of the layer of the whole arrays. -/
theorem flushed7_eq (c : Dev nD) (t : Fin cfg7.N) :
    (dat7 (F := Ideal) V c).flushed 3 t
      = ((cfg7.win 3).blk t).view.read (Elt Ideal)
          (Cert.AffineRow.rowAffine (R := 20000) (K := 128) (N := 128) (V c (Pipeline.arrRef spec7 0)) (V c (Pipeline.arrRef spec7 1)) (V c (Pipeline.arrRef spec7 2))) := by
  show (cfg7.win 3).cut (grid7.coords t) ((dat7 (F := Ideal) V c).after 3 t) = _
  rw [after7_3]
  unfold out7_3
  rw [View.canon_unit_zero offsets_zero]
  simp only [View.ld_unit_zero (S := S4000x128) offsets_zero, View.ld_unit_zero (S := S128x128) offsets_zero,
    View.ld_unit_zero (S := S1x128) offsets_zero]
  funext j
  obtain ⟨r, q, rfl⟩ : ∃ (r : Fin 4000) (q : Fin 128), j = ix2 r q := ⟨j 0, j 1, eq_ix2 j⟩
  refine (pay7_apply (iblk7 V c 0 t) (iblk7 V c 1 t) (iblk7 V c 2 t) r q).trans ?_
  show _ = (Cert.AffineRow.rowAffine (R := 20000) (K := 128) (N := 128) (V c (Pipeline.arrRef spec7 0)) (V c (Pipeline.arrRef spec7 1)) (V c (Pipeline.arrRef spec7 2))) (((cfg7.win 3).blk t).view.emb (ix2 r q))
  rw [emb7_3]
  exact affine_block7 V c t r q

/-- An index of the output array is in point t's block iff each coordinate is in the block's range on its axis. -/
theorem mem_blk7 (t : Fin cfg7.N) (i : S20000x128.Idx) :
    i ∈ ((cfg7.win 3).blk t).view.set ↔ ∀ a : Fin 2, win7_3.index t a * S4000x128.size a ≤ (i a).val ∧ (i a).val < win7_3.index t a * S4000x128.size a + S4000x128.size a := by
  show i ∈ ((View.whole main_v87).slice (win7_3.rect t)).set ↔ _
  rw [View.set_slice_whole, Rect.mem_set_unit]
  exact Iff.rfl

/-- Every row of the output array is in the block of the point its number divided by 4000 names. -/
theorem cover7 (i : S20000x128.Idx) :
    ∃ t : Fin cfg7.N, (cfg7.win 3).flush t = true ∧ i ∈ ((cfg7.win 3).blk t).view.set := by
  have hi0 : (i 0).val < 20000 := (i 0).isLt
  have hi1 : (i 1).val < 128 := (i 1).isLt
  have hlt : (i 0).val / 4000 < 5 := by omega
  obtain ⟨-, -, -, -, -, -, e6, e7⟩ := index_facts7 ⟨(i 0).val / 4000, hlt⟩
  have e6' : win7_3.index ⟨(i 0).val / 4000, hlt⟩ (0 : Fin 2) = (i 0).val / 4000 := e6
  refine ⟨⟨(i 0).val / 4000, hlt⟩, flush7_3 _, ?_⟩
  rw [mem_blk7]
  intro a
  match a with
  | ⟨0, _⟩ =>
    show win7_3.index ⟨(i 0).val / 4000, hlt⟩ (0 : Fin 2) * 4000 ≤ (i 0).val
      ∧ (i 0).val < win7_3.index ⟨(i 0).val / 4000, hlt⟩ (0 : Fin 2) * 4000 + 4000
    omega
  | ⟨1, _⟩ =>
    show win7_3.index ⟨(i 0).val / 4000, hlt⟩ (1 : Fin 2) * 128 ≤ (i 1).val
      ∧ (i 1).val < win7_3.index ⟨(i 0).val / 4000, hlt⟩ (1 : Fin 2) * 128 + 128
    omega

/-- THE OUTPUT ARRAY of kernel 7 after its last block: the layer of the rows, the weights and the
    1×128 row as the kernel found them, whatever they are. -/
theorem out7 (c : Dev nD) :
    (dat7 (F := Ideal) V c).arrAt 3 cfg7.N
      = Cert.AffineRow.rowAffine (R := 20000) (K := 128) (N := 128) (V c (Pipeline.arrRef spec7 0)) (V c (Pipeline.arrRef spec7 1)) (V c (Pipeline.arrRef spec7 2)) :=
  (dat7 (F := Ideal) V c).arrAt_eq_of_cover 3 _ (fun t _ => flushed7_eq V c t) cover7

end Cert.KernelIdeal.RegionValue

end
-- ==== Proof.LibKeepdims.lean ====
/-
  A vector of row statistics carried to a matrix, read at an index: the cast of a length-`a` vector to an
  `[a, 1]` column reads its entry at the row, and the column broadcast to `[a, b]` reads the column's entry at
  the row whatever the lane. Also: a fold of `max` is above the value it starts from, so taking the maximum
  with that start once more changes nothing.
-/
import Idealize.ShloMosaic.Lib.Pipeline.Value
import Idealize.ShloMosaic.Lib.ValueIdx
import Mathlib.Data.Finset.Fold

namespace Idealize.ShloMosaic.Keepdims

open Idealize.ShloMosaic Idealize.ShloMosaic.ValueIdx

variable {α : Type}

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a row statistic spread over the lanes of its row. -/
theorem column_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- A fold of `max` from `b` is at least `b`: the maximum of `b` and the fold is the fold. -/
theorem max_fold_max_self {ι β : Type} [LinearOrder β] (s : Finset ι) (b : β) (f : ι → β) :
    max b (s.fold max b f) = s.fold max b f :=
  max_eq_right ((Finset.le_fold_max (c := b)).2 (Or.inl le_rfl))

end Idealize.ShloMosaic.Keepdims
-- ==== Proof.Region8.lean ====
/-
  The edge readout region, in closed form. The region runs over 200 grid points; at point t it holds rows
  5000·t … 5000·t + 4999 of the two [1000000, 128] edge-feature arrays, the whole 1×128 bias row b1, the whole 1×128
  weight row w2 and the 1×1 bias b2, and writes rows 5000·t … 5000·t + 4999 of the [1000000, 1] output column:
    out(e) = (∑ over the 128 lanes l of max((al(e,l) + at(e,l)) + b1(l), 0) · w2(l)) + b2.
  Over the extended reals a change of float format is the identity, so the body's value at row r of a block is that
  expression of row r of the two feature blocks (`pay8_apply`: the lane reduction is a sum over the 128 lanes, the
  broadcast rows read their lane, the broadcast cell reads itself). Row r of block t is edge 5000·t + r of the arrays
  (`flushed8_eq`, from the index maps decided over the grid), the 200 blocks cover the million edges (`cover8`: edge e
  lies in block e / 5000), and so the array the region leaves is the closed form of the arrays it found (`out8`).
-/
import proofs.«132711_j11063835754497_2_alg».proof.Proof.Gen.KernelIdeal.Frame
import proofs.«132711_j11063835754497_2_alg».proof.Proof.EdgeSpec
import proofs.«132711_j11063835754497_2_alg».proof.Proof.LibRowVector
import proofs.«132711_j11063835754497_2_alg».proof.Proof.LibKeepdims
import Idealize.ShloMosaic.Lib.Pipeline.Value
import Idealize.ShloMosaic.Lib.ValueIdx
import Idealize.ShloMosaic.PureOps.Ideal.Laws

noncomputable section

open scoped BigOperators

namespace Cert.KernelIdeal.RegionValue

open Cert.KernelIdeal Cert.KernelIdeal.Gen Idealize.ShloMosaic Idealize.ShloMosaic.ValueIdx Idealize.ShloMosaic.TcCoe Idealize.SL.Sem
open Idealize.ShloMosaic.Pipeline (Dat)

/-- The lane sum: the sum over axis 1 of a [5000,128] block, read at row r, is the sum over the 128 lanes of that row. -/
theorem laneSum8_apply (src : FVec Ideal S5000x128 .f32) (h : S5000x128.Reduces [1] S5000)
    (hφ : FKind.Formats .f32) (hacc : (0x00000000#32 : BitVec 32) = 0x00000000#32) (r : Fin 5000) :
    multiReduction (F := Ideal) .add [1] S5000 src 0x00000000#32 h hφ hacc (ix1 r) = ∑ l : Fin 128, src (ix2 r l) := by
  refine (Ideal.multiReduction_add_single src 0x00000000#32 h hφ hacc (ix1 r)).trans ?_
  refine Finset.sum_congr rfl fun l _ => congrArg src ?_
  funext a
  match a with
  | ⟨0, _⟩ => rfl
  | ⟨1, _⟩ => rfl

/-- The 1x1 cell copied to every entry of a [5000,1] column reads the cell everywhere. -/
theorem cell8_apply {α : Type} (v : S1x1.Idx → α) (h : S1x1.Broadcasts S5000x1) (r : Fin 5000) (u : Fin 1) :
    broadcastTo S5000x1 v h (ix2 r u) = v (ix2 (0 : Fin 1) (0 : Fin 1)) :=
  broadcastTo_apply v h (ix2 r u) (ix2 (0 : Fin 1) (0 : Fin 1)) (fun a => match a with
    | ⟨0, _⟩ => by
      show (0 : Nat) = if (1 : Nat) = 1 then 0 else _
      rw [if_pos rfl]
    | ⟨1, _⟩ => by
      show (0 : Nat) = if (1 : Nat) = 1 then 0 else _
      rw [if_pos rfl])

/-- The body's payload at edge r of the block: the lane sum of the clamped, weighted sums, plus the scalar bias. -/
theorem pay8_apply (x0 x1 : Vec Ideal S5000x128 .bf16) (x2 x3 : Vec Ideal S1x128 .f32) (x4 : Vec Ideal S1x1 .f32)
    (r : Fin 5000) (u : Fin 1) :
    k8_pay1 (F := Ideal) x0 x1 x2 x3 x4 (ix2 r u)
      = (∑ l : Fin 128, max (((x0 (ix2 r l) : EReal) + x1 (ix2 r l)) + x2 (ix2 (0 : Fin 1) l)) Cert.EdgeSpec.zero * x3 (ix2 (0 : Fin 1) l))
          + x4 (ix2 (0 : Fin 1) (0 : Fin 1)) := by
  unfold k8_pay1
  dsimp only
  rw [addf_apply]
  refine congrArg₂ (fun a b : EReal => a + b) ?_ ?_
  · refine (Idealize.ShloMosaic.Keepdims.shapeCast_a_a1_apply _ shapeCasts_S5000_S5000x1 r u).trans ?_
    refine (laneSum8_apply _ reduces_S5000x128_S5000 _ _ r).trans ?_
    refine Finset.sum_congr rfl fun l _ => ?_
    rw [mulf_apply, maximumf_apply, addf_apply, addf_apply, extf_apply, extf_apply, shapeCast_self, shapeCast_self,
      shapeCast_self, shapeCast_self, broadcast_apply,
      Cert.RowVector.broadcastTo_row (by decide) x2 broadcasts_S1x128_S5000x128 r l,
      Cert.RowVector.broadcastTo_row (by decide) x3 broadcasts_S1x128_S5000x128 r l]
    rfl
  · rw [shapeCast_self]
    exact cell8_apply x4 broadcasts_S1x1_S5000x1 r u

theorem hz8 : (![0, 0] : Fin 2 → Nat) = fun _ => 0 := funext fun a => by fin_cases a <;> rfl

/-- The index maps, decided over the 200 grid points: the two edge windows and the output window sit at block row t,
    block column 0; the two rows and the cell sit at block (0, 0). -/
theorem idx_facts8 : ∀ t : Fin cfg8.N,
      win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

variable (V : (c : Dev nD) → (b : Ref sig .tc) → Buf (Elt Ideal) ((c : Thread nD τ).loc b))

/-- The closed form of the output array, at the arrays the region finds on entry. -/
abbrev G8 (c : Dev nD) : S1000000x1.Idx → EReal :=
  Cert.EdgeSpec.edgeFinal (E := 1000000) (V c (Pipeline.arrRef spec8 0)) (V c (Pipeline.arrRef spec8 1))
    (V c (Pipeline.arrRef spec8 2)) (V c (Pipeline.arrRef spec8 3)) (V c (Pipeline.arrRef spec8 4))

/-- What grid point t writes back is block t of the closed form: row r of the block is edge 5000·t + r, whose two
    feature rows are row r of the two edge windows' blocks, while the bias row, the weight row and the scalar bias are
    the same whole arrays at every point. -/
theorem flushed8_eq (c : Dev nD) (t : Fin cfg8.N) :
    (dat8 (F := Ideal) V c).flushed 5 t = ((cfg8.win 5).blk t).view.read (Elt Ideal) (G8 V c) := by
  show (cfg8.win 5).cut (grid8.coords t) ((dat8 (F := Ideal) V c).after 5 t) = _
  rw [after8_5]
  unfold out8_5
  rw [View.canon_unit_zero hz8]
  simp only [View.ld_unit_zero (S := S5000x128) hz8, View.ld_unit_zero (S := S1x128) hz8, View.ld_unit_zero (S := S1x1) hz8]
  funext j
  obtain ⟨r, u, rfl⟩ : ∃ (r : Fin 5000) (u : Fin 1), j = ix2 r u := ⟨j 0, j 1, eq_ix2 j⟩
  obtain ⟨e00, e01, e10, e11, e20, e21, e30, e31, e40, e41, e50, e51⟩ := idx_facts8 t
  have ht : t.val < 200 := lt_of_lt_of_eq t.isLt N_8
  have hr : r.val < 5000 := r.isLt
  have hu : u.val < 1 := u.isLt
  have he : t.val * 5000 + r.val < 1000000 := by omega
  refine (pay8_apply (iblk8 V c 0 t) (iblk8 V c 1 t) (iblk8 V c 2 t) (iblk8 V c 3 t) (iblk8 V c 4 t) r u).trans ?_
  have h5 : ((View.whole main_v105).slice ((win8 5).rect t)).emb (ix2 r u)
      = ix2 (⟨t.val * 5000 + r.val, he⟩ : Fin 1000000) (0 : Fin 1) := by
    funext a; apply Fin.ext
    match a with
    | ⟨0, _⟩ => show win8_5.index t (0 : Fin 2) * 5000 + 1 * r.val = t.val * 5000 + r.val; omega
    | ⟨1, _⟩ => show win8_5.index t (1 : Fin 2) * 1 + 1 * u.val = 0; omega
  have h0 : ∀ l : Fin 128, iblk8 V c 0 t (ix2 r l)
      = V c (Pipeline.arrRef spec8 0) (ix2 (⟨t.val * 5000 + r.val, he⟩ : Fin 1000000) l) := fun l => by
    show V c (Pipeline.arrRef spec8 0) (((cfg8.win 0).blk t).view.emb (ix2 r l)) = _
    refine congrArg (V c (Pipeline.arrRef spec8 0)) ?_
    funext a; apply Fin.ext
    match a with
    | ⟨0, _⟩ => show win8_0.index t (0 : Fin 2) * 5000 + 1 * r.val = t.val * 5000 + r.val; omega
    | ⟨1, _⟩ => show win8_0.index t (1 : Fin 2) * 128 + 1 * l.val = l.val; omega
  have h1 : ∀ l : Fin 128, iblk8 V c 1 t (ix2 r l)
      = V c (Pipeline.arrRef spec8 1) (ix2 (⟨t.val * 5000 + r.val, he⟩ : Fin 1000000) l) := fun l => by
    show V c (Pipeline.arrRef spec8 1) (((cfg8.win 1).blk t).view.emb (ix2 r l)) = _
    refine congrArg (V c (Pipeline.arrRef spec8 1)) ?_
    funext a; apply Fin.ext
    match a with
    | ⟨0, _⟩ => show win8_1.index t (0 : Fin 2) * 5000 + 1 * r.val = t.val * 5000 + r.val; omega
    | ⟨1, _⟩ => show win8_1.index t (1 : Fin 2) * 128 + 1 * l.val = l.val; omega
  have h2 : ∀ l : Fin 128, iblk8 V c 2 t (ix2 (0 : Fin 1) l) = V c (Pipeline.arrRef spec8 2) (ix2 (0 : Fin 1) l) := fun l => by
    show V c (Pipeline.arrRef spec8 2) (((cfg8.win 2).blk t).view.emb (ix2 (0 : Fin 1) l)) = _
    refine congrArg (V c (Pipeline.arrRef spec8 2)) ?_
    funext a; apply Fin.ext
    match a with
    | ⟨0, _⟩ => show win8_2.index t (0 : Fin 2) * 1 + 1 * 0 = 0; omega
    | ⟨1, _⟩ => show win8_2.index t (1 : Fin 2) * 128 + 1 * l.val = l.val; omega
  have h3 : ∀ l : Fin 128, iblk8 V c 3 t (ix2 (0 : Fin 1) l) = V c (Pipeline.arrRef spec8 3) (ix2 (0 : Fin 1) l) := fun l => by
    show V c (Pipeline.arrRef spec8 3) (((cfg8.win 3).blk t).view.emb (ix2 (0 : Fin 1) l)) = _
    refine congrArg (V c (Pipeline.arrRef spec8 3)) ?_
    funext a; apply Fin.ext
    match a with
    | ⟨0, _⟩ => show win8_3.index t (0 : Fin 2) * 1 + 1 * 0 = 0; omega
    | ⟨1, _⟩ => show win8_3.index t (1 : Fin 2) * 128 + 1 * l.val = l.val; omega
  have h4 : iblk8 V c 4 t (ix2 (0 : Fin 1) (0 : Fin 1)) = V c (Pipeline.arrRef spec8 4) (ix2 (0 : Fin 1) (0 : Fin 1)) := by
    show V c (Pipeline.arrRef spec8 4) (((cfg8.win 4).blk t).view.emb (ix2 (0 : Fin 1) (0 : Fin 1))) = _
    refine congrArg (V c (Pipeline.arrRef spec8 4)) ?_
    funext a; apply Fin.ext
    match a with
    | ⟨0, _⟩ => show win8_4.index t (0 : Fin 2) * 1 + 1 * 0 = 0; omega
    | ⟨1, _⟩ => show win8_4.index t (1 : Fin 2) * 1 + 1 * 0 = 0; omega
  refine Eq.trans ?_ (congrArg (G8 V c) h5.symm)
  refine Eq.trans ?_ (Cert.EdgeSpec.edgeFinal_apply (E := 1000000) _ _ _ _ _ _ _).symm
  refine congrArg₂ (fun a b : EReal => a + b) (Finset.sum_congr rfl fun l _ => ?_) h4
  rw [h0 l, h1 l, h2 l, h3 l]

/-- An index of the output array is in point t's block iff each coordinate is in the block's range on its axis. -/
theorem mem_blk8 (t : Fin cfg8.N) (i : S1000000x1.Idx) :
    i ∈ ((cfg8.win 5).blk t).view.set ↔ ∀ a : Fin 2, win8_5.index t a * S5000x1.size a ≤ (i a).val
      ∧ (i a).val < win8_5.index t a * S5000x1.size a + S5000x1.size a := by
  show i ∈ ((View.whole main_v105).slice (win8_5.rect t)).set ↔ _
  rw [View.set_slice_whole, Rect.mem_set_unit]
  exact Iff.rfl

/-- The 200 blocks of 5000 edges cover8 the million edges: edge e lies in the block of point e / 5000. -/
theorem cover8 (i : S1000000x1.Idx) :
    ∃ t : Fin cfg8.N, (cfg8.win 5).flush t = true ∧ i ∈ ((cfg8.win 5).blk t).view.set := by
  have hi0 : (i 0).val < 1000000 := (i 0).isLt
  have hi1 : (i 1).val < 1 := (i 1).isLt
  have hq : (i 0).val / 5000 < 200 := by omega
  let t : Fin cfg8.N := ⟨(i 0).val / 5000, lt_of_lt_of_eq hq N_8.symm⟩
  obtain ⟨e00, e01, e10, e11, e20, e21, e30, e31, e40, e41, e50, e51⟩ := idx_facts8 t
  have e50' : win8_5.index t (0 : Fin 2) = (i 0).val / 5000 := e50
  refine ⟨t, flush8_5 t, ?_⟩
  rw [mem_blk8]
  intro a
  match a with
  | ⟨0, _⟩ =>
    show win8_5.index t (0 : Fin 2) * 5000 ≤ (i 0).val ∧ (i 0).val < win8_5.index t (0 : Fin 2) * 5000 + 5000
    omega
  | ⟨1, _⟩ =>
    show win8_5.index t (1 : Fin 2) * 1 ≤ (i 1).val ∧ (i 1).val < win8_5.index t (1 : Fin 2) * 1 + 1
    omega

/-- THE OUTPUT ARRAY of the edge region, whatever the region finds on entry: per edge e, the lane sum of
    max((al(e,l) + at(e,l)) + b1(l), 0) · w2(l), plus b2 — the closed form, at the five input arrays as found. -/
theorem out8 (c : Dev nD) : (dat8 (F := Ideal) V c).arrAt 5 cfg8.N
    = Cert.EdgeSpec.edgeFinal (E := 1000000) (V c (Pipeline.arrRef spec8 0)) (V c (Pipeline.arrRef spec8 1))
        (V c (Pipeline.arrRef spec8 2)) (V c (Pipeline.arrRef spec8 3)) (V c (Pipeline.arrRef spec8 4)) :=
  (dat8 (F := Ideal) V c).arrAt_eq_of_cover 5 (G8 V c) (fun t _ => flushed8_eq V c t) cover8

end Cert.KernelIdeal.RegionValue

end
-- ==== Proof.FormsProof.lean ====
/-
  The nine regions' closed forms, gathered: each region's output array is the dense layer (clamped at zero in the
  two message-passing layers) or the per-edge readout of the arrays it reads, for any contents of the buffers at the
  region's entry.
-/
import proofs.«132711_j11063835754497_2_alg».proof.Proof.Forms
import proofs.«132711_j11063835754497_2_alg».proof.Proof.Region0
import proofs.«132711_j11063835754497_2_alg».proof.Proof.Region1
import proofs.«132711_j11063835754497_2_alg».proof.Proof.Region2
import proofs.«132711_j11063835754497_2_alg».proof.Proof.Region3
import proofs.«132711_j11063835754497_2_alg».proof.Proof.Region4
import proofs.«132711_j11063835754497_2_alg».proof.Proof.Region5
import proofs.«132711_j11063835754497_2_alg».proof.Proof.Region6
import proofs.«132711_j11063835754497_2_alg».proof.Proof.Region7
import proofs.«132711_j11063835754497_2_alg».proof.Proof.Region8

noncomputable section

namespace Cert.KernelIdeal.Chain

open Cert.KernelIdeal

/-- Every region leaves in its output array the function of its inputs that the record states. -/
theorem forms : Forms :=
  ⟨fun V c => RegionValue.out0 V c, fun V c => RegionValue.out1 V c, fun V c => RegionValue.out2 V c,
   fun V c => RegionValue.out3 V c, fun V c => RegionValue.out4 V c, fun V c => RegionValue.out5 V c,
   fun V c => RegionValue.out6 V c, fun V c => RegionValue.out7 V c, fun V c => RegionValue.out8 V c⟩

end Cert.KernelIdeal.Chain

end
-- ==== Proof.DenseBridge.lean ====
/-
  A dense layer in two spellings is one array. With a bias vector b reshaped to a 1×N row B, the array
  (X·W)(p, q) + B(0, q) is the host's dot_general plus the bias broadcast along the rows; clamping it at zero is the
  host's maximum with a broadcast zero. Over arbitrary extents; every shape fact is a hypothesis.
-/
import proofs.«132711_j11063835754497_2_alg».proof.Proof.LibNodeUpdate

noncomputable section

namespace Cert.DenseBridge

open Idealize.ShloMosaic Idealize.ShloMosaic.ValueIdx

variable {R K N : Nat}

/-- X·W plus the bias row, the bias a length-N vector viewed as a 1×N row, is the host's spelling: dot_general plus
    the vector broadcast to 1×N and then to R×N. -/
theorem affine_host (D : DotDims ⟨2, ![R, K]⟩ ⟨2, ![K, N]⟩ ⟨2, ![R, N]⟩) (hD : D = DotDims.plain R K N) (hN : N ≠ 1)
    (prec : Option ContractPrecision) (X : FVec Ideal ⟨2, ![R, K]⟩ .f32) (W : FVec Ideal ⟨2, ![K, N]⟩ .f32)
    (b : FVec Ideal ⟨1, ![N]⟩ .f32) (hs : (⟨1, ![N]⟩ : Shape).ShapeCasts ⟨2, ![1, N]⟩)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2)) :
    Cert.AffineRow.rowAffine X W (shapeCast ⟨2, ![1, N]⟩ b hs)
      = addf (Host.dotGeneral D prec X W)
          (broadcastInDim ⟨2, ![R, N]⟩ ![0, 1] h2 (broadcastInDim ⟨2, ![1, N]⟩ ![1] h1 b)) :=
  (Cert.AffineRow.rowAffine_shapeCast X W b hs).trans (Cert.Linear.host_eq D hD hN prec X W b h1 h2).symm

/-- The same layer clamped at zero is the host's maximum with a zero broadcast from rank 0. -/
theorem affine_relu_host (D : DotDims ⟨2, ![R, K]⟩ ⟨2, ![K, N]⟩ ⟨2, ![R, N]⟩) (hD : D = DotDims.plain R K N) (hN : N ≠ 1)
    (prec : Option ContractPrecision) (X : FVec Ideal ⟨2, ![R, K]⟩ .f32) (W : FVec Ideal ⟨2, ![K, N]⟩ .f32)
    (b : FVec Ideal ⟨1, ![N]⟩ .f32) (hs : (⟨1, ![N]⟩ : Shape).ShapeCasts ⟨2, ![1, N]⟩)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2))
    (h0 : (⟨0, ![]⟩ : Shape).BroadcastsInDim ⟨2, ![R, N]⟩ (![] : Fin 0 → Fin 2)) :
    Cert.NodeUpdate.relu (Cert.AffineRow.rowAffine X W (shapeCast ⟨2, ![1, N]⟩ b hs))
      = maximumf (addf (Host.dotGeneral D prec X W)
          (broadcastInDim ⟨2, ![R, N]⟩ ![0, 1] h2 (broadcastInDim ⟨2, ![1, N]⟩ ![1] h1 b)))
          (broadcastInDim ⟨2, ![R, N]⟩ ![] h0 (constant (F := Ideal) ⟨0, ![]⟩ .f32 0x00000000#32)) := by
  rw [affine_host D hD hN prec X W b hs h1 h2]
  exact (Cert.NodeUpdate.host_relu_eq _ h0).symm

end Cert.DenseBridge

end
-- ==== Proof.ChainA.lean ====
/-
  The first two regions of the idealized kernel: the ligand and the target embeddings. At the exit of region 0 the
  array of ligand features holds x_ligand·W_lig + b_lig, the reference's first stage; at the exit of region 1 the
  array of target features holds x_target·W_tgt + b_tgt. The bias reaches the region as a 1×128 row, a host reshape
  of the bias vector; the arguments reach it unchanged through the host stretch before it.
-/
import proofs.«132711_j11063835754497_2_alg».proof.Proof.Forms
import proofs.«132711_j11063835754497_2_alg».proof.Proof.DenseBridge
import proofs.«132711_j11063835754497_2_alg».proof.Proof.Gen.ReferenceIdeal.Read

set_option maxRecDepth 16384
set_option maxHeartbeats 4000000

noncomputable section

namespace Cert.KernelIdeal.Chain

open Cert.KernelIdeal Cert.KernelIdeal.Gen
open Idealize.ShloMosaic Idealize.ShloMosaic.TcCoe
open Idealize.SL.Sem

variable (m : (ℓ : Loc nD τ sig) → Buf (Elt Ideal) ℓ) (ρ : Dev nD → PrngReg) (c : Dev nD)

set_option quotPrecheck false
local notation "a0" => m (Thread.loc (c : Thread nD τ) main_arg0)
local notation "a1" => m (Thread.loc (c : Thread nD τ) main_arg1)
local notation "a2" => m (Thread.loc (c : Thread nD τ) main_arg2)
local notation "a3" => m (Thread.loc (c : Thread nD τ) main_arg3)
local notation "a4" => m (Thread.loc (c : Thread nD τ) main_arg4)
local notation "a5" => m (Thread.loc (c : Thread nD τ) main_arg5)
local notation "a6" => m (Thread.loc (c : Thread nD τ) main_arg6)
local notation "a7" => m (Thread.loc (c : Thread nD τ) main_arg7)
local notation "a8" => m (Thread.loc (c : Thread nD τ) main_arg8)
local notation "a9" => m (Thread.loc (c : Thread nD τ) main_arg9)
local notation "a10" => m (Thread.loc (c : Thread nD τ) main_arg10)
local notation "a11" => m (Thread.loc (c : Thread nD τ) main_arg11)
local notation "a12" => m (Thread.loc (c : Thread nD τ) main_arg12)
local notation "a13" => m (Thread.loc (c : Thread nD τ) main_arg13)
local notation "a14" => m (Thread.loc (c : Thread nD τ) main_arg14)
local notation "a15" => m (Thread.loc (c : Thread nD τ) main_arg15)
local notation "a16" => m (Thread.loc (c : Thread nD τ) main_arg16)
local notation "a17" => m (Thread.loc (c : Thread nD τ) main_arg17)
local notation "a18" => m (Thread.loc (c : Thread nD τ) main_arg18)
local notation "a19" => m (Thread.loc (c : Thread nD τ) main_arg19)

/-- A buffer that neither the regions nor the host stretches in between write keeps its contents from one boundary
    of @main to a later one: step back through the boundaries, a region by its other-buffers law, a host stretch by
    reading the fold of its operations at the buffer. -/
macro "carry" : tactic => `(tactic| (
  repeat (first
    | (rw [W18_of_ne _ _ _ _ (by decide)]) | (rw [W16_of_ne _ _ _ _ (by decide)]) | (rw [W14_of_ne _ _ _ _ (by decide)])
    | (rw [W12_of_ne _ _ _ _ (by decide)]) | (rw [W10_of_ne _ _ _ _ (by decide)]) | (rw [W8_of_ne _ _ _ _ (by decide)])
    | (rw [W6_of_ne _ _ _ _ (by decide)]) | (rw [W4_of_ne _ _ _ _ (by decide)]) | (rw [W2_of_ne _ _ _ _ (by decide)])
    | (dsimp only [W1, W3, W5, W7, W9, W11, W13, W15, W17, V1, V3, V5, V7, V9, V11, V13, V15, V17,
         hostOps0, hostOps1, hostOps2, hostOps3, hostOps4, hostOps5, hostOps6, hostOps7, hostOps8]; after_results_simp))
  try rfl))

/-- Region 0's output array, the ligand embedding, is the reference's x_ligand·W_lig + b_lig. -/
theorem s0 (H : Forms) : W2 m ρ c (Proc.devRef .tc main_v1) = Cert.ReferenceIdeal.Read.val_main_v3 (F := Ideal) a0 a4 a5 := by
  refine (W2_arr m ρ c 3).trans ?_
  rw [H.out0]
  have e0 : V1 m ρ c (Pipeline.arrRef spec0 0) = a0 := by
    show StableHlo.after hostOps0 (W0 m ρ c) (Proc.devRef .tc main_arg0) = _
    after_results; try rfl
  have e1 : V1 m ρ c (Pipeline.arrRef spec0 1) = a4 := by
    show StableHlo.after hostOps0 (W0 m ρ c) (Proc.devRef .tc main_arg4) = _
    after_results; try rfl
  have e2 : V1 m ρ c (Pipeline.arrRef spec0 2) = shapeCast S1x128 a5 shapeCasts_S128_S1x128 := by
    show StableHlo.after hostOps0 (W0 m ρ c) (Proc.devRef .tc main_v0) = _
    after_results; try rfl
  rw [e0, e1, e2]
  unfold Cert.ReferenceIdeal.Read.val_main_v3 Cert.ReferenceIdeal.Read.val_main_v0 Cert.ReferenceIdeal.Read.val_main_v2 Cert.ReferenceIdeal.Read.val_main_v1
  exact Cert.DenseBridge.affine_host _ rfl (by decide) none _ _ _ _ _ _

/-- Region 1's output array, the target embedding, is the reference's x_target·W_tgt + b_tgt. -/
theorem s1 (H : Forms) : W4 m ρ c (Proc.devRef .tc main_v3) = Cert.ReferenceIdeal.Read.val_main_v7 (F := Ideal) a1 a6 a7 := by
  refine (W4_arr m ρ c 3).trans ?_
  rw [H.out1]
  have e0 : V3 m ρ c (Pipeline.arrRef spec1 0) = a1 := by
    show W3 m ρ c (Proc.devRef .tc main_arg1) = _
    carry
  have e1 : V3 m ρ c (Pipeline.arrRef spec1 1) = a6 := by
    show W3 m ρ c (Proc.devRef .tc main_arg6) = _
    carry
  have e2 : V3 m ρ c (Pipeline.arrRef spec1 2) = shapeCast S1x128 a7 shapeCasts_S128_S1x128 := by
    show W3 m ρ c (Proc.devRef .tc main_v2) = _
    carry
  rw [e0, e1, e2]
  unfold Cert.ReferenceIdeal.Read.val_main_v7 Cert.ReferenceIdeal.Read.val_main_v4 Cert.ReferenceIdeal.Read.val_main_v6 Cert.ReferenceIdeal.Read.val_main_v5
  exact Cert.DenseBridge.affine_host _ rfl (by decide) none _ _ _ _ _ _

end Cert.KernelIdeal.Chain

end
-- ==== Proof.MeanBridge.lean ====
/-
  The mean over the incoming edges, in two spellings.

  With a per-row count c(i) = max(cnt(i), 1), one program multiplies the row sums S(i, ·) by the reciprocal
  1 / c(i), the other divides them by c(i). Over the extended reals the quotient x / y is x · y⁻¹ as soon as
  y ≠ 0, and c(i) ≥ 1 > 0 whatever cnt(i) is (an infinity included), so

      S(i, j) · (1 / c(i)) = S(i, j) · (1 · c(i)⁻¹) = S(i, j) · c(i)⁻¹ = S(i, j) / c(i).

  No finiteness of S or of the count is used.
-/
import Idealize.ShloMosaic.PureOps.Ideal.Laws
import Idealize.ShloMosaic.Lib.Pipeline.Value
import Idealize.ShloMosaic.Lib.ValueIdx
import Idealize.ShloMosaic.Lib.IdealHost
import proofs.«132711_j11063835754497_2_alg».proof.Proof.LibColumnInDim

noncomputable section

namespace Cert.MeanBridge

open Idealize.ShloMosaic Idealize.ShloMosaic.ValueIdx

/-- The scalar law: for a divisor that is at least one, multiplying by its reciprocal is dividing by it. -/
theorem mul_div_one_eq_div (s c : EReal) (hc : (1 : EReal) ≤ c) :
    s * Ideal.div 1 c = Ideal.div s c := by
  have hpos : (0 : EReal) < c := lt_of_lt_of_le zero_lt_one hc
  have hne : c ≠ 0 := ne_of_gt hpos
  unfold Ideal.div
  rw [if_neg hne, if_neg hne, one_mul]

/-- A scalar splat to a length-R vector holds the scalar at every entry. -/
theorem splat_apply {α : Type} {R : Nat} (x : (⟨0, ![]⟩ : Shape).Idx → α)
    (h0 : (⟨0, ![]⟩ : Shape).BroadcastsInDim ⟨1, ![R]⟩ (![] : Fin 0 → Fin 1)) (i : (⟨1, ![R]⟩ : Shape).Idx)
    (k : (⟨0, ![]⟩ : Shape).Idx) :
    broadcastInDim ⟨1, ![R]⟩ ![] h0 x i = x k :=
  broadcastInDim_apply _ h0 x i k (fun a => a.elim0)

/-- The row sums times the reciprocal of max(count, 1), carried to every lane, are the row sums divided by
    max(count, 1), carried to every lane: s · (1 / c) = s / c for c ≥ 1. -/
theorem mean_eq {R N : Nat} (S : FVec Ideal ⟨2, ![R, N]⟩ .f32) (cnt : FVec Ideal ⟨1, ![R]⟩ .f32)
    (h0 : (⟨0, ![]⟩ : Shape).BroadcastsInDim ⟨1, ![R]⟩ (![] : Fin 0 → Fin 1))
    (hc : (⟨1, ![R]⟩ : Shape).BroadcastsInDim ⟨2, ![R, 1]⟩ (![0] : Fin 1 → Fin 2))
    (hl : (⟨2, ![R, 1]⟩ : Shape).BroadcastsInDim ⟨2, ![R, N]⟩ (![0, 1] : Fin 2 → Fin 2)) :
    mulf S (broadcastInDim ⟨2, ![R, N]⟩ ![0, 1] hl (broadcastInDim ⟨2, ![R, 1]⟩ ![0] hc
        (Host.divf (broadcastInDim ⟨1, ![R]⟩ ![] h0 (constant (F := Ideal) ⟨0, ![]⟩ .f32 0x3F800000#32))
                   (maximumf cnt (broadcastInDim ⟨1, ![R]⟩ ![] h0 (constant (F := Ideal) ⟨0, ![]⟩ .f32 0x3F800000#32))))))
      = Host.divf S (broadcastInDim ⟨2, ![R, N]⟩ ![0, 1] hl (broadcastInDim ⟨2, ![R, 1]⟩ ![0] hc
          (maximumf cnt (broadcastInDim ⟨1, ![R]⟩ ![] h0 (constant (F := Ideal) ⟨0, ![]⟩ .f32 0x3F800000#32))))) := by
  funext j
  obtain ⟨p, q, rfl⟩ : ∃ (p : Fin R) (q : Fin N), j = ix2 p q := ⟨j 0, j 1, eq_ix2 j⟩
  rw [mulf_apply, hostDivf_apply, ColumnInDim.broadcastInDim_lanes, ColumnInDim.broadcastInDim_lanes,
    ColumnInDim.broadcastInDim_column, ColumnInDim.broadcastInDim_column, hostDivf_apply, maximumf_apply,
    splat_apply _ h0 (ix1 p) (fun a => a.elim0), constant_apply, Ideal.ofBits_one_f32]
  exact mul_div_one_eq_div _ _ (le_max_right _ _)

end Cert.MeanBridge

end
-- ==== Proof.ChainB.lean ====
/-
  The first aggregation. Between the embeddings and the first message-passing layer the host gathers, per edge,
  the feature row of the edge's source, adds the rows landing on each node, and scales each node's sum by the
  reciprocal of max(degree, 1); the reference divides the same sum by max(degree, 1). The gathers and the
  scatter-adds are the same operations on equal operands; the scaling is the mean bridge (a nonzero divisor).
-/
import proofs.«132711_j11063835754497_2_alg».proof.Proof.ChainA
import proofs.«132711_j11063835754497_2_alg».proof.Proof.MeanBridge

set_option maxRecDepth 16384
set_option maxHeartbeats 4000000

noncomputable section

namespace Cert.KernelIdeal.Chain

open Cert.KernelIdeal Cert.KernelIdeal.Gen
open Idealize.ShloMosaic Idealize.ShloMosaic.TcCoe
open Idealize.SL.Sem

variable (m : (ℓ : Loc nD τ sig) → Buf (Elt Ideal) ℓ) (ρ : Dev nD → PrngReg) (c : Dev nD)

set_option quotPrecheck false
local notation "a0" => m (Thread.loc (c : Thread nD τ) main_arg0)
local notation "a1" => m (Thread.loc (c : Thread nD τ) main_arg1)
local notation "a2" => m (Thread.loc (c : Thread nD τ) main_arg2)
local notation "a3" => m (Thread.loc (c : Thread nD τ) main_arg3)
local notation "a4" => m (Thread.loc (c : Thread nD τ) main_arg4)
local notation "a5" => m (Thread.loc (c : Thread nD τ) main_arg5)
local notation "a6" => m (Thread.loc (c : Thread nD τ) main_arg6)
local notation "a7" => m (Thread.loc (c : Thread nD τ) main_arg7)
local notation "a8" => m (Thread.loc (c : Thread nD τ) main_arg8)
local notation "a9" => m (Thread.loc (c : Thread nD τ) main_arg9)
local notation "a10" => m (Thread.loc (c : Thread nD τ) main_arg10)
local notation "a11" => m (Thread.loc (c : Thread nD τ) main_arg11)
local notation "a12" => m (Thread.loc (c : Thread nD τ) main_arg12)
local notation "a13" => m (Thread.loc (c : Thread nD τ) main_arg13)
local notation "a14" => m (Thread.loc (c : Thread nD τ) main_arg14)
local notation "a15" => m (Thread.loc (c : Thread nD τ) main_arg15)
local notation "a16" => m (Thread.loc (c : Thread nD τ) main_arg16)
local notation "a17" => m (Thread.loc (c : Thread nD τ) main_arg17)
local notation "a18" => m (Thread.loc (c : Thread nD τ) main_arg18)
local notation "a19" => m (Thread.loc (c : Thread nD τ) main_arg19)

/-- The mean of the ligand rows landing on each target node, as region 2 finds it: the reference's first
    ligand-to-target aggregation. -/
theorem s2a (H : Forms) : W5 m ρ c (Proc.devRef .tc main_v33) = Cert.ReferenceIdeal.Read.val_main_v26 (F := Ideal) a0 a2 a3 a4 a5 := by
  have k1 : W4 m ρ c (Proc.devRef .tc main_v1) = Cert.ReferenceIdeal.Read.val_main_v3 (F := Ideal) a0 a4 a5 := by
    rw [W4_of_ne _ _ _ _ (by decide)]
    dsimp only [W3, hostOps1]; after_results_simp
    exact s0 m ρ c H
  have k2 : W4 m ρ c (Proc.devRef .tc main_arg2) = a2 := by carry
  have k3 : W4 m ρ c (Proc.devRef .tc main_arg3) = a3 := by carry
  dsimp only [W5, hostOps2]
  after_results_simp
  rw [k1, k2, k3]
  rw [Cert.MeanBridge.mean_eq]
  unfold Cert.ReferenceIdeal.Read.val_main_v26 Cert.ReferenceIdeal.Read.val_main_v25 Cert.ReferenceIdeal.Read.val_main_v24 Cert.ReferenceIdeal.Read.val_main_v23 Cert.ReferenceIdeal.Read.val_main_v22 Cert.ReferenceIdeal.Read.val_main_cst_3 Cert.ReferenceIdeal.Read.val_main_v21 Cert.ReferenceIdeal.Read.val_main_v20 Cert.ReferenceIdeal.Read.val_main_v19 Cert.ReferenceIdeal.Read.val_main_cst_2 Cert.ReferenceIdeal.Read.val_main_v18 Cert.ReferenceIdeal.Read.val_main_cst_1 Cert.ReferenceIdeal.Read.val_main_v17 Cert.ReferenceIdeal.Read.val_main_v16 Cert.ReferenceIdeal.Read.val_main_v15 Cert.ReferenceIdeal.Read.val_main_cst Cert.ReferenceIdeal.Read.val_main_v14 Cert.ReferenceIdeal.Read.val_main_v13 Cert.ReferenceIdeal.Read.val_main_v12 Cert.ReferenceIdeal.Read.val_main_v11 Cert.ReferenceIdeal.Read.val_main_v10 Cert.ReferenceIdeal.Read.val_main_c_0 Cert.ReferenceIdeal.Read.val_main_v9 Cert.ReferenceIdeal.Read.val_main_v8 Cert.ReferenceIdeal.Read.val_main_c
  rfl

/-- The mean of the target rows landing on each ligand node, as region 3 finds it: the reference's first
    target-to-ligand aggregation. -/
theorem s2b (H : Forms) : W5 m ρ c (Proc.devRef .tc main_v46) = Cert.ReferenceIdeal.Read.val_main_v45 (F := Ideal) a1 a2 a3 a6 a7 := by
  have k1 : W4 m ρ c (Proc.devRef .tc main_v3) = Cert.ReferenceIdeal.Read.val_main_v7 (F := Ideal) a1 a6 a7 := s1 m ρ c H
  have k2 : W4 m ρ c (Proc.devRef .tc main_arg2) = a2 := by carry
  have k3 : W4 m ρ c (Proc.devRef .tc main_arg3) = a3 := by carry
  dsimp only [W5, hostOps2]
  after_results_simp
  rw [k1, k2, k3]
  rw [Cert.MeanBridge.mean_eq]
  unfold Cert.ReferenceIdeal.Read.val_main_v45 Cert.ReferenceIdeal.Read.val_main_v44 Cert.ReferenceIdeal.Read.val_main_v43 Cert.ReferenceIdeal.Read.val_main_v42 Cert.ReferenceIdeal.Read.val_main_v41 Cert.ReferenceIdeal.Read.val_main_cst_9 Cert.ReferenceIdeal.Read.val_main_v40 Cert.ReferenceIdeal.Read.val_main_v39 Cert.ReferenceIdeal.Read.val_main_v38 Cert.ReferenceIdeal.Read.val_main_cst_8 Cert.ReferenceIdeal.Read.val_main_v37 Cert.ReferenceIdeal.Read.val_main_cst_7 Cert.ReferenceIdeal.Read.val_main_v36 Cert.ReferenceIdeal.Read.val_main_v35 Cert.ReferenceIdeal.Read.val_main_v34 Cert.ReferenceIdeal.Read.val_main_cst_6 Cert.ReferenceIdeal.Read.val_main_v33 Cert.ReferenceIdeal.Read.val_main_v32 Cert.ReferenceIdeal.Read.val_main_v31 Cert.ReferenceIdeal.Read.val_main_v30 Cert.ReferenceIdeal.Read.val_main_v29 Cert.ReferenceIdeal.Read.val_main_c_5 Cert.ReferenceIdeal.Read.val_main_v28 Cert.ReferenceIdeal.Read.val_main_v27 Cert.ReferenceIdeal.Read.val_main_c_4
  rfl

/-- The reciprocal of max(in-degree, 1) of the target nodes, kept as a column for the second layer. -/
theorem inv_t : W5 m ρ c (Proc.devRef .tc main_v15) = broadcastInDim S20000x1 ![0] bcast_S20000_S20000x1_0 (Host.divf (broadcastInDim S20000 ![] bcast_S_S20000 (constant (F := Ideal) S_ .f32 0x3F800000#32)) (maximumf (Host.scatterAdd scatter_S20000_S1000000x1_S1000000_n_0_0_1 (broadcastInDim S20000 ![] bcast_S_S20000 (constant (F := Ideal) S_ .f32 0x00000000#32)) (broadcastInDim S1000000x1 ![0] bcast_S1000000_S1000000x1_0 a3) (broadcastInDim S1000000 ![] bcast_S_S1000000 (constant (F := Ideal) S_ .f32 0x3F800000#32))) (broadcastInDim S20000 ![] bcast_S_S20000 (constant (F := Ideal) S_ .f32 0x3F800000#32)))) := by carry

/-- The reciprocal of max(out-degree, 1) of the ligand nodes, kept as a column for the second layer. -/
theorem inv_l : W5 m ρ c (Proc.devRef .tc main_v20) = broadcastInDim S100000x1 ![0] bcast_S100000_S100000x1_0 (Host.divf (broadcastInDim S100000 ![] bcast_S_S100000 (constant (F := Ideal) S_ .f32 0x3F800000#32)) (maximumf (Host.scatterAdd scatter_S100000_S1000000x1_S1000000_n_0_0_1 (broadcastInDim S100000 ![] bcast_S_S100000 (constant (F := Ideal) S_ .f32 0x00000000#32)) (broadcastInDim S1000000x1 ![0] bcast_S1000000_S1000000x1_0 a2) (broadcastInDim S1000000 ![] bcast_S_S1000000 (constant (F := Ideal) S_ .f32 0x3F800000#32))) (broadcastInDim S100000 ![] bcast_S_S100000 (constant (F := Ideal) S_ .f32 0x3F800000#32)))) := by carry

end Cert.KernelIdeal.Chain

end
-- ==== Proof.ChainC.lean ====
/-
  The first message-passing layer. Region 2 applies W1f and b1f to the aggregated ligand rows of every target node
  and clamps at zero; region 3 does the same with W1r and b1r for the ligand nodes. Each is the reference's
  relu(agg · W + b); the aggregated rows are the previous stage's, the weights and the bias row reach the region
  unchanged.
-/
import proofs.«132711_j11063835754497_2_alg».proof.Proof.ChainB

set_option maxRecDepth 16384
set_option maxHeartbeats 4000000

noncomputable section

namespace Cert.KernelIdeal.Chain

open Cert.KernelIdeal Cert.KernelIdeal.Gen
open Idealize.ShloMosaic Idealize.ShloMosaic.TcCoe
open Idealize.SL.Sem

variable (m : (ℓ : Loc nD τ sig) → Buf (Elt Ideal) ℓ) (ρ : Dev nD → PrngReg) (c : Dev nD)

set_option quotPrecheck false
local notation "a0" => m (Thread.loc (c : Thread nD τ) main_arg0)
local notation "a1" => m (Thread.loc (c : Thread nD τ) main_arg1)
local notation "a2" => m (Thread.loc (c : Thread nD τ) main_arg2)
local notation "a3" => m (Thread.loc (c : Thread nD τ) main_arg3)
local notation "a4" => m (Thread.loc (c : Thread nD τ) main_arg4)
local notation "a5" => m (Thread.loc (c : Thread nD τ) main_arg5)
local notation "a6" => m (Thread.loc (c : Thread nD τ) main_arg6)
local notation "a7" => m (Thread.loc (c : Thread nD τ) main_arg7)
local notation "a8" => m (Thread.loc (c : Thread nD τ) main_arg8)
local notation "a9" => m (Thread.loc (c : Thread nD τ) main_arg9)
local notation "a10" => m (Thread.loc (c : Thread nD τ) main_arg10)
local notation "a11" => m (Thread.loc (c : Thread nD τ) main_arg11)
local notation "a12" => m (Thread.loc (c : Thread nD τ) main_arg12)
local notation "a13" => m (Thread.loc (c : Thread nD τ) main_arg13)
local notation "a14" => m (Thread.loc (c : Thread nD τ) main_arg14)
local notation "a15" => m (Thread.loc (c : Thread nD τ) main_arg15)
local notation "a16" => m (Thread.loc (c : Thread nD τ) main_arg16)
local notation "a17" => m (Thread.loc (c : Thread nD τ) main_arg17)
local notation "a18" => m (Thread.loc (c : Thread nD τ) main_arg18)
local notation "a19" => m (Thread.loc (c : Thread nD τ) main_arg19)

/-- Region 2's output: the targets' features after the first layer. -/
theorem s3 (H : Forms) : W6 m ρ c (Proc.devRef .tc main_v48) = Cert.ReferenceIdeal.Read.val_main_v50 (F := Ideal) a0 a2 a3 a4 a5 a8 a9 := by
  refine (W6_arr m ρ c 3).trans ?_
  rw [H.out2]
  have e0 : V5 m ρ c (Pipeline.arrRef spec2 0) = Cert.ReferenceIdeal.Read.val_main_v26 (F := Ideal) a0 a2 a3 a4 a5 := by
    show W5 m ρ c (Proc.devRef .tc main_v33) = _
    exact s2a m ρ c H
  have e1 : V5 m ρ c (Pipeline.arrRef spec2 1) = a8 := by
    show W5 m ρ c (Proc.devRef .tc main_arg8) = _
    carry
  have e2 : V5 m ρ c (Pipeline.arrRef spec2 2) = shapeCast S1x128 a9 shapeCasts_S128_S1x128 := by
    show W5 m ρ c (Proc.devRef .tc main_v47) = _
    carry
  rw [e0, e1, e2]
  unfold Cert.ReferenceIdeal.Read.val_main_v50 Cert.ReferenceIdeal.Read.val_main_call0_v0 Cert.ReferenceIdeal.Read.val_main_call0_cst Cert.ReferenceIdeal.Read.val_main_v49 Cert.ReferenceIdeal.Read.val_main_v48 Cert.ReferenceIdeal.Read.val_main_v47 Cert.ReferenceIdeal.Read.val_main_v46
  exact Cert.DenseBridge.affine_relu_host _ rfl (by decide) none _ _ _ _ _ _ _

/-- Region 3's output: the ligands' features after the first layer. -/
theorem s4 (H : Forms) : W8 m ρ c (Proc.devRef .tc main_v50) = Cert.ReferenceIdeal.Read.val_main_v55 (F := Ideal) a1 a2 a3 a6 a7 a10 a11 := by
  refine (W8_arr m ρ c 3).trans ?_
  rw [H.out3]
  have e0 : V7 m ρ c (Pipeline.arrRef spec3 0) = Cert.ReferenceIdeal.Read.val_main_v45 (F := Ideal) a1 a2 a3 a6 a7 := by
    show W7 m ρ c (Proc.devRef .tc main_v46) = _
    dsimp only [W7, hostOps3]; after_results_simp
    rw [W6_of_ne _ _ _ _ (by decide)]
    exact s2b m ρ c H
  have e1 : V7 m ρ c (Pipeline.arrRef spec3 1) = a10 := by
    show W7 m ρ c (Proc.devRef .tc main_arg10) = _
    carry
  have e2 : V7 m ρ c (Pipeline.arrRef spec3 2) = shapeCast S1x128 a11 shapeCasts_S128_S1x128 := by
    show W7 m ρ c (Proc.devRef .tc main_v49) = _
    carry
  rw [e0, e1, e2]
  unfold Cert.ReferenceIdeal.Read.val_main_v55 Cert.ReferenceIdeal.Read.val_main_call1_v0 Cert.ReferenceIdeal.Read.val_main_call1_cst Cert.ReferenceIdeal.Read.val_main_v54 Cert.ReferenceIdeal.Read.val_main_v53 Cert.ReferenceIdeal.Read.val_main_v52 Cert.ReferenceIdeal.Read.val_main_v51
  exact Cert.DenseBridge.affine_relu_host _ rfl (by decide) none _ _ _ _ _ _ _

end Cert.KernelIdeal.Chain

end
-- ==== Proof.ChainD.lean ====
/-
  The second aggregation: the same gathers, scatter-adds and scaling as the first, applied to the features the first
  layer left; the reciprocal degree columns are those computed once before the first layer, the reference recomputes
  max(degree, 1) and divides.
-/
import proofs.«132711_j11063835754497_2_alg».proof.Proof.ChainC

set_option maxRecDepth 16384
set_option maxHeartbeats 4000000

noncomputable section

namespace Cert.KernelIdeal.Chain

open Cert.KernelIdeal Cert.KernelIdeal.Gen
open Idealize.ShloMosaic Idealize.ShloMosaic.TcCoe
open Idealize.SL.Sem

variable (m : (ℓ : Loc nD τ sig) → Buf (Elt Ideal) ℓ) (ρ : Dev nD → PrngReg) (c : Dev nD)

set_option quotPrecheck false
local notation "a0" => m (Thread.loc (c : Thread nD τ) main_arg0)
local notation "a1" => m (Thread.loc (c : Thread nD τ) main_arg1)
local notation "a2" => m (Thread.loc (c : Thread nD τ) main_arg2)
local notation "a3" => m (Thread.loc (c : Thread nD τ) main_arg3)
local notation "a4" => m (Thread.loc (c : Thread nD τ) main_arg4)
local notation "a5" => m (Thread.loc (c : Thread nD τ) main_arg5)
local notation "a6" => m (Thread.loc (c : Thread nD τ) main_arg6)
local notation "a7" => m (Thread.loc (c : Thread nD τ) main_arg7)
local notation "a8" => m (Thread.loc (c : Thread nD τ) main_arg8)
local notation "a9" => m (Thread.loc (c : Thread nD τ) main_arg9)
local notation "a10" => m (Thread.loc (c : Thread nD τ) main_arg10)
local notation "a11" => m (Thread.loc (c : Thread nD τ) main_arg11)
local notation "a12" => m (Thread.loc (c : Thread nD τ) main_arg12)
local notation "a13" => m (Thread.loc (c : Thread nD τ) main_arg13)
local notation "a14" => m (Thread.loc (c : Thread nD τ) main_arg14)
local notation "a15" => m (Thread.loc (c : Thread nD τ) main_arg15)
local notation "a16" => m (Thread.loc (c : Thread nD τ) main_arg16)
local notation "a17" => m (Thread.loc (c : Thread nD τ) main_arg17)
local notation "a18" => m (Thread.loc (c : Thread nD τ) main_arg18)
local notation "a19" => m (Thread.loc (c : Thread nD τ) main_arg19)

/-- The mean of the layer-one ligand rows landing on each target node, as region 4 finds it. -/
theorem s5a (H : Forms) : W9 m ρ c (Proc.devRef .tc main_v63) = Cert.ReferenceIdeal.Read.val_main_v74 (F := Ideal) a1 a2 a3 a6 a7 a10 a11 := by
  have k1 : W8 m ρ c (Proc.devRef .tc main_v50) = Cert.ReferenceIdeal.Read.val_main_v55 (F := Ideal) a1 a2 a3 a6 a7 a10 a11 := s4 m ρ c H
  have k2 : W8 m ρ c (Proc.devRef .tc main_arg2) = a2 := by carry
  have k3 : W8 m ρ c (Proc.devRef .tc main_arg3) = a3 := by carry
  have k15 : W8 m ρ c (Proc.devRef .tc main_v15) = broadcastInDim S20000x1 ![0] bcast_S20000_S20000x1_0 (Host.divf (broadcastInDim S20000 ![] bcast_S_S20000 (constant (F := Ideal) S_ .f32 0x3F800000#32)) (maximumf (Host.scatterAdd scatter_S20000_S1000000x1_S1000000_n_0_0_1 (broadcastInDim S20000 ![] bcast_S_S20000 (constant (F := Ideal) S_ .f32 0x00000000#32)) (broadcastInDim S1000000x1 ![0] bcast_S1000000_S1000000x1_0 a3) (broadcastInDim S1000000 ![] bcast_S_S1000000 (constant (F := Ideal) S_ .f32 0x3F800000#32))) (broadcastInDim S20000 ![] bcast_S_S20000 (constant (F := Ideal) S_ .f32 0x3F800000#32)))) := by
    rw [W8_of_ne _ _ _ _ (by decide)]
    dsimp only [W7, hostOps3]; after_results_simp
    rw [W6_of_ne _ _ _ _ (by decide)]
    exact inv_t m ρ c
  dsimp only [W9, hostOps4]
  after_results_simp
  rw [k1, k2, k3, k15]
  rw [Cert.MeanBridge.mean_eq]
  unfold Cert.ReferenceIdeal.Read.val_main_v74 Cert.ReferenceIdeal.Read.val_main_v73 Cert.ReferenceIdeal.Read.val_main_v72 Cert.ReferenceIdeal.Read.val_main_v71 Cert.ReferenceIdeal.Read.val_main_v70 Cert.ReferenceIdeal.Read.val_main_cst_15 Cert.ReferenceIdeal.Read.val_main_v69 Cert.ReferenceIdeal.Read.val_main_v68 Cert.ReferenceIdeal.Read.val_main_v67 Cert.ReferenceIdeal.Read.val_main_cst_14 Cert.ReferenceIdeal.Read.val_main_v66 Cert.ReferenceIdeal.Read.val_main_cst_13 Cert.ReferenceIdeal.Read.val_main_v65 Cert.ReferenceIdeal.Read.val_main_v64 Cert.ReferenceIdeal.Read.val_main_v63 Cert.ReferenceIdeal.Read.val_main_cst_12 Cert.ReferenceIdeal.Read.val_main_v62 Cert.ReferenceIdeal.Read.val_main_v61 Cert.ReferenceIdeal.Read.val_main_v60 Cert.ReferenceIdeal.Read.val_main_v59 Cert.ReferenceIdeal.Read.val_main_v58 Cert.ReferenceIdeal.Read.val_main_c_11 Cert.ReferenceIdeal.Read.val_main_v57 Cert.ReferenceIdeal.Read.val_main_v56 Cert.ReferenceIdeal.Read.val_main_c_10
  rfl

/-- The mean of the layer-one target rows landing on each ligand node, as region 5 finds it. -/
theorem s5b (H : Forms) : W9 m ρ c (Proc.devRef .tc main_v76) = Cert.ReferenceIdeal.Read.val_main_v93 (F := Ideal) a0 a2 a3 a4 a5 a8 a9 := by
  have k1 : W8 m ρ c (Proc.devRef .tc main_v48) = Cert.ReferenceIdeal.Read.val_main_v50 (F := Ideal) a0 a2 a3 a4 a5 a8 a9 := by
    rw [W8_of_ne _ _ _ _ (by decide)]
    dsimp only [W7, hostOps3]; after_results_simp
    exact s3 m ρ c H
  have k2 : W8 m ρ c (Proc.devRef .tc main_arg2) = a2 := by carry
  have k3 : W8 m ρ c (Proc.devRef .tc main_arg3) = a3 := by carry
  have k20 : W8 m ρ c (Proc.devRef .tc main_v20) = broadcastInDim S100000x1 ![0] bcast_S100000_S100000x1_0 (Host.divf (broadcastInDim S100000 ![] bcast_S_S100000 (constant (F := Ideal) S_ .f32 0x3F800000#32)) (maximumf (Host.scatterAdd scatter_S100000_S1000000x1_S1000000_n_0_0_1 (broadcastInDim S100000 ![] bcast_S_S100000 (constant (F := Ideal) S_ .f32 0x00000000#32)) (broadcastInDim S1000000x1 ![0] bcast_S1000000_S1000000x1_0 a2) (broadcastInDim S1000000 ![] bcast_S_S1000000 (constant (F := Ideal) S_ .f32 0x3F800000#32))) (broadcastInDim S100000 ![] bcast_S_S100000 (constant (F := Ideal) S_ .f32 0x3F800000#32)))) := by
    rw [W8_of_ne _ _ _ _ (by decide)]
    dsimp only [W7, hostOps3]; after_results_simp
    rw [W6_of_ne _ _ _ _ (by decide)]
    exact inv_l m ρ c
  dsimp only [W9, hostOps4]
  after_results_simp
  rw [k1, k2, k3, k20]
  rw [Cert.MeanBridge.mean_eq]
  unfold Cert.ReferenceIdeal.Read.val_main_v93 Cert.ReferenceIdeal.Read.val_main_v92 Cert.ReferenceIdeal.Read.val_main_v91 Cert.ReferenceIdeal.Read.val_main_v90 Cert.ReferenceIdeal.Read.val_main_v89 Cert.ReferenceIdeal.Read.val_main_cst_21 Cert.ReferenceIdeal.Read.val_main_v88 Cert.ReferenceIdeal.Read.val_main_v87 Cert.ReferenceIdeal.Read.val_main_v86 Cert.ReferenceIdeal.Read.val_main_cst_20 Cert.ReferenceIdeal.Read.val_main_v85 Cert.ReferenceIdeal.Read.val_main_cst_19 Cert.ReferenceIdeal.Read.val_main_v84 Cert.ReferenceIdeal.Read.val_main_v83 Cert.ReferenceIdeal.Read.val_main_v82 Cert.ReferenceIdeal.Read.val_main_cst_18 Cert.ReferenceIdeal.Read.val_main_v81 Cert.ReferenceIdeal.Read.val_main_v80 Cert.ReferenceIdeal.Read.val_main_v79 Cert.ReferenceIdeal.Read.val_main_v78 Cert.ReferenceIdeal.Read.val_main_v77 Cert.ReferenceIdeal.Read.val_main_c_17 Cert.ReferenceIdeal.Read.val_main_v76 Cert.ReferenceIdeal.Read.val_main_v75 Cert.ReferenceIdeal.Read.val_main_c_16
  rfl

end Cert.KernelIdeal.Chain

end
-- ==== Proof.ChainE.lean ====
/-
  The second message-passing layer: regions 4 and 5 apply W2f, b2f and W2r, b2r to the second aggregation and clamp
  at zero — the reference's relu(agg · W + b) again.
-/
import proofs.«132711_j11063835754497_2_alg».proof.Proof.ChainD

set_option maxRecDepth 16384
set_option maxHeartbeats 4000000

noncomputable section

namespace Cert.KernelIdeal.Chain

open Cert.KernelIdeal Cert.KernelIdeal.Gen
open Idealize.ShloMosaic Idealize.ShloMosaic.TcCoe
open Idealize.SL.Sem

variable (m : (ℓ : Loc nD τ sig) → Buf (Elt Ideal) ℓ) (ρ : Dev nD → PrngReg) (c : Dev nD)

set_option quotPrecheck false
local notation "a0" => m (Thread.loc (c : Thread nD τ) main_arg0)
local notation "a1" => m (Thread.loc (c : Thread nD τ) main_arg1)
local notation "a2" => m (Thread.loc (c : Thread nD τ) main_arg2)
local notation "a3" => m (Thread.loc (c : Thread nD τ) main_arg3)
local notation "a4" => m (Thread.loc (c : Thread nD τ) main_arg4)
local notation "a5" => m (Thread.loc (c : Thread nD τ) main_arg5)
local notation "a6" => m (Thread.loc (c : Thread nD τ) main_arg6)
local notation "a7" => m (Thread.loc (c : Thread nD τ) main_arg7)
local notation "a8" => m (Thread.loc (c : Thread nD τ) main_arg8)
local notation "a9" => m (Thread.loc (c : Thread nD τ) main_arg9)
local notation "a10" => m (Thread.loc (c : Thread nD τ) main_arg10)
local notation "a11" => m (Thread.loc (c : Thread nD τ) main_arg11)
local notation "a12" => m (Thread.loc (c : Thread nD τ) main_arg12)
local notation "a13" => m (Thread.loc (c : Thread nD τ) main_arg13)
local notation "a14" => m (Thread.loc (c : Thread nD τ) main_arg14)
local notation "a15" => m (Thread.loc (c : Thread nD τ) main_arg15)
local notation "a16" => m (Thread.loc (c : Thread nD τ) main_arg16)
local notation "a17" => m (Thread.loc (c : Thread nD τ) main_arg17)
local notation "a18" => m (Thread.loc (c : Thread nD τ) main_arg18)
local notation "a19" => m (Thread.loc (c : Thread nD τ) main_arg19)

/-- Region 4's output: the targets' features after the second layer. -/
theorem s6 (H : Forms) : W10 m ρ c (Proc.devRef .tc main_v78) = Cert.ReferenceIdeal.Read.val_main_v98 (F := Ideal) a1 a2 a3 a6 a7 a10 a11 a12 a13 := by
  refine (W10_arr m ρ c 3).trans ?_
  rw [H.out4]
  have e0 : V9 m ρ c (Pipeline.arrRef spec4 0) = Cert.ReferenceIdeal.Read.val_main_v74 (F := Ideal) a1 a2 a3 a6 a7 a10 a11 := by
    show W9 m ρ c (Proc.devRef .tc main_v63) = _
    exact s5a m ρ c H
  have e1 : V9 m ρ c (Pipeline.arrRef spec4 1) = a12 := by
    show W9 m ρ c (Proc.devRef .tc main_arg12) = _
    carry
  have e2 : V9 m ρ c (Pipeline.arrRef spec4 2) = shapeCast S1x128 a13 shapeCasts_S128_S1x128 := by
    show W9 m ρ c (Proc.devRef .tc main_v77) = _
    carry
  rw [e0, e1, e2]
  unfold Cert.ReferenceIdeal.Read.val_main_v98 Cert.ReferenceIdeal.Read.val_main_call2_v0 Cert.ReferenceIdeal.Read.val_main_call2_cst Cert.ReferenceIdeal.Read.val_main_v97 Cert.ReferenceIdeal.Read.val_main_v96 Cert.ReferenceIdeal.Read.val_main_v95 Cert.ReferenceIdeal.Read.val_main_v94
  exact Cert.DenseBridge.affine_relu_host _ rfl (by decide) none _ _ _ _ _ _ _

/-- Region 5's output: the ligands' features after the second layer. -/
theorem s7 (H : Forms) : W12 m ρ c (Proc.devRef .tc main_v80) = Cert.ReferenceIdeal.Read.val_main_v103 (F := Ideal) a0 a2 a3 a4 a5 a8 a9 a14 a15 := by
  refine (W12_arr m ρ c 3).trans ?_
  rw [H.out5]
  have e0 : V11 m ρ c (Pipeline.arrRef spec5 0) = Cert.ReferenceIdeal.Read.val_main_v93 (F := Ideal) a0 a2 a3 a4 a5 a8 a9 := by
    show W11 m ρ c (Proc.devRef .tc main_v76) = _
    dsimp only [W11, hostOps5]; after_results_simp
    rw [W10_of_ne _ _ _ _ (by decide)]
    exact s5b m ρ c H
  have e1 : V11 m ρ c (Pipeline.arrRef spec5 1) = a14 := by
    show W11 m ρ c (Proc.devRef .tc main_arg14) = _
    carry
  have e2 : V11 m ρ c (Pipeline.arrRef spec5 2) = shapeCast S1x128 a15 shapeCasts_S128_S1x128 := by
    show W11 m ρ c (Proc.devRef .tc main_v79) = _
    carry
  rw [e0, e1, e2]
  unfold Cert.ReferenceIdeal.Read.val_main_v103 Cert.ReferenceIdeal.Read.val_main_call3_v0 Cert.ReferenceIdeal.Read.val_main_call3_cst Cert.ReferenceIdeal.Read.val_main_v102 Cert.ReferenceIdeal.Read.val_main_v101 Cert.ReferenceIdeal.Read.val_main_v100 Cert.ReferenceIdeal.Read.val_main_v99
  exact Cert.DenseBridge.affine_relu_host _ rfl (by decide) none _ _ _ _ _ _ _

end Cert.KernelIdeal.Chain

end
-- ==== Proof.ChainF.lean ====
/-
  The node-level projections of the readout. The weight matrix of the readout's first layer has 256 rows: its
  upper half acts on the ligand features, its lower half on the target features. Region 6 multiplies the ligands'
  final features by the upper half, region 7 the targets' by the lower half, each with a zero bias row.
-/
import proofs.«132711_j11063835754497_2_alg».proof.Proof.ChainE

set_option maxRecDepth 16384
set_option maxHeartbeats 4000000

noncomputable section

namespace Cert.KernelIdeal.Chain

open Cert.KernelIdeal Cert.KernelIdeal.Gen
open Idealize.ShloMosaic Idealize.ShloMosaic.TcCoe
open Idealize.SL.Sem

variable (m : (ℓ : Loc nD τ sig) → Buf (Elt Ideal) ℓ) (ρ : Dev nD → PrngReg) (c : Dev nD)

set_option quotPrecheck false
local notation "a0" => m (Thread.loc (c : Thread nD τ) main_arg0)
local notation "a1" => m (Thread.loc (c : Thread nD τ) main_arg1)
local notation "a2" => m (Thread.loc (c : Thread nD τ) main_arg2)
local notation "a3" => m (Thread.loc (c : Thread nD τ) main_arg3)
local notation "a4" => m (Thread.loc (c : Thread nD τ) main_arg4)
local notation "a5" => m (Thread.loc (c : Thread nD τ) main_arg5)
local notation "a6" => m (Thread.loc (c : Thread nD τ) main_arg6)
local notation "a7" => m (Thread.loc (c : Thread nD τ) main_arg7)
local notation "a8" => m (Thread.loc (c : Thread nD τ) main_arg8)
local notation "a9" => m (Thread.loc (c : Thread nD τ) main_arg9)
local notation "a10" => m (Thread.loc (c : Thread nD τ) main_arg10)
local notation "a11" => m (Thread.loc (c : Thread nD τ) main_arg11)
local notation "a12" => m (Thread.loc (c : Thread nD τ) main_arg12)
local notation "a13" => m (Thread.loc (c : Thread nD τ) main_arg13)
local notation "a14" => m (Thread.loc (c : Thread nD τ) main_arg14)
local notation "a15" => m (Thread.loc (c : Thread nD τ) main_arg15)
local notation "a16" => m (Thread.loc (c : Thread nD τ) main_arg16)
local notation "a17" => m (Thread.loc (c : Thread nD τ) main_arg17)
local notation "a18" => m (Thread.loc (c : Thread nD τ) main_arg18)
local notation "a19" => m (Thread.loc (c : Thread nD τ) main_arg19)

/-- Region 6's output: the ligand features times the upper half of Wp1 (plus a zero row). -/
theorem s8 (H : Forms) : W14 m ρ c (Proc.devRef .tc main_v85)
    = Cert.AffineRow.rowAffine (R := 100000) (K := 128) (N := 128) (Cert.ReferenceIdeal.Read.val_main_v103 (F := Ideal) a0 a2 a3 a4 a5 a8 a9 a14 a15)
        (extractStridedSlice S128x128 ![0, 0] a16 slices_S256x128_S128x128_0_0) (shapeCast S1x128 (broadcastInDim S128 ![] bcast_S_S128 (constant (F := Ideal) S_ .f32 0x00000000#32)) shapeCasts_S128_S1x128) := by
  refine (W14_arr m ρ c 3).trans ?_
  rw [H.out6]
  have e0 : V13 m ρ c (Pipeline.arrRef spec6 0) = Cert.ReferenceIdeal.Read.val_main_v103 (F := Ideal) a0 a2 a3 a4 a5 a8 a9 a14 a15 := by
    show W13 m ρ c (Proc.devRef .tc main_v80) = _
    dsimp only [W13, hostOps6]; after_results_simp
    exact s7 m ρ c H
  have e1 : V13 m ρ c (Pipeline.arrRef spec6 1) = extractStridedSlice S128x128 ![0, 0] a16 slices_S256x128_S128x128_0_0 := by
    show W13 m ρ c (Proc.devRef .tc main_v81) = _
    carry
  have e2 : V13 m ρ c (Pipeline.arrRef spec6 2) = shapeCast S1x128 (broadcastInDim S128 ![] bcast_S_S128 (constant (F := Ideal) S_ .f32 0x00000000#32)) shapeCasts_S128_S1x128 := by
    show W13 m ρ c (Proc.devRef .tc main_v84) = _
    carry
  rw [e0, e1, e2]

/-- Region 7's output: the target features times the lower half of Wp1 (plus a zero row). -/
theorem s9 (H : Forms) : W16 m ρ c (Proc.devRef .tc main_v87)
    = Cert.AffineRow.rowAffine (R := 20000) (K := 128) (N := 128) (Cert.ReferenceIdeal.Read.val_main_v98 (F := Ideal) a1 a2 a3 a6 a7 a10 a11 a12 a13)
        (extractStridedSlice S128x128 ![128, 0] a16 slices_S256x128_S128x128_128_0) (shapeCast S1x128 (broadcastInDim S128 ![] bcast_S_S128 (constant (F := Ideal) S_ .f32 0x00000000#32)) shapeCasts_S128_S1x128) := by
  refine (W16_arr m ρ c 3).trans ?_
  rw [H.out7]
  have e0 : V15 m ρ c (Pipeline.arrRef spec7 0) = Cert.ReferenceIdeal.Read.val_main_v98 (F := Ideal) a1 a2 a3 a6 a7 a10 a11 a12 a13 := by
    show W15 m ρ c (Proc.devRef .tc main_v78) = _
    dsimp only [W15, hostOps7]; after_results_simp
    rw [W14_of_ne _ _ _ _ (by decide)]
    dsimp only [W13, hostOps6]; after_results_simp
    rw [W12_of_ne _ _ _ _ (by decide)]
    dsimp only [W11, hostOps5]; after_results_simp
    exact s6 m ρ c H
  have e1 : V15 m ρ c (Pipeline.arrRef spec7 1) = extractStridedSlice S128x128 ![128, 0] a16 slices_S256x128_S128x128_128_0 := by
    show W15 m ρ c (Proc.devRef .tc main_v82) = _
    carry
  have e2 : V15 m ρ c (Pipeline.arrRef spec7 2) = shapeCast S1x128 (broadcastInDim S128 ![] bcast_S_S128 (constant (F := Ideal) S_ .f32 0x00000000#32)) shapeCasts_S128_S1x128 := by
    show W15 m ρ c (Proc.devRef .tc main_v86) = _
    carry
  rw [e0, e1, e2]

end Cert.KernelIdeal.Chain

end
-- ==== Proof.LibGather.lean ====
/-
  The host's gather of rows, read at one element, for the two layouts an indexed read `x[idx]` along the leading axis
  lowers to when every start index is a one-element index vector (start indices of shape N × 1).

  * Rows (`gather_rows_apply`): the operand is K × C, the result N × C; the row axis is collapsed, the lane axis is the
    one offset axis, and the slice is one whole row. Result element (n, l) is the operand's element (r, l), where r is
    the n-th start index read as a signed integer and clamped into [0, K − 1].
  * Vector (`gather_vec_apply`): the operand is a vector of length K, the result a vector of length N; the one axis is
    collapsed and the slice is one entry. Result entry n is the operand's entry r, with r as above.

  The clamp is StableHLO's: a start index is moved into the range where the slice fits, so a negative word reads row 0
  and a word of K or more reads row K − 1.
-/
import Idealize.ShloMosaic.PureOps.ShapeOps
import Idealize.ShloMosaic.PureOps.Dims
import Idealize.ShloMosaic.Lib.ValueIdx

noncomputable section

namespace Cert.LibGather

open Idealize.ShloMosaic Idealize.ShloMosaic.ValueIdx

variable {N K C w : Nat}

section Rows

variable (d : GatherDims ⟨2, ![K, C]⟩ ⟨2, ![N, 1]⟩ ⟨2, ![N, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])

include h1 h2 h3 h4 h5 h6 h7 in
/-- On the row axis the slice starts at the row's start index, read signed and clamped into [0, K − 1]. -/
theorem start_rows0 (j : (⟨2, ![N, C]⟩ : Shape).Idx) (idx : IVec ⟨2, ![N, 1]⟩ w) :
    d.start j idx 0 = min (idx (ix2 (j 0) 0)).toInt.toNat (K - 1) := by
  obtain ⟨od, cd, ob, sb, sm, iv, ss, wf⟩ := d
  subst h1 h2 h3 h4 h5 h6 h7
  unfold GatherDims.start
  rw [dif_pos (by simp)]
  refine congrArg (fun z => min (idx z).toInt.toNat (K - 1)) ?_
  funext b
  unfold GatherDims.siIdx
  match b with
  | ⟨0, _⟩ => simp; rfl
  | ⟨1, _⟩ => simp; rfl

include h1 h2 h3 h4 h5 h6 h7 in
/-- The lane axis is not in the start index map: the slice starts at lane 0. -/
theorem start_rows1 (j : (⟨2, ![N, C]⟩ : Shape).Idx) (idx : IVec ⟨2, ![N, 1]⟩ w) : d.start j idx 1 = 0 := by
  obtain ⟨od, cd, ob, sb, sm, iv, ss, wf⟩ := d
  subst h1 h2 h3 h4 h5 h6 h7
  unfold GatherDims.start
  rw [dif_neg]
  simp

include h1 h2 h3 h4 h5 h6 h7 in
/-- The row axis is collapsed: no offset on it. -/
theorem offCoord_rows0 (j : (⟨2, ![N, C]⟩ : Shape).Idx) : d.offCoord j 0 = 0 := by
  obtain ⟨od, cd, ob, sb, sm, iv, ss, wf⟩ := d
  subst h1 h2 h3 h4 h5 h6 h7
  unfold GatherDims.offCoord
  rw [dif_neg]
  simp [GatherDims.sKept, Shape.kept]

include h1 h2 h3 h4 h5 h6 h7 in
/-- The lane axis is the offset axis: the offset is the result's lane. -/
theorem offCoord_rows1 (j : (⟨2, ![N, C]⟩ : Shape).Idx) : d.offCoord j 1 = (j 1).val := by
  obtain ⟨od, cd, ob, sb, sm, iv, ss, wf⟩ := d
  subst h1 h2 h3 h4 h5 h6 h7
  unfold GatherDims.offCoord
  rw [dif_pos (by simp [GatherDims.sKept, Shape.kept])]
  rfl

include h1 h2 h3 h4 h5 h6 h7 in
/-- THE ROW GATHER READ AT (n, l): the operand at row "start index n, read signed, clamped into [0, K − 1]", lane l. -/
theorem gather_rows_apply (hK : 0 < K) {α : Type} (x : (⟨2, ![K, C]⟩ : Shape).Idx → α) (idx : IVec ⟨2, ![N, 1]⟩ w)
    (n : Fin N) (l : Fin C) :
    Host.gather d x idx (ix2 n l) = x (ix2 ⟨min (idx (ix2 n 0)).toInt.toNat (K - 1), by omega⟩ l) := by
  have hs0 := start_rows0 d h1 h2 h3 h4 h5 h6 h7 (ix2 n l) idx
  have hs1 := start_rows1 d h1 h2 h3 h4 h5 h6 h7 (ix2 n l) idx
  have ho0 := offCoord_rows0 d h1 h2 h3 h4 h5 h6 h7 (ix2 n l)
  have ho1 := offCoord_rows1 d h1 h2 h3 h4 h5 h6 h7 (ix2 n l)
  have hb : ∀ a, d.batchCoord (ix2 n l) a = 0 := fun a =>
    d.batchCoord_eq_zero _ a (by rw [h3]; exact List.not_mem_nil)
  unfold Host.gather
  congr 1
  funext a
  refine Fin.ext ?_
  match a with
  | ⟨0, _⟩ =>
    show d.start (ix2 n l) idx 0 + d.batchCoord (ix2 n l) 0 + d.offCoord (ix2 n l) 0 = _
    rw [hs0, hb, ho0]; rfl
  | ⟨1, _⟩ =>
    show d.start (ix2 n l) idx 1 + d.batchCoord (ix2 n l) 1 + d.offCoord (ix2 n l) 1 = _
    rw [hs1, hb, ho1]; show 0 + 0 + l.val = l.val; omega

end Rows

section Vec

variable (d : GatherDims ⟨1, ![K]⟩ ⟨2, ![N, 1]⟩ ⟨1, ![N]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])

include h1 h2 h3 h4 h5 h6 h7 in
/-- On the vector's one axis the slice starts at the start index, read signed and clamped into [0, K − 1]. -/
theorem start_vec0 (j : (⟨1, ![N]⟩ : Shape).Idx) (idx : IVec ⟨2, ![N, 1]⟩ w) :
    d.start j idx 0 = min (idx (ix2 (j 0) 0)).toInt.toNat (K - 1) := by
  obtain ⟨od, cd, ob, sb, sm, iv, ss, wf⟩ := d
  subst h1 h2 h3 h4 h5 h6 h7
  unfold GatherDims.start
  rw [dif_pos (by simp)]
  refine congrArg (fun z => min (idx z).toInt.toNat (K - 1)) ?_
  funext b
  unfold GatherDims.siIdx
  match b with
  | ⟨0, _⟩ => simp; rfl
  | ⟨1, _⟩ => simp; rfl

include h1 h2 h3 h4 h5 h6 h7 in
/-- The one axis is collapsed: no offset on it. -/
theorem offCoord_vec0 (j : (⟨1, ![N]⟩ : Shape).Idx) : d.offCoord j 0 = 0 := by
  obtain ⟨od, cd, ob, sb, sm, iv, ss, wf⟩ := d
  subst h1 h2 h3 h4 h5 h6 h7
  unfold GatherDims.offCoord
  rw [dif_neg]
  simp [GatherDims.sKept, Shape.kept]

include h1 h2 h3 h4 h5 h6 h7 in
/-- THE VECTOR GATHER READ AT n: the operand at entry "start index n, read signed, clamped into [0, K − 1]". -/
theorem gather_vec_apply (hK : 0 < K) {α : Type} (x : (⟨1, ![K]⟩ : Shape).Idx → α) (idx : IVec ⟨2, ![N, 1]⟩ w)
    (n : Fin N) :
    Host.gather d x idx (ix1 n) = x (ix1 ⟨min (idx (ix2 n 0)).toInt.toNat (K - 1), by omega⟩) := by
  have hs0 := start_vec0 d h1 h2 h3 h4 h5 h6 h7 (ix1 n) idx
  have ho0 := offCoord_vec0 d h1 h2 h3 h4 h5 h6 h7 (ix1 n)
  have hb : ∀ a, d.batchCoord (ix1 n) a = 0 := fun a =>
    d.batchCoord_eq_zero _ a (by rw [h3]; exact List.not_mem_nil)
  unfold Host.gather
  congr 1
  funext a
  refine Fin.ext ?_
  match a with
  | ⟨0, _⟩ =>
    show d.start (ix1 n) idx 0 + d.batchCoord (ix1 n) 0 + d.offCoord (ix1 n) 0 = _
    rw [hs0, hb, ho0]; rfl

end Vec

end Cert.LibGather

end
-- ==== Proof.LibLaneConcat.lean ====
/-
  Two matrices of the same height and 128 lanes each, joined along the lanes into 256 lanes, read at an entry:
  lanes below 128 come from the first matrix, the others from the second with the lane shifted down by 128.
-/
import Idealize.ShloMosaic.Lib.Pipeline.Value
import Idealize.ShloMosaic.Lib.ValueIdx

noncomputable section

namespace Cert.LaneConcat

open Idealize.ShloMosaic Idealize.ShloMosaic.ValueIdx

variable {α : Type} {R : Nat}

/-- The joined matrix at (r, k): the first piece at (r, k) for k < 128, else the second piece at (r, k − 128). -/
theorem concat_apply (x1 x2 : (⟨2, ![R, 128]⟩ : Shape).Idx → α)
    (h : Shape.Concatenates [(⟨2, ![R, 128]⟩ : Shape), (⟨2, ![R, 128]⟩ : Shape)] (⟨2, ![R, 256]⟩ : Shape) 1)
    (r : Fin R) (k : Fin 256) :
    concatenate (⟨2, ![R, 256]⟩ : Shape) 1 [⟨(⟨2, ![R, 128]⟩ : Shape), x1⟩, ⟨(⟨2, ![R, 128]⟩ : Shape), x2⟩] h (ix2 r k)
      = if hk : k.val < 128 then x1 (ix2 r ⟨k.val, hk⟩)
        else x2 (ix2 r ⟨k.val - 128, by have := k.isLt; omega⟩) := by
  split
  · rename_i hk
    exact concatenate_pair_apply_left 1 x1 x2 h (ix2 r k) rfl (ix2 r ⟨k.val, hk⟩) (fun b => by
      match b with
      | ⟨0, _⟩ => rfl
      | ⟨1, _⟩ => rfl)
  · rename_i hk
    exact concatenate_pair_apply_right 1 x1 x2 h (ix2 r k) rfl rfl (ix2 r ⟨k.val - 128, by have := k.isLt; omega⟩)
      (fun b hb => by
        match b with
        | ⟨0, _⟩ => rfl
        | ⟨1, _⟩ => exact absurd rfl hb)
      (by show (k.val - 128) + 128 = k.val; omega)

end Cert.LaneConcat

end
-- ==== Proof.ReadoutCore.lean ====
/-
  The per-edge readout head, computed two ways.

  An edge e joins a ligand node s(e) and a target node d(e). With L the ligand features (128 lanes), T the target
  features (128 lanes), W a 256×128 matrix whose top half W↑ meets the ligand lanes and whose bottom half W↓ meets
  the target lanes, a bias b₁ (128 lanes), a column w₂ (128×1) and a scalar bias b₂:

    * per edge: the two gathered rows are joined along the lanes into 256 lanes, multiplied by W, the bias b₁ is
      added, the result clamped at zero, multiplied by w₂, and b₂ added;
    * per node first: every ligand row is multiplied by W↑ and every target row by W↓ (each plus a zero row), the
      projected rows are gathered, added, the bias b₁ is added, the result clamped at zero, weighed lane by lane by
      w₂ read as a row, summed, and b₂ added.

  They agree because, at edge e and lane l,

      ∑_{k<256} comb(e,k) · W(k,l) = ∑_{c<128} L(s(e),c) · W(c,l) + ∑_{c<128} T(d(e),c) · W(128+c,l),

  a sum over 256 indices split into its two halves (the extended reals are a commutative additive monoid, so no
  finiteness is asked), because a gather of rows reads the same row of L and of L · W↑ (the row read depends only on
  the start index and on the number of rows), and because adding a zero row changes nothing.
-/
import Idealize.ShloMosaic.PureOps.Ideal.Laws
import Idealize.ShloMosaic.Lib.Pipeline.Value
import Idealize.ShloMosaic.Lib.ValueIdx
import Idealize.ShloMosaic.Lib.ValueLayout
import Idealize.ShloMosaic.Lib.IdealHost
import proofs.«132711_j11063835754497_2_alg».proof.Proof.EdgeSpec
import proofs.«132711_j11063835754497_2_alg».proof.Proof.LibAffineRow
import proofs.«132711_j11063835754497_2_alg».proof.Proof.LibGather
import proofs.«132711_j11063835754497_2_alg».proof.Proof.LibLaneConcat
import proofs.«132711_j11063835754497_2_alg».proof.Proof.LibProduct
import proofs.«132711_j11063835754497_2_alg».proof.Proof.LibLinear
import proofs.«132711_j11063835754497_2_alg».proof.Proof.LibCombine
import proofs.«132711_j11063835754497_2_alg».proof.Proof.LibRowVector
import proofs.«132711_j11063835754497_2_alg».proof.Proof.LibRowOfVector

noncomputable section

open scoped BigOperators

namespace Cert.Readout

open Idealize.ShloMosaic Idealize.ShloMosaic.ValueIdx

/-- The dimension numbers of a gather of whole rows: one start index per result row, the row axis collapsed, the
    lane axis the one offset axis, one whole row per slice. -/
structure IsRowGather {N K C : Nat} (d : GatherDims ⟨2, ![K, C]⟩ ⟨2, ![N, 1]⟩ ⟨2, ![N, C]⟩) : Prop where
  offsetDims : d.offsetDims = [1]
  collapsedSliceDims : d.collapsedSliceDims = [0]
  operandBatchingDims : d.operandBatchingDims = []
  startIndicesBatchingDims : d.startIndicesBatchingDims = []
  startIndexMap : d.startIndexMap = [0]
  indexVectorDim : d.indexVectorDim = 1
  sliceSizes : d.sliceSizes = ![1, C]

/-- A row gather read at (n, l): the operand's row "start index n, read signed, clamped into [0, K − 1]", lane l. -/
theorem IsRowGather.read {N K C w : Nat} {α : Type} {d : GatherDims ⟨2, ![K, C]⟩ ⟨2, ![N, 1]⟩ ⟨2, ![N, C]⟩}
    (hd : IsRowGather d) (hK : 0 < K) (x : (⟨2, ![K, C]⟩ : Shape).Idx → α) (idx : IVec ⟨2, ![N, 1]⟩ w)
    (n : Fin N) (l : Fin C) :
    Host.gather d x idx (ix2 n l) = x (ix2 ⟨min (idx (ix2 n 0)).toInt.toNat (K - 1), by omega⟩ l) :=
  LibGather.gather_rows_apply d hd.offsetDims hd.collapsedSliceDims hd.operandBatchingDims
    hd.startIndicesBatchingDims hd.startIndexMap hd.indexVectorDim hd.sliceSizes hK x idx n l

/-- The top 128 rows of a 256-row matrix, at (c, l): the matrix at (c, l). -/
theorem slice_top {α : Type} (W : (⟨2, ![256, 128]⟩ : Shape).Idx → α)
    (h : (⟨2, ![256, 128]⟩ : Shape).Slices ![0, 0] ⟨2, ![128, 128]⟩) (c l : Fin 128) :
    extractStridedSlice ⟨2, ![128, 128]⟩ ![0, 0] W h (ix2 c l)
      = W (ix2 ⟨c.val, by have := c.isLt; omega⟩ l) :=
  extractStridedSlice_apply ![0, 0] W h (ix2 c l) (ix2 ⟨c.val, by have := c.isLt; omega⟩ l) (fun a => match a with
    | ⟨0, _⟩ => by show c.val = 0 + c.val; omega
    | ⟨1, _⟩ => by show l.val = 0 + l.val; omega)

/-- The bottom 128 rows of a 256-row matrix, at (c, l): the matrix at (128 + c, l). -/
theorem slice_bottom {α : Type} (W : (⟨2, ![256, 128]⟩ : Shape).Idx → α)
    (h : (⟨2, ![256, 128]⟩ : Shape).Slices ![128, 0] ⟨2, ![128, 128]⟩) (c l : Fin 128) :
    extractStridedSlice ⟨2, ![128, 128]⟩ ![128, 0] W h (ix2 c l)
      = W (ix2 ⟨128 + c.val, by have := c.isLt; omega⟩ l) :=
  extractStridedSlice_apply ![128, 0] W h (ix2 c l) (ix2 ⟨128 + c.val, by have := c.isLt; omega⟩ l) (fun a => match a with
    | ⟨0, _⟩ => by show 128 + c.val = 128 + c.val; rfl
    | ⟨1, _⟩ => by show l.val = 0 + l.val; omega)

/-- A sum over 256 indices is the sum over the first 128 plus the sum over the last 128. -/
theorem sum_halves (f : Fin 256 → EReal) :
    ∑ k : Fin 256, f k
      = (∑ c : Fin 128, f ⟨c.val, by have := c.isLt; omega⟩)
        + ∑ c : Fin 128, f ⟨128 + c.val, by have := c.isLt; omega⟩ :=
  Fin.sum_univ_add (a := 128) (b := 128) f

/-- The joined rows times a 256-row matrix, at (e, l): the first piece against the top half plus the second piece
    against the bottom half. -/
theorem concat_dot {E : Nat} (X1 X2 : (⟨2, ![E, 128]⟩ : Shape).Idx → EReal)
    (W : (⟨2, ![256, 128]⟩ : Shape).Idx → EReal)
    (h : Shape.Concatenates [(⟨2, ![E, 128]⟩ : Shape), (⟨2, ![E, 128]⟩ : Shape)] (⟨2, ![E, 256]⟩ : Shape) 1)
    (e : Fin E) (l : Fin 128) :
    (∑ k : Fin 256, concatenate (⟨2, ![E, 256]⟩ : Shape) 1
        [⟨(⟨2, ![E, 128]⟩ : Shape), X1⟩, ⟨(⟨2, ![E, 128]⟩ : Shape), X2⟩] h (ix2 e k) * W (ix2 k l))
      = (∑ c : Fin 128, X1 (ix2 e c) * W (ix2 ⟨c.val, by have := c.isLt; omega⟩ l))
        + ∑ c : Fin 128, X2 (ix2 e c) * W (ix2 ⟨128 + c.val, by have := c.isLt; omega⟩ l) := by
  rw [sum_halves]
  refine congrArg₂ (· + ·) (Finset.sum_congr rfl fun c _ => ?_) (Finset.sum_congr rfl fun c _ => ?_)
  · rw [LaneConcat.concat_apply, dif_pos (show c.val < 128 from c.isLt)]
  · rw [LaneConcat.concat_apply, dif_neg (show ¬ (128 + c.val < 128) by omega)]
    refine congrArg (fun z => X2 (ix2 e z) * _) (Fin.ext ?_)
    show 128 + c.val - 128 = c.val
    omega

/-- A one-entry vector broadcast to a 1×1 array and then to a column, at (e, u): the vector's entry. -/
theorem scalar_column {α : Type} {E : Nat} (b : (⟨1, ![1]⟩ : Shape).Idx → α)
    (h1 : (⟨1, ![1]⟩ : Shape).BroadcastsInDim ⟨2, ![1, 1]⟩ (![1] : Fin 1 → Fin 2))
    (h2 : (⟨2, ![1, 1]⟩ : Shape).BroadcastsInDim ⟨2, ![E, 1]⟩ (![0, 1] : Fin 2 → Fin 2)) (e : Fin E) (u : Fin 1) :
    broadcastInDim ⟨2, ![E, 1]⟩ ![0, 1] h2 (broadcastInDim ⟨2, ![1, 1]⟩ ![1] h1 b) (ix2 e u) = b (ix1 (0 : Fin 1)) := by
  rw [broadcastInDim_apply _ h2 _ (ix2 e u) (ix2 (0 : Fin 1) (0 : Fin 1)) (fun a => match a with
      | ⟨0, _⟩ => by show (0 : Nat) = if (1 : Nat) = 1 then 0 else _; rw [if_pos rfl]
      | ⟨1, _⟩ => by show (0 : Nat) = if (1 : Nat) = 1 then 0 else _; rw [if_pos rfl]),
    broadcastInDim_apply _ h1 b (ix2 (0 : Fin 1) (0 : Fin 1)) (ix1 (0 : Fin 1)) (fun a => match a with
      | ⟨0, _⟩ => by show (0 : Nat) = if (1 : Nat) = 1 then 0 else _; rw [if_pos rfl])]

/-- The zero scalar splat to 128 lanes and laid out as a 1×128 row is zero at every lane. -/
theorem zero_row_apply (hs : (⟨0, ![]⟩ : Shape).BroadcastsInDim ⟨1, ![128]⟩ (![] : Fin 0 → Fin 1))
    (hc : (⟨1, ![128]⟩ : Shape).ShapeCasts ⟨2, ![1, 128]⟩) (q : Fin 128) :
    shapeCast ⟨2, ![1, 128]⟩
        (broadcastInDim ⟨1, ![128]⟩ ![] hs (constant (F := Ideal) ⟨0, ![]⟩ .f32 0x00000000#32)) hc (ix2 (0 : Fin 1) q)
      = 0 := by
  rw [RowVector.shapeCast_row, Combine.broadcastInDim_scalar, constant_apply, Ideal.ofBits_zero_f32]

/-- The row of 128 zeros leaves a sum unchanged. -/
theorem add_zero_row (Z : (⟨2, ![1, 128]⟩ : Shape).Idx → EReal) (hZ : ∀ q : Fin 128, Z (ix2 (0 : Fin 1) q) = 0)
    (x : EReal) (q : Fin 128) : x + Z (ix2 (0 : Fin 1) q) = x := by
  rw [hZ, add_zero]

/-- THE READOUT, over any number of edges E and of ligand and target nodes KL, KT: the head computed from the
    node-level projections (gathered, added, clamped, weighed and summed) is the head computed per edge from the
    joined gathered rows by two matrix products. -/
theorem readout_core {E KL KT : Nat} (hKL : 0 < KL) (hKT : 0 < KT)
    (L2 : FVec Ideal ⟨2, ![KL, 128]⟩ .f32) (T2 : FVec Ideal ⟨2, ![KT, 128]⟩ .f32)
    (Is Id : IVec ⟨2, ![E, 1]⟩ 32)
    (Wp1 : FVec Ideal ⟨2, ![256, 128]⟩ .f32) (bp1 : FVec Ideal ⟨1, ![128]⟩ .f32)
    (Wp2 : FVec Ideal ⟨2, ![128, 1]⟩ .f32) (bp2 : FVec Ideal ⟨1, ![1]⟩ .f32)
    (Z : FVec Ideal ⟨2, ![1, 128]⟩ .f32) (hZ : ∀ q : Fin 128, Z (ix2 (0 : Fin 1) q) = 0)
    (gL : GatherDims ⟨2, ![KL, 128]⟩ ⟨2, ![E, 1]⟩ ⟨2, ![E, 128]⟩) (hgL : IsRowGather gL)
    (gT : GatherDims ⟨2, ![KT, 128]⟩ ⟨2, ![E, 1]⟩ ⟨2, ![E, 128]⟩) (hgT : IsRowGather gT)
    (hs0 : (⟨2, ![256, 128]⟩ : Shape).Slices ![0, 0] ⟨2, ![128, 128]⟩)
    (hs1 : (⟨2, ![256, 128]⟩ : Shape).Slices ![128, 0] ⟨2, ![128, 128]⟩)
    (hB1 : (⟨1, ![128]⟩ : Shape).ShapeCasts ⟨2, ![1, 128]⟩)
    (hW2 : (⟨2, ![128, 1]⟩ : Shape).Transposes [1, 0] ⟨2, ![1, 128]⟩)
    (hB2 : (⟨1, ![1]⟩ : Shape).ShapeCasts ⟨2, ![1, 1]⟩)
    (gL' : GatherDims ⟨2, ![KL, 128]⟩ ⟨2, ![E, 1]⟩ ⟨2, ![E, 128]⟩) (hgL' : IsRowGather gL')
    (gT' : GatherDims ⟨2, ![KT, 128]⟩ ⟨2, ![E, 1]⟩ ⟨2, ![E, 128]⟩) (hgT' : IsRowGather gT')
    (hcat : Shape.Concatenates [(⟨2, ![E, 128]⟩ : Shape), (⟨2, ![E, 128]⟩ : Shape)] (⟨2, ![E, 256]⟩ : Shape) 1)
    (D1 : DotDims ⟨2, ![E, 256]⟩ ⟨2, ![256, 128]⟩ ⟨2, ![E, 128]⟩) (hD1 : D1 = DotDims.plain E 256 128)
    (D2 : DotDims ⟨2, ![E, 128]⟩ ⟨2, ![128, 1]⟩ ⟨2, ![E, 1]⟩) (hD2 : D2 = DotDims.plain E 128 1)
    (hb1 : (⟨1, ![128]⟩ : Shape).BroadcastsInDim ⟨2, ![1, 128]⟩ (![1] : Fin 1 → Fin 2))
    (hb2 : (⟨2, ![1, 128]⟩ : Shape).BroadcastsInDim ⟨2, ![E, 128]⟩ (![0, 1] : Fin 2 → Fin 2))
    (h0 : (⟨0, ![]⟩ : Shape).BroadcastsInDim ⟨2, ![E, 128]⟩ (![] : Fin 0 → Fin 2))
    (hc1 : (⟨1, ![1]⟩ : Shape).BroadcastsInDim ⟨2, ![1, 1]⟩ (![1] : Fin 1 → Fin 2))
    (hc2 : (⟨2, ![1, 1]⟩ : Shape).BroadcastsInDim ⟨2, ![E, 1]⟩ (![0, 1] : Fin 2 → Fin 2)) :
    EdgeSpec.edgeFinal (E := E)
        (Host.gather gL (AffineRow.rowAffine L2 (extractStridedSlice ⟨2, ![128, 128]⟩ ![0, 0] Wp1 hs0) Z) Is)
        (Host.gather gT (AffineRow.rowAffine T2 (extractStridedSlice ⟨2, ![128, 128]⟩ ![128, 0] Wp1 hs1) Z) Id)
        (shapeCast ⟨2, ![1, 128]⟩ bp1 hB1) (transpose ⟨2, ![1, 128]⟩ [1, 0] Wp2 hW2) (shapeCast ⟨2, ![1, 1]⟩ bp2 hB2)
      = addf
          (Host.dotGeneral D2 none
            (maximumf
              (addf
                (Host.dotGeneral D1 none
                  (concatenate (⟨2, ![E, 256]⟩ : Shape) 1
                    [⟨(⟨2, ![E, 128]⟩ : Shape), Host.gather gL' L2 Is⟩, ⟨(⟨2, ![E, 128]⟩ : Shape), Host.gather gT' T2 Id⟩] hcat)
                  Wp1)
                (broadcastInDim ⟨2, ![E, 128]⟩ ![0, 1] hb2 (broadcastInDim ⟨2, ![1, 128]⟩ ![1] hb1 bp1)))
              (broadcastInDim ⟨2, ![E, 128]⟩ ![] h0 (constant (F := Ideal) ⟨0, ![]⟩ .f32 0x00000000#32)))
            Wp2)
          (broadcastInDim ⟨2, ![E, 1]⟩ ![0, 1] hc2 (broadcastInDim ⟨2, ![1, 1]⟩ ![1] hc1 bp2)) := by
  funext j
  obtain ⟨e, u, rfl⟩ : ∃ (e : Fin E) (u : Fin 1), j = ix2 e u := ⟨j 0, j 1, eq_ix2 j⟩
  obtain rfl : u = 0 := Subsingleton.elim _ _
  -- the projected rows, gathered, as sums against the halves of the big matrix
  have hAL : ∀ l : Fin 128,
      Host.gather gL (AffineRow.rowAffine L2 (extractStridedSlice ⟨2, ![128, 128]⟩ ![0, 0] Wp1 hs0) Z) Is (ix2 e l)
        = ∑ c : Fin 128, Host.gather gL' L2 Is (ix2 e c) * Wp1 (ix2 ⟨c.val, by have := c.isLt; omega⟩ l) := by
    intro l
    rw [hgL.read hKL, AffineRow.rowAffine_apply, add_zero_row Z hZ]
    refine Finset.sum_congr rfl fun c _ => ?_
    rw [hgL'.read hKL, slice_top]
  have hAT : ∀ l : Fin 128,
      Host.gather gT (AffineRow.rowAffine T2 (extractStridedSlice ⟨2, ![128, 128]⟩ ![128, 0] Wp1 hs1) Z) Id (ix2 e l)
        = ∑ c : Fin 128, Host.gather gT' T2 Id (ix2 e c) * Wp1 (ix2 ⟨128 + c.val, by have := c.isLt; omega⟩ l) := by
    intro l
    rw [hgT.read hKT, AffineRow.rowAffine_apply, add_zero_row Z hZ]
    refine Finset.sum_congr rfl fun c _ => ?_
    rw [hgT'.read hKT, slice_bottom]
  rw [EdgeSpec.edgeFinal_apply, addf_apply, Product.dotGeneral_eq D2 hD2, Product.prod_apply, scalar_column,
    RowOfVector.shapeCast_row]
  refine congrArg (· + bp2 (ix1 (0 : Fin 1))) (Finset.sum_congr rfl fun l _ => ?_)
  rw [hAL, hAT, transpose_ix2_apply, RowVector.shapeCast_row, maximumf_apply,
    Linear.host_apply D1 hD1 (by decide), Linear.dense_apply, Combine.broadcastInDim_scalar, concat_dot]
  rfl

end Cert.Readout

end
-- ==== Proof.FinalBridge.lean ====
/-
  The readout head of the network at its own sizes: a million edges, a hundred thousand ligand nodes, twenty
  thousand target nodes.

  One program projects the node features first (ligand rows against the top half of the 256×128 matrix, target rows
  against its bottom half, each plus a row of zeros), gathers the projected rows at the edges' end points and applies
  the per-edge head; the other gathers the node features, joins them along the lanes and applies two matrix products
  per edge. The general statement (any number of edges and nodes) is `Cert.Readout.readout_core`; here it is read at
  the two programs' own shape and dimension records, which are written out with the lists the general statement asks
  for, so every side condition holds by unfolding the record.
-/
import proofs.«132711_j11063835754497_2_alg».proof.Proof.Gen.KernelIdeal
import proofs.«132711_j11063835754497_2_alg».proof.Proof.Gen.ReferenceIdeal.Read
import proofs.«132711_j11063835754497_2_alg».proof.Proof.ReadoutCore

noncomputable section

namespace Cert.FinalBridge

open Idealize.ShloMosaic Idealize.ShloMosaic.ValueIdx

/-- The per-edge head over the node-level projections equals the head computed per edge from the joined gathered
    rows, for any node features L2, T2, index columns Is, Id and parameters. -/
theorem readout_eq (L2 : FVec Ideal Cert.KernelIdeal.S100000x128 .f32) (T2 : FVec Ideal Cert.KernelIdeal.S20000x128 .f32)
    (Is Id : (⟨Cert.KernelIdeal.S1000000x1, .i32⟩ : BufTy).Contents (Elt Ideal))
    (Wp1 : FVec Ideal Cert.KernelIdeal.S256x128 .f32) (bp1 : FVec Ideal Cert.KernelIdeal.S128 .f32)
    (Wp2 : FVec Ideal Cert.KernelIdeal.S128x1 .f32) (bp2 : FVec Ideal Cert.KernelIdeal.S1 .f32) :
    Cert.EdgeSpec.edgeFinal (E := 1000000)
        (Host.gather Cert.KernelIdeal.gather_S100000x128_S1000000x1_S1000000x128_1_0_n_n_0_1_1128
          (Cert.AffineRow.rowAffine L2 (extractStridedSlice Cert.KernelIdeal.S128x128 ![0, 0] Wp1 Cert.KernelIdeal.Gen.slices_S256x128_S128x128_0_0)
            (shapeCast Cert.KernelIdeal.S1x128 (broadcastInDim Cert.KernelIdeal.S128 ![] Cert.KernelIdeal.Gen.bcast_S_S128 (constant (F := Ideal) Cert.KernelIdeal.S_ .f32 0x00000000#32)) Cert.KernelIdeal.Gen.shapeCasts_S128_S1x128)) Is)
        (Host.gather Cert.KernelIdeal.gather_S20000x128_S1000000x1_S1000000x128_1_0_n_n_0_1_1128
          (Cert.AffineRow.rowAffine T2 (extractStridedSlice Cert.KernelIdeal.S128x128 ![128, 0] Wp1 Cert.KernelIdeal.Gen.slices_S256x128_S128x128_128_0)
            (shapeCast Cert.KernelIdeal.S1x128 (broadcastInDim Cert.KernelIdeal.S128 ![] Cert.KernelIdeal.Gen.bcast_S_S128 (constant (F := Ideal) Cert.KernelIdeal.S_ .f32 0x00000000#32)) Cert.KernelIdeal.Gen.shapeCasts_S128_S1x128)) Id)
        (shapeCast Cert.KernelIdeal.S1x128 bp1 Cert.KernelIdeal.Gen.shapeCasts_S128_S1x128)
        (transpose Cert.KernelIdeal.S1x128 [1, 0] Wp2 Cert.KernelIdeal.Gen.transposes_S128x1_S1x128_1_0)
        (shapeCast Cert.KernelIdeal.S1x1 bp2 Cert.KernelIdeal.Gen.shapeCasts_S1_S1x1)
      = addf
          (Host.dotGeneral Cert.ReferenceIdeal.dot_S1000000x128_S128x1_S1000000x1_1_0_0_1_n_n none
            (maximumf
              (addf
                (Host.dotGeneral Cert.ReferenceIdeal.dot_S1000000x256_S256x128_S1000000x128_1_0_0_1_n_n none
                  (concatenate Cert.ReferenceIdeal.S1000000x256 1
                    [⟨Cert.ReferenceIdeal.S1000000x128, Host.gather Cert.ReferenceIdeal.gather_S100000x128_S1000000x1_S1000000x128_1_0_n_n_0_1_1128 L2 Is⟩,
                     ⟨Cert.ReferenceIdeal.S1000000x128, Host.gather Cert.ReferenceIdeal.gather_S20000x128_S1000000x1_S1000000x128_1_0_n_n_0_1_1128 T2 Id⟩]
                    Cert.ReferenceIdeal.Gen.concatenates_S1000000x128_S1000000x128_S1000000x256_d1)
                  Wp1)
                (broadcastInDim Cert.ReferenceIdeal.S1000000x128 ![0, 1] Cert.ReferenceIdeal.Gen.bcast_S1x128_S1000000x128_0_1
                  (broadcastInDim Cert.ReferenceIdeal.S1x128 ![1] Cert.ReferenceIdeal.Gen.bcast_S128_S1x128_1 bp1)))
              (broadcastInDim Cert.ReferenceIdeal.S1000000x128 ![] Cert.ReferenceIdeal.Gen.bcast_S_S1000000x128 (constant (F := Ideal) Cert.ReferenceIdeal.S_ .f32 0x00000000#32)))
            Wp2)
          (broadcastInDim Cert.ReferenceIdeal.S1000000x1 ![0, 1] Cert.ReferenceIdeal.Gen.bcast_S1x1_S1000000x1_0_1
            (broadcastInDim Cert.ReferenceIdeal.S1x1 ![1] Cert.ReferenceIdeal.Gen.bcast_S1_S1x1_1 bp2)) :=
  Cert.Readout.readout_core (E := 1000000) (KL := 100000) (KT := 20000) (by decide) (by decide)
    L2 T2 Is Id Wp1 bp1 Wp2 bp2 _ (Cert.Readout.zero_row_apply _ _)
    Cert.KernelIdeal.gather_S100000x128_S1000000x1_S1000000x128_1_0_n_n_0_1_1128 ⟨rfl, rfl, rfl, rfl, rfl, rfl, rfl⟩
    Cert.KernelIdeal.gather_S20000x128_S1000000x1_S1000000x128_1_0_n_n_0_1_1128 ⟨rfl, rfl, rfl, rfl, rfl, rfl, rfl⟩
    _ _ _ _ _
    Cert.ReferenceIdeal.gather_S100000x128_S1000000x1_S1000000x128_1_0_n_n_0_1_1128 ⟨rfl, rfl, rfl, rfl, rfl, rfl, rfl⟩
    Cert.ReferenceIdeal.gather_S20000x128_S1000000x1_S1000000x128_1_0_n_n_0_1_1128 ⟨rfl, rfl, rfl, rfl, rfl, rfl, rfl⟩
    _ _ rfl _ rfl _ _ _ _ _

/-- The same with the reference's own stage values in place of the variables: the head over the projections of the
    reference's node features is the reference's final value. -/
theorem readout_ref (x0 : (⟨Cert.ReferenceIdeal.S100000x4, .f32⟩ : BufTy).Contents (Elt Ideal)) (x1 : (⟨Cert.ReferenceIdeal.S20000x1280, .f32⟩ : BufTy).Contents (Elt Ideal)) (x2 x3 : (⟨Cert.ReferenceIdeal.S1000000, .i32⟩ : BufTy).Contents (Elt Ideal))
    (x4 : (⟨Cert.ReferenceIdeal.S4x128, .f32⟩ : BufTy).Contents (Elt Ideal)) (x5 : (⟨Cert.ReferenceIdeal.S128, .f32⟩ : BufTy).Contents (Elt Ideal)) (x6 : (⟨Cert.ReferenceIdeal.S1280x128, .f32⟩ : BufTy).Contents (Elt Ideal)) (x7 : (⟨Cert.ReferenceIdeal.S128, .f32⟩ : BufTy).Contents (Elt Ideal))
    (x8 : (⟨Cert.ReferenceIdeal.S128x128, .f32⟩ : BufTy).Contents (Elt Ideal)) (x9 : (⟨Cert.ReferenceIdeal.S128, .f32⟩ : BufTy).Contents (Elt Ideal)) (x10 : (⟨Cert.ReferenceIdeal.S128x128, .f32⟩ : BufTy).Contents (Elt Ideal)) (x11 : (⟨Cert.ReferenceIdeal.S128, .f32⟩ : BufTy).Contents (Elt Ideal))
    (x12 : (⟨Cert.ReferenceIdeal.S128x128, .f32⟩ : BufTy).Contents (Elt Ideal)) (x13 : (⟨Cert.ReferenceIdeal.S128, .f32⟩ : BufTy).Contents (Elt Ideal)) (x14 : (⟨Cert.ReferenceIdeal.S128x128, .f32⟩ : BufTy).Contents (Elt Ideal)) (x15 : (⟨Cert.ReferenceIdeal.S128, .f32⟩ : BufTy).Contents (Elt Ideal))
    (x16 : (⟨Cert.ReferenceIdeal.S256x128, .f32⟩ : BufTy).Contents (Elt Ideal)) (x17 : (⟨Cert.ReferenceIdeal.S128, .f32⟩ : BufTy).Contents (Elt Ideal)) (x18 : (⟨Cert.ReferenceIdeal.S128x1, .f32⟩ : BufTy).Contents (Elt Ideal)) (x19 : (⟨Cert.ReferenceIdeal.S1, .f32⟩ : BufTy).Contents (Elt Ideal)) :
    Cert.EdgeSpec.edgeFinal (E := 1000000)
        (Host.gather Cert.KernelIdeal.gather_S100000x128_S1000000x1_S1000000x128_1_0_n_n_0_1_1128
          (Cert.AffineRow.rowAffine (Cert.ReferenceIdeal.Read.val_main_v103 (F := Ideal) x0 x2 x3 x4 x5 x8 x9 x14 x15) (extractStridedSlice Cert.KernelIdeal.S128x128 ![0, 0] x16 Cert.KernelIdeal.Gen.slices_S256x128_S128x128_0_0)
            (shapeCast Cert.KernelIdeal.S1x128 (broadcastInDim Cert.KernelIdeal.S128 ![] Cert.KernelIdeal.Gen.bcast_S_S128 (constant (F := Ideal) Cert.KernelIdeal.S_ .f32 0x00000000#32)) Cert.KernelIdeal.Gen.shapeCasts_S128_S1x128)) (Cert.ReferenceIdeal.Read.val_main_v109 (F := Ideal) x2))
        (Host.gather Cert.KernelIdeal.gather_S20000x128_S1000000x1_S1000000x128_1_0_n_n_0_1_1128
          (Cert.AffineRow.rowAffine (Cert.ReferenceIdeal.Read.val_main_v98 (F := Ideal) x1 x2 x3 x6 x7 x10 x11 x12 x13) (extractStridedSlice Cert.KernelIdeal.S128x128 ![128, 0] x16 Cert.KernelIdeal.Gen.slices_S256x128_S128x128_128_0)
            (shapeCast Cert.KernelIdeal.S1x128 (broadcastInDim Cert.KernelIdeal.S128 ![] Cert.KernelIdeal.Gen.bcast_S_S128 (constant (F := Ideal) Cert.KernelIdeal.S_ .f32 0x00000000#32)) Cert.KernelIdeal.Gen.shapeCasts_S128_S1x128)) (Cert.ReferenceIdeal.Read.val_main_v116 (F := Ideal) x3))
        (shapeCast Cert.KernelIdeal.S1x128 x17 Cert.KernelIdeal.Gen.shapeCasts_S128_S1x128)
        (transpose Cert.KernelIdeal.S1x128 [1, 0] x18 Cert.KernelIdeal.Gen.transposes_S128x1_S1x128_1_0)
        (shapeCast Cert.KernelIdeal.S1x1 x19 Cert.KernelIdeal.Gen.shapeCasts_S1_S1x1)
      = Cert.ReferenceIdeal.Read.val_main_v127 (F := Ideal) x0 x1 x2 x3 x4 x5 x6 x7 x8 x9 x10 x11 x12 x13 x14 x15 x16 x17 x18 x19 := by
  unfold Cert.ReferenceIdeal.Read.val_main_v127 Cert.ReferenceIdeal.Read.val_main_v126 Cert.ReferenceIdeal.Read.val_main_v125 Cert.ReferenceIdeal.Read.val_main_v124 Cert.ReferenceIdeal.Read.val_main_v123
    Cert.ReferenceIdeal.Read.val_main_call4_v0 Cert.ReferenceIdeal.Read.val_main_call4_cst Cert.ReferenceIdeal.Read.val_main_v122 Cert.ReferenceIdeal.Read.val_main_v121 Cert.ReferenceIdeal.Read.val_main_v120
    Cert.ReferenceIdeal.Read.val_main_v119 Cert.ReferenceIdeal.Read.val_main_v118 Cert.ReferenceIdeal.Read.val_main_v117 Cert.ReferenceIdeal.Read.val_main_v110
  generalize Cert.ReferenceIdeal.Read.val_main_v103 (F := Ideal) x0 x2 x3 x4 x5 x8 x9 x14 x15 = L2
  generalize Cert.ReferenceIdeal.Read.val_main_v98 (F := Ideal) x1 x2 x3 x6 x7 x10 x11 x12 x13 = T2
  generalize Cert.ReferenceIdeal.Read.val_main_v109 (F := Ideal) x2 = Is
  generalize Cert.ReferenceIdeal.Read.val_main_v116 (F := Ideal) x3 = Id
  exact readout_eq L2 T2 Is Id x16 x17 x18 x19

end Cert.FinalBridge

end
-- ==== Proof.ChainG.lean ====
/-
  The readout. The host gathers, per edge, the projected row of the edge's ligand and of its target; region 8 adds
  the two rows and the bias, clamps at zero, weighs the lanes by Wp2 and sums them, and adds the scalar bias. The
  reference concatenates the two gathered feature rows, multiplies by the whole 256-row matrix, adds the bias, clamps,
  and multiplies by Wp2: the same number for every edge, since a row gather commutes with a map applied row by row
  and a sum over 256 lanes splits into the sums over its two halves.
-/
import proofs.«132711_j11063835754497_2_alg».proof.Proof.ChainF
import proofs.«132711_j11063835754497_2_alg».proof.Proof.FinalBridge

set_option maxRecDepth 16384
set_option maxHeartbeats 4000000

noncomputable section

namespace Cert.KernelIdeal.Chain

open Cert.KernelIdeal Cert.KernelIdeal.Gen
open Idealize.ShloMosaic Idealize.ShloMosaic.TcCoe
open Idealize.SL.Sem

variable (m : (ℓ : Loc nD τ sig) → Buf (Elt Ideal) ℓ) (ρ : Dev nD → PrngReg) (c : Dev nD)

set_option quotPrecheck false
local notation "a0" => m (Thread.loc (c : Thread nD τ) main_arg0)
local notation "a1" => m (Thread.loc (c : Thread nD τ) main_arg1)
local notation "a2" => m (Thread.loc (c : Thread nD τ) main_arg2)
local notation "a3" => m (Thread.loc (c : Thread nD τ) main_arg3)
local notation "a4" => m (Thread.loc (c : Thread nD τ) main_arg4)
local notation "a5" => m (Thread.loc (c : Thread nD τ) main_arg5)
local notation "a6" => m (Thread.loc (c : Thread nD τ) main_arg6)
local notation "a7" => m (Thread.loc (c : Thread nD τ) main_arg7)
local notation "a8" => m (Thread.loc (c : Thread nD τ) main_arg8)
local notation "a9" => m (Thread.loc (c : Thread nD τ) main_arg9)
local notation "a10" => m (Thread.loc (c : Thread nD τ) main_arg10)
local notation "a11" => m (Thread.loc (c : Thread nD τ) main_arg11)
local notation "a12" => m (Thread.loc (c : Thread nD τ) main_arg12)
local notation "a13" => m (Thread.loc (c : Thread nD τ) main_arg13)
local notation "a14" => m (Thread.loc (c : Thread nD τ) main_arg14)
local notation "a15" => m (Thread.loc (c : Thread nD τ) main_arg15)
local notation "a16" => m (Thread.loc (c : Thread nD τ) main_arg16)
local notation "a17" => m (Thread.loc (c : Thread nD τ) main_arg17)
local notation "a18" => m (Thread.loc (c : Thread nD τ) main_arg18)
local notation "a19" => m (Thread.loc (c : Thread nD τ) main_arg19)

/-- Region 8's output, the result of @main, is the reference's result. -/
theorem s10 (H : Forms) : W18 m ρ c (Proc.devRef .tc main_v105) = Cert.ReferenceIdeal.Read.val_main_v127 (F := Ideal) a0 a1 a2 a3 a4 a5 a6 a7 a8 a9 a10 a11 a12 a13 a14 a15 a16 a17 a18 a19 := by
  refine (W18_arr m ρ c 5).trans ?_
  rw [H.out8]
  have k85 : W16 m ρ c (Proc.devRef .tc main_v85) = Cert.AffineRow.rowAffine (R := 100000) (K := 128) (N := 128) (Cert.ReferenceIdeal.Read.val_main_v103 (F := Ideal) a0 a2 a3 a4 a5 a8 a9 a14 a15) (extractStridedSlice S128x128 ![0, 0] a16 slices_S256x128_S128x128_0_0) (shapeCast S1x128 (broadcastInDim S128 ![] bcast_S_S128 (constant (F := Ideal) S_ .f32 0x00000000#32)) shapeCasts_S128_S1x128) := by
    rw [W16_of_ne _ _ _ _ (by decide)]
    dsimp only [W15, hostOps7]; after_results_simp
    exact s8 m ρ c H
  have k87 : W16 m ρ c (Proc.devRef .tc main_v87) = Cert.AffineRow.rowAffine (R := 20000) (K := 128) (N := 128) (Cert.ReferenceIdeal.Read.val_main_v98 (F := Ideal) a1 a2 a3 a6 a7 a10 a11 a12 a13) (extractStridedSlice S128x128 ![128, 0] a16 slices_S256x128_S128x128_128_0) (shapeCast S1x128 (broadcastInDim S128 ![] bcast_S_S128 (constant (F := Ideal) S_ .f32 0x00000000#32)) shapeCasts_S128_S1x128) := s9 m ρ c H
  have k2 : W16 m ρ c (Proc.devRef .tc main_arg2) = a2 := by carry
  have k3 : W16 m ρ c (Proc.devRef .tc main_arg3) = a3 := by carry
  have e0 : V17 m ρ c (Pipeline.arrRef spec8 0)
      = Host.gather gather_S100000x128_S1000000x1_S1000000x128_1_0_n_n_0_1_1128 (Cert.AffineRow.rowAffine (R := 100000) (K := 128) (N := 128) (Cert.ReferenceIdeal.Read.val_main_v103 (F := Ideal) a0 a2 a3 a4 a5 a8 a9 a14 a15) (extractStridedSlice S128x128 ![0, 0] a16 slices_S256x128_S128x128_0_0) (shapeCast S1x128 (broadcastInDim S128 ![] bcast_S_S128 (constant (F := Ideal) S_ .f32 0x00000000#32)) shapeCasts_S128_S1x128)) (Cert.ReferenceIdeal.Read.val_main_v109 (F := Ideal) a2) := by
    show W17 m ρ c (Proc.devRef .tc main_v94) = _
    dsimp only [W17, hostOps8]; after_results_simp
    rw [k85, k2]
    unfold Cert.ReferenceIdeal.Read.val_main_v109 Cert.ReferenceIdeal.Read.val_main_v108 Cert.ReferenceIdeal.Read.val_main_v107 Cert.ReferenceIdeal.Read.val_main_v106 Cert.ReferenceIdeal.Read.val_main_c_23 Cert.ReferenceIdeal.Read.val_main_v105 Cert.ReferenceIdeal.Read.val_main_v104 Cert.ReferenceIdeal.Read.val_main_c_22
    rfl
  have e1 : V17 m ρ c (Pipeline.arrRef spec8 1)
      = Host.gather gather_S20000x128_S1000000x1_S1000000x128_1_0_n_n_0_1_1128 (Cert.AffineRow.rowAffine (R := 20000) (K := 128) (N := 128) (Cert.ReferenceIdeal.Read.val_main_v98 (F := Ideal) a1 a2 a3 a6 a7 a10 a11 a12 a13) (extractStridedSlice S128x128 ![128, 0] a16 slices_S256x128_S128x128_128_0) (shapeCast S1x128 (broadcastInDim S128 ![] bcast_S_S128 (constant (F := Ideal) S_ .f32 0x00000000#32)) shapeCasts_S128_S1x128)) (Cert.ReferenceIdeal.Read.val_main_v116 (F := Ideal) a3) := by
    show W17 m ρ c (Proc.devRef .tc main_v101) = _
    dsimp only [W17, hostOps8]; after_results_simp
    rw [k87, k3]
    unfold Cert.ReferenceIdeal.Read.val_main_v116 Cert.ReferenceIdeal.Read.val_main_v115 Cert.ReferenceIdeal.Read.val_main_v114 Cert.ReferenceIdeal.Read.val_main_v113 Cert.ReferenceIdeal.Read.val_main_c_25 Cert.ReferenceIdeal.Read.val_main_v112 Cert.ReferenceIdeal.Read.val_main_v111 Cert.ReferenceIdeal.Read.val_main_c_24
    rfl
  have e2 : V17 m ρ c (Pipeline.arrRef spec8 2) = shapeCast S1x128 a17 shapeCasts_S128_S1x128 := by
    show W17 m ρ c (Proc.devRef .tc main_v103) = _
    carry
  have e3 : V17 m ρ c (Pipeline.arrRef spec8 3) = transpose S1x128 [1, 0] a18 transposes_S128x1_S1x128_1_0 := by
    show W17 m ρ c (Proc.devRef .tc main_v102) = _
    carry
  have e4 : V17 m ρ c (Pipeline.arrRef spec8 4) = shapeCast S1x1 a19 shapeCasts_S1_S1x1 := by
    show W17 m ρ c (Proc.devRef .tc main_v104) = _
    carry
  rw [e0, e1, e2, e3, e4]
  exact Cert.FinalBridge.readout_ref a0 a1 a2 a3 a4 a5 a6 a7 a8 a9 a10 a11 a12 a13 a14 a15 a16 a17 a18 a19

end Cert.KernelIdeal.Chain

end
-- ==== Proof.lean ====
/-
  A bipartite graph network on 100000 ligand nodes, 20000 target nodes and 1000000 edges, read over the extended
  reals. Both programs embed the nodes by affine layers x·W + b, apply two rounds of message passing (every node
  takes the mean of the features gathered along its edges from the other side, the sum divided by max(count, 1),
  then an affine layer clamped at zero), and score every edge by a two-layer head on the joined features of its two
  end points. The kernel's nine regions are the dense layers (two embeddings, four message-passing layers, the two
  half-projections of the head's first layer) and the per-edge head; the host stretches between them gather,
  scatter-add and scale. Region by region the kernel's arrays are the reference's stages, by two bridges: a row sum
  times 1 / max(count, 1) is the row sum divided by max(count, 1), since max(count, 1) ≥ 1 is never zero; and
  projecting the nodes by the two halves of the 256×128 matrix before the gather is multiplying the joined gathered
  rows by the whole matrix, a sum over 256 lanes split into two sums over 128. None of these steps asks an entry
  of an input to be finite.
-/
import proofs.«132711_j11063835754497_2_alg».proof.Defs
import proofs.«132711_j11063835754497_2_alg».proof.Proof.Gen.Kernel
import proofs.«132711_j11063835754497_2_alg».proof.Proof.Gen.Kernel.Skeleton
import proofs.«132711_j11063835754497_2_alg».proof.Proof.Gen.Kernel.Launch
import proofs.«132711_j11063835754497_2_alg».proof.Proof.Gen.Kernel.Points
import proofs.«132711_j11063835754497_2_alg».proof.Proof.Gen.Kernel.Frame
import proofs.«132711_j11063835754497_2_alg».proof.Proof.Gen.KernelIdeal
import proofs.«132711_j11063835754497_2_alg».proof.Proof.Gen.KernelIdeal.Skeleton
import proofs.«132711_j11063835754497_2_alg».proof.Proof.Gen.KernelIdeal.Launch
import proofs.«132711_j11063835754497_2_alg».proof.Proof.Gen.KernelIdeal.Points
import proofs.«132711_j11063835754497_2_alg».proof.Proof.Gen.KernelIdeal.Frame
import proofs.«132711_j11063835754497_2_alg».proof.Proof.Gen.ReferenceIdeal
import proofs.«132711_j11063835754497_2_alg».proof.Proof.Gen.ReferenceIdeal.Run
import proofs.«132711_j11063835754497_2_alg».proof.Proof.Gen.ReferenceIdeal.Read
import proofs.«132711_j11063835754497_2_alg».proof.Proof.Gen.Pre_finite_inputs
import proofs.«132711_j11063835754497_2_alg».proof.Proof.ValueRun
import proofs.«132711_j11063835754497_2_alg».proof.Proof.FormsProof
import proofs.«132711_j11063835754497_2_alg».proof.Proof.ChainG
import Idealize.ShloMosaic.Adequacy
import Idealize.ShloMosaic.Init

noncomputable section

namespace Cert.Proof

open Idealize.ShloMosaic Idealize.SL.Sem

/-- The kernel at the bit-exact values runs, and its argument arrays end unchanged. -/
theorem frame_Kernel : Cert.frame_Kernel := fun m ρ _ => Cert.Kernel.Gen.frame m ρ

/-- The idealized kernel runs, and its argument arrays end unchanged. -/
theorem frame_KernelIdeal : Cert.frame_KernelIdeal := fun m ρ _ => Cert.KernelIdeal.Gen.frame m ρ

/-- The reference runs, and its argument arrays end unchanged. -/
theorem frame_ReferenceIdeal : Cert.frame_ReferenceIdeal := fun m ρ _ =>
  (θ_run Cert.ReferenceIdeal.defs _ _).mono (fun _ h c => (h c).2) (Cert.ReferenceIdeal.Value.run (F := Ideal) m ρ)

/-- Over the extended reals, from memories that agree on the twenty arguments, the idealized kernel's result array
    and the reference's end equal: both hold the reference's last stage as a function of the arguments. -/
theorem algebraic : Cert.algebraic_KernelIdeal_ReferenceIdeal := by
  intro m ρ m' ρ' _ hagree
  refine ⟨fun c => Cert.ReferenceIdeal.Read.val_main_v127 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)), ?_, ?_⟩
  · exact (θ_run _ _ _).mono
      (fun r h c => ⟨(h c).1.trans (Cert.KernelIdeal.Chain.s10 m ρ c Cert.KernelIdeal.Chain.forms), (h c).2⟩)
      (Cert.KernelIdeal.RunValue.run_value (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v127_eq,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_Kernel, frame_KernelIdeal, frame_ReferenceIdeal, trivial, algebraic⟩

end Cert.Proof

end
